-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3136x256 : Shape := ⟨3, ![8, 3136, 256]⟩
abbrev S768x256 : Shape := ⟨2, ![768, 256]⟩
abbrev S256x256 : Shape := ⟨2, ![256, 256]⟩
abbrev S256 : Shape := ⟨1, ![256]⟩
abbrev S_ : Shape := ⟨0, ![]⟩

class Facts : Prop where
  bcast_S_S8x3136x256 : S_.BroadcastsInDim S8x3136x256 (![] : Fin 0 → Fin S8x3136x256.rank)
  reducesTo_S8x3136x256_S_d0_1_2 : S8x3136x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256 .f32) (main_arg5 : FVec F S768x256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S8x3136x256 .f32) (main_arg1 : FVec F S8x3136x256 .f32) (main_arg2 : FVec F S768x256 .f32) (main_arg3 : FVec F S256x256 .f32) (main_arg4 : FVec F S256 .f32) (main_arg5 : FVec F S768x256 .f32) (main_arg6 : FVec F S256x256 .f32) (main_arg7 : FVec F S256 .f32) : IVec S_ 1 :=
  let main_v0 : FVec F S8x3136x256 .f32 := Host.absf main_arg0
  let main_cst : FVec F S_ .f32 := constant S_ .f32 0x7F800000#32
  let main_v1 : FVec F S8x3136x256 .f32 := broadcastInDim S8x3136x256 ![] bcast_S_S8x3136x256 main_cst
  let main_v2 : IVec S8x3136x256 1 := cmpf .olt main_v0 main_v1
  let main_c : IVec S_ 1 := constantI S_ 1 1#1
  let main_v3 : IVec S_ 1 := (fun x v => Host.reduce IntOp.andi x v reducesTo_S8x3136x256_S_d0_1_2 h_S_) main_v2 main_c
  let main_v4 : FVec F S8x3136x256 .f32 := Host.absf main_arg1
  let main_cst_0 : FVec F S_ .f32 := constant S_ .f32 0x7F800000#32
  let main_v5 : FVec F S8x3136x256 .f32 := broadcastInDim S8x3136x256 ![] bcast_S_S8x3136x256 main_cst_0
  let main_v6 : IVec S8x3136x256 1 := cmpf .olt main_v4 main_v5
  let main_c_1 : IVec S_ 1 := constantI S_ 1 1#1
  let main_v7 : IVec S_ 1 := (fun x v => Host.reduce IntOp.andi x v reducesTo_S8x3136x256_S_d0_1_2 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S8x3136x256 : Shape := ⟨3, ![8, 3136, 256]⟩
abbrev S768x256 : Shape := ⟨2, ![768, 256]⟩
abbrev S256x256 : Shape := ⟨2, ![256, 256]⟩
abbrev S256 : Shape := ⟨1, ![256]⟩
abbrev S4x4 : Shape := ⟨2, ![4, 4]⟩
abbrev S_ : Shape := ⟨0, ![]⟩
abbrev S8x256 : Shape := ⟨2, ![8, 256]⟩
abbrev S8x1x256 : Shape := ⟨3, ![8, 1, 256]⟩
abbrev S256x768 : Shape := ⟨2, ![256, 768]⟩
abbrev S1x448x256 : Shape := ⟨3, ![1, 448, 256]⟩
abbrev S1x1x256 : Shape := ⟨3, ![1, 1, 256]⟩
abbrev S448x256 : Shape := ⟨2, ![448, 256]⟩
abbrev S1x256 : Shape := ⟨2, ![1, 256]⟩
abbrev S1792x256 : Shape := ⟨2, ![1792, 256]⟩
abbrev S1792x768 : Shape := ⟨2, ![1792, 768]⟩
abbrev S4x448x256 : Shape := ⟨3, ![4, 448, 256]⟩
abbrev S4x448x8x32 : Shape := ⟨4, ![4, 448, 8, 32]⟩
abbrev S4x448x8 : Shape := ⟨3, ![4, 448, 8]⟩
abbrev S1x4 : Shape := ⟨2, ![1, 4]⟩
abbrev S4 : Shape := ⟨1, ![4]⟩
abbrev S4x1x1 : Shape := ⟨3, ![4, 1, 1]⟩
abbrev S448x8 : Shape := ⟨2, ![448, 8]⟩
abbrev S1x448x8 : Shape := ⟨3, ![1, 448, 8]⟩
abbrev S4x448x8x1 : Shape := ⟨4, ![4, 448, 8, 1]⟩
abbrev S448x8x32 : Shape := ⟨3, ![448, 8, 32]⟩
abbrev S896x256 : Shape := ⟨2, ![896, 256]⟩
abbrev S2x448x256 : Shape := ⟨3, ![2, 448, 256]⟩

abbrev nBuf : Space → Nat
  | .hbm => 32
  | .vmem => 20
  | .smem => 0
  | _ => 0

abbrev bufTy : (tb : Table) → Fin (tcTables nBuf tb) → BufTy
  | .hbm, ⟨0, _⟩ => ⟨S8x3136x256, .f32⟩
  | .hbm, ⟨1, _⟩ => ⟨S8x3136x256, .f32⟩
  | .hbm, ⟨2, _⟩ => ⟨S768x256, .f32⟩
  | .hbm, ⟨3, _⟩ => ⟨S256x256, .f32⟩
  | .hbm, ⟨4, _⟩ => ⟨S256, .f32⟩
  | .hbm, ⟨5, _⟩ => ⟨S768x256, .f32⟩
  | .hbm, ⟨6, _⟩ => ⟨S256x256, .f32⟩
  | .hbm, ⟨7, _⟩ => ⟨S256, .f32⟩
  | .hbm, ⟨8, _⟩ => ⟨S4x4, .f32⟩
  | .hbm, ⟨9, _⟩ => ⟨S4x4, .f32⟩
  | .hbm, ⟨10, _⟩ => ⟨S_, .f32⟩
  | .hbm, ⟨11, _⟩ => ⟨S8x256, .f32⟩
  | .hbm, ⟨12, _⟩ => ⟨S8x1x256, .f32⟩
  | .hbm, ⟨13, _⟩ => ⟨S_, .f32⟩
  | .hbm, ⟨14, _⟩ => ⟨S8x1x256, .f32⟩
  | .hbm, ⟨15, _⟩ => ⟨S8x1x256, .f32⟩
  | .hbm, ⟨16, _⟩ => ⟨S_, .f32⟩
  | .hbm, ⟨17, _⟩ => ⟨S8x256, .f32⟩
  | .hbm, ⟨18, _⟩ => ⟨S8x1x256, .f32⟩
  | .hbm, ⟨19, _⟩ => ⟨S_, .f32⟩
  | .hbm, ⟨20, _⟩ => ⟨S8x1x256, .f32⟩
  | .hbm, ⟨21, _⟩ => ⟨S8x1x256, .f32⟩
  | .hbm, ⟨22, _⟩ => ⟨S256x768, .f32⟩
  | .hbm, ⟨23, _⟩ => ⟨S256x768, .bf16⟩
  | .hbm, ⟨24, _⟩ => ⟨S256x256, .f32⟩
  | .hbm, ⟨25, _⟩ => ⟨S256x256, .bf16⟩
  | .hbm, ⟨26, _⟩ => ⟨S256x768, .f32⟩
  | .hbm, ⟨27, _⟩ => ⟨S256x768, .bf16⟩
  | .hbm, ⟨28, _⟩ => ⟨S256x256, .f32⟩
  | .hbm, ⟨29, _⟩ => ⟨S256x256, .bf16⟩
  | .hbm, ⟨30, _⟩ => ⟨S8x3136x256, .f32⟩
  | .hbm, ⟨31, _⟩ => ⟨S8x3136x256, .f32⟩
  | .local _ .vmem, ⟨0, _⟩ => ⟨S1x448x256, .f32⟩
  | .local _ .vmem, ⟨1, _⟩ => ⟨S1x448x256, .f32⟩
  | .local _ .vmem, ⟨2, _⟩ => ⟨S1x448x256, .f32⟩
  | .local _ .vmem, ⟨3, _⟩ => ⟨S1x448x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S256x768, .bf16⟩
  | .local _ .vmem, ⟨9, _⟩ => ⟨S256x256, .bf16⟩
  | .local _ .vmem, ⟨10, _⟩ => ⟨S256, .f32⟩
  | .local _ .vmem, ⟨11, _⟩ => ⟨S4x4, .f32⟩
  | .local _ .vmem, ⟨12, _⟩ => ⟨S256x768, .bf16⟩
  | .local _ .vmem, ⟨13, _⟩ => ⟨S256x256, .bf16⟩
  | .local _ .vmem, ⟨14, _⟩ => ⟨S256, .f32⟩
  | .local _ .vmem, ⟨15, _⟩ => ⟨S4x4, .f32⟩
  | .local _ .vmem, ⟨16, _⟩ => ⟨S1x448x256, .f32⟩
  | .local _ .vmem, ⟨17, _⟩ => ⟨S1x448x256, .f32⟩
  | .local _ .vmem, ⟨18, _⟩ => ⟨S1x448x256, .f32⟩
  | .local _ .vmem, ⟨19, _⟩ => ⟨S1x448x256, .f32⟩
  | _, _ => ⟨S8x3136x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_cst_2 : Ref sig .tc := ⟨.hbm, 13, rfl⟩
abbrev main_v2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_v5 : Ref sig .tc := ⟨.hbm, 18, rfl⟩
abbrev main_cst_4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x448x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x448x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x448x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x448x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  reducesTo_S8x3136x256_S8x256_d1 : S8x3136x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  transposes_S768x256_S256x768_1_0 : S768x256.Transposes [1, 0] S256x768
  bitsLt_bf16_f32 : FTy.bits .bf16 < FTy.bits .f32
  transposes_S256x256_S256x256_1_0 : S256x256.Transposes [1, 0] S256x256
  inb_S1x448x256_S1x448x256_0_0_0 : ∀ a, (![0, 0, 0] : Fin 3 → Nat) a + S1x448x256.size a ≤ S1x448x256.size a
  h_S1x448x256 : 0 < S1x448x256.numel
  shapeCasts_S1x448x256_S448x256 : S1x448x256.ShapeCasts S448x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S256 : S1x1x256.ShapeCasts S256
  shapeCasts_S256_S1x256 : S256.ShapeCasts S1x256
  broadcasts_S1x256_S448x256 : S1x256.Broadcasts S448x256
  concatenates_S448x256_S448x256_S448x256_S448x256_S1792x256_d0 : Shape.Concatenates [S448x256, S448x256, S448x256, S448x256] S1792x256 0
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1792x768_o0_0_S1792x256 : S1792x768.Slices ![0, 0] S1792x256
  slices_S1792x768_o0_256_S1792x256 : S1792x768.Slices ![0, 256] S1792x256
  slices_S1792x768_o0_512_S1792x256 : S1792x768.Slices ![0, 512] S1792x256
  shapeCasts_S1792x256_S4x448x256 : S1792x256.ShapeCasts S4x448x256
  shapeCasts_S4x448x256_S4x448x8x32 : S4x448x256.ShapeCasts S4x448x8x32
  inb_S4x4_S4x4_0_0 : ∀ a, (![0, 0] : Fin 2 → Nat) a + S4x4.size a ≤ S4x4.size a
  h_S4x4 : 0 < S4x4.numel
  slices_S4x448x256_o0_0_0_S1x448x256 : S4x448x256.Slices ![0, 0, 0] S1x448x256
  shapeCasts_S448x256_S1x448x256 : S448x256.ShapeCasts S1x448x256
  broadcasts_S1x448x256_S4x448x256 : S1x448x256.Broadcasts S4x448x256
  reduces_S4x448x8x32_S4x448x8 : S4x448x8x32.Reduces [3] S4x448x8
  slices_S4x4_o0_0_S1x4 : S4x4.Slices ![0, 0] S1x4
  shapeCasts_S1x4_S4 : S1x4.ShapeCasts S4
  shapeCasts_S4_S4x1x1 : S4.ShapeCasts S4x1x1
  broadcasts_S4x1x1_S4x448x8 : S4x1x1.Broadcasts S4x448x8
  reduces_S4x448x8_S448x8 : S4x448x8.Reduces [0] S448x8
  shapeCasts_S448x8_S1x448x8 : S448x8.ShapeCasts S1x448x8
  broadcasts_S1x448x8_S4x448x8 : S1x448x8.Broadcasts S4x448x8
  shapeCasts_S4x448x8_S4x448x8x1 : S4x448x8.ShapeCasts S4x448x8x1
  broadcasts_S4x448x8x1_S4x448x8x32 : S4x448x8x1.Broadcasts S4x448x8x32
  reduces_S4x448x8x32_S448x8x32 : S4x448x8x32.Reduces [0] S448x8x32
  shapeCasts_S448x8x32_S448x256 : S448x8x32.ShapeCasts S448x256
  slices_S4x448x256_o1_0_0_S1x448x256 : S4x448x256.Slices ![1, 0, 0] S1x448x256
  slices_S4x4_o1_0_S1x4 : S4x4.Slices ![1, 0] S1x4
  slices_S4x448x256_o2_0_0_S1x448x256 : S4x448x256.Slices ![2, 0, 0] S1x448x256
  slices_S4x4_o2_0_S1x4 : S4x4.Slices ![2, 0] S1x4
  slices_S4x448x256_o3_0_0_S1x448x256 : S4x448x256.Slices ![3, 0, 0] S1x448x256
  slices_S4x4_o3_0_S1x4 : S4x4.Slices ![3, 0] S1x4
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  broadcasts_S1x256_S1792x256 : S1x256.Broadcasts S1792x256
  concatenates_S448x256_S448x256_S896x256_d0 : Shape.Concatenates [S448x256, S448x256] S896x256 0
  broadcasts_S1x256_S896x256 : S1x256.Broadcasts S896x256
  shapeCasts_S896x256_S2x448x256 : S896x256.ShapeCasts S2x448x256
  slices_S2x448x256_o0_0_0_S1x448x256 : S2x448x256.Slices ![0, 0, 0] S1x448x256
  slices_S2x448x256_o1_0_0_S1x448x256 : S2x448x256.Slices ![1, 0, 0] S1x448x256
  dot_S1792x256_S256x768_S1792x768_1_0_0_1_n_n_wf : DotDims.WF S1792x256 S256x768 S1792x768 [1] [0] [0] [1] [] []
  dot_S1792x256_S256x256_S1792x256_1_0_0_1_n_n_wf : DotDims.WF S1792x256 S256x256 S1792x256 [1] [0] [0] [1] [] []
  dot_S896x256_S256x256_S896x256_1_0_0_1_n_n_wf : DotDims.WF S896x256 S256x256 S896x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x448x256.size a ≤ S8x3136x256.size a
  hwx0_0 : ∀ i : grid0.Coords, EltTy.bits .f32 = 32 ∨ (Rect.block (s := S8x3136x256) S1x448x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x448x256.size a ≤ S8x3136x256.size a
  hwx0_1 : ∀ i : grid0.Coords, EltTy.bits .f32 = 32 ∨ (Rect.block (s := S8x3136x256) S1x448x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .f32 = 32 ∨ (Rect.block (s := S8x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x256.size a
  hwx0_3 : ∀ i : grid0.Coords, EltTy.bits .f32 = 32 ∨ (Rect.block (s := S8x1x256) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x4.size a ≤ S4x4.size a
  hwx0_7 : ∀ i : grid0.Coords, EltTy.bits .f32 = 32 ∨ (Rect.block (s := S4x4) S4x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x768.size a ≤ S256x768.size a
  hwx0_8 : ∀ i : grid0.Coords, EltTy.bits .bf16 = 32 ∨ (Rect.block (s := S256x768) S256x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x4.size a ≤ S4x4.size a
  hwx0_11 : ∀ i : grid0.Coords, EltTy.bits .f32 = 32 ∨ (Rect.block (s := S4x4) S4x4.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x448x256.size a ≤ S8x3136x256.size a
  hwx0_12 : ∀ i : grid0.Coords, EltTy.bits .f32 = 32 ∨ (Rect.block (s := S8x3136x256) S1x448x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x448x256.size a ≤ S8x3136x256.size a
  hwx0_13 : ∀ i : grid0.Coords, EltTy.bits .f32 = 32 ∨ (Rect.block (s := S8x3136x256) S1x448x256.size (cc0_transform_13 i) (hinb0_13 i)).WholeWords (EltTy.packing .f32)

variable [Facts₀]

def dot_S1792x256_S256x768_S1792x768_1_0_0_1_n_n : DotDims S1792x256 S256x768 S1792x768 where
  lhsContracting := [1]
  rhsContracting := [0]
  lhsNonContracting := [0]
  rhsNonContracting := [1]
  lhsBatch := []
  rhsBatch := []
  wf := dot_S1792x256_S256x768_S1792x768_1_0_0_1_n_n_wf
def dot_S1792x256_S256x256_S1792x256_1_0_0_1_n_n : DotDims S1792x256 S256x256 S1792x256 where
  lhsContracting := [1]
  rhsContracting := [0]
  lhsNonContracting := [0]
  rhsNonContracting := [1]
  lhsBatch := []
  rhsBatch := []
  wf := dot_S1792x256_S256x256_S1792x256_1_0_0_1_n_n_wf
def dot_S896x256_S256x256_S896x256_1_0_0_1_n_n : DotDims S896x256 S256x256 S896x256 where
  lhsContracting := [1]
  rhsContracting := [0]
  lhsNonContracting := [0]
  rhsNonContracting := [1]
  lhsBatch := []
  rhsBatch := []
  wf := dot_S896x256_S256x256_S896x256_1_0_0_1_n_n_wf

abbrev win0_0 : Pipeline.Window sig grid0 :=
  Pipeline.Window.ofSpec (Memref.whole main_arg0) S1x448x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x448x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S4x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S256x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_cst_0) S4x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16_0) S1x448x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v16_1) S1x448x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x3136x256 : Shape := ⟨3, ![8, 3136, 256]⟩
abbrev S768x256 : Shape := ⟨2, ![768, 256]⟩
abbrev S256x256 : Shape := ⟨2, ![256, 256]⟩
abbrev S256 : Shape := ⟨1, ![256]⟩
abbrev S4x4 : Shape := ⟨2, ![4, 4]⟩
abbrev S_ : Shape := ⟨0, ![]⟩
abbrev S8x256 : Shape := ⟨2, ![8, 256]⟩
abbrev S8x1x256 : Shape := ⟨3, ![8, 1, 256]⟩
abbrev S8x3136x1x256 : Shape := ⟨4, ![8, 3136, 1, 256]⟩
abbrev S8x3136x4x256 : Shape := ⟨4, ![8, 3136, 4, 256]⟩
abbrev S8x3136x4x768 : Shape := ⟨4, ![8, 3136, 4, 768]⟩
abbrev S8x3136x4x8x32 : Shape := ⟨5, ![8, 3136, 4, 8, 32]⟩
abbrev S8x3136x8x4x32 : Shape := ⟨5, ![8, 3136, 8, 4, 32]⟩
abbrev S8x3136x8x4x4 : Shape := ⟨5, ![8, 3136, 8, 4, 4]⟩
abbrev S1x1x1x4x4 : Shape := ⟨5, ![1, 1, 1, 4, 4]⟩
abbrev S8x3136x8x4 : Shape := ⟨4, ![8, 3136, 8, 4]⟩
abbrev S8x3136x8x4x1 : Shape := ⟨5, ![8, 3136, 8, 4, 1]⟩
abbrev S1x1x1x256 : Shape := ⟨4, ![1, 1, 1, 256]⟩

abbrev nBuf : Space → Nat
  | .hbm => 109
  | .vmem => 0
  | .smem => 0
  | _ => 0

abbrev bufTy : (tb : Table) → Fin (tcTables nBuf tb) → BufTy
  | .hbm, ⟨0, _⟩ => ⟨S8x3136x256, .f32⟩
  | .hbm, ⟨1, _⟩ => ⟨S8x3136x256, .f32⟩
  | .hbm, ⟨2, _⟩ => ⟨S768x256, .f32⟩
  | .hbm, ⟨3, _⟩ => ⟨S256x256, .f32⟩
  | .hbm, ⟨4, _⟩ => ⟨S256, .f32⟩
  | .hbm, ⟨5, _⟩ => ⟨S768x256, .f32⟩
  | .hbm, ⟨6, _⟩ => ⟨S256x256, .f32⟩
  | .hbm, ⟨7, _⟩ => ⟨S256, .f32⟩
  | .hbm, ⟨8, _⟩ => ⟨S4x4, .f32⟩
  | .hbm, ⟨9, _⟩ => ⟨S4x4, .f32⟩
  | .hbm, ⟨10, _⟩ => ⟨S_, .f32⟩
  | .hbm, ⟨11, _⟩ => ⟨S8x256, .f32⟩
  | .hbm, ⟨12, _⟩ => ⟨S8x1x256, .f32⟩
  | .hbm, ⟨13, _⟩ => ⟨S_, .f32⟩
  | .hbm, ⟨14, _⟩ => ⟨S8x1x256, .f32⟩
  | .hbm, ⟨15, _⟩ => ⟨S8x1x256, .f32⟩
  | .hbm, ⟨16, _⟩ => ⟨S_, .f32⟩
  | .hbm, ⟨17, _⟩ => ⟨S8x256, .f32⟩
  | .hbm, ⟨18, _⟩ => ⟨S8x1x256, .f32⟩
  | .hbm, ⟨19, _⟩ => ⟨S_, .f32⟩
  | .hbm, ⟨20, _⟩ => ⟨S8x1x256, .f32⟩
  | .hbm, ⟨21, _⟩ => ⟨S8x1x256, .f32⟩
  | .hbm, ⟨22, _⟩ => ⟨S8x3136x256, .f32⟩
  | .hbm, ⟨23, _⟩ => ⟨S8x3136x256, .f32⟩
  | .hbm, ⟨24, _⟩ => ⟨S8x3136x1x256, .f32⟩
  | .hbm, ⟨25, _⟩ => ⟨S8x3136x1x256, .f32⟩
  | .hbm, ⟨26, _⟩ => ⟨S8x3136x1x256, .f32⟩
  | .hbm, ⟨27, _⟩ => ⟨S8x3136x1x256, .f32⟩
  | .hbm, ⟨28, _⟩ => ⟨S8x3136x4x256, .f32⟩
  | .hbm, ⟨29, _⟩ => ⟨S8x3136x4x768, .f32⟩
  | .hbm, ⟨30, _⟩ => ⟨S8x3136x4x256, .f32⟩
  | .hbm, ⟨31, _⟩ => ⟨S8x3136x4x256, .f32⟩
  | .hbm, ⟨32, _⟩ => ⟨S8x3136x4x256, .f32⟩
  | .hbm, ⟨33, _⟩ => ⟨S8x3136x4x8x32, .f32⟩
  | .hbm, ⟨34, _⟩ => ⟨S8x3136x8x4x32, .f32⟩
  | .hbm, ⟨35, _⟩ => ⟨S8x3136x4x8x32, .f32⟩
  | .hbm, ⟨36, _⟩ => ⟨S8x3136x8x4x32, .f32⟩
  | .hbm, ⟨37, _⟩ => ⟨S8x3136x4x8x32, .f32⟩
  | .hbm, ⟨38, _⟩ => ⟨S8x3136x8x4x32, .f32⟩
  | .hbm, ⟨39, _⟩ => ⟨S8x3136x8x4x4, .f32⟩
  | .hbm, ⟨40, _⟩ => ⟨S_, .f32⟩
  | .hbm, ⟨41, _⟩ => ⟨S8x3136x8x4x4, .f32⟩
  | .hbm, ⟨42, _⟩ => ⟨S8x3136x8x4x4, .f32⟩
  | .hbm, ⟨43, _⟩ => ⟨S1x1x1x4x4, .f32⟩
  | .hbm, ⟨44, _⟩ => ⟨S8x3136x8x4x4, .f32⟩
  | .hbm, ⟨45, _⟩ => ⟨S8x3136x8x4x4, .f32⟩
  | .hbm, ⟨46, _⟩ => ⟨S_, .f32⟩
  | .hbm, ⟨47, _⟩ => ⟨S8x3136x8x4, .f32⟩
  | .hbm, ⟨48, _⟩ => ⟨S_, .f32⟩
  | .hbm, ⟨49, _⟩ => ⟨S8x3136x8x4, .f32⟩
  | .hbm, ⟨50, _⟩ => ⟨S8x3136x8x4, .f32⟩
  | .hbm, ⟨51, _⟩ => ⟨S8x3136x8x4x1, .f32⟩
  | .hbm, ⟨52, _⟩ => ⟨S8x3136x8x4x4, .f32⟩
  | .hbm, ⟨53, _⟩ => ⟨S8x3136x8x4x4, .f32⟩
  | .hbm, ⟨54, _⟩ => ⟨S8x3136x8x4x4, .f32⟩
  | .hbm, ⟨55, _⟩ => ⟨S_, .f32⟩
  | .hbm, ⟨56, _⟩ => ⟨S8x3136x8x4, .f32⟩
  | .hbm, ⟨57, _⟩ => ⟨S8x3136x8x4x1, .f32⟩
  | .hbm, ⟨58, _⟩ => ⟨S8x3136x8x4x4, .f32⟩
  | .hbm, ⟨59, _⟩ => ⟨S8x3136x8x4x4, .f32⟩
  | .hbm, ⟨60, _⟩ => ⟨S8x3136x8x4x32, .f32⟩
  | .hbm, ⟨61, _⟩ => ⟨S8x3136x4x8x32, .f32⟩
  | .hbm, ⟨62, _⟩ => ⟨S8x3136x4x256, .f32⟩
  | .hbm, ⟨63, _⟩ => ⟨S8x3136x4x256, .f32⟩
  | .hbm, ⟨64, _⟩ => ⟨S1x1x1x256, .f32⟩
  | .hbm, ⟨65, _⟩ => ⟨S8x3136x4x256, .f32⟩
  | .hbm, ⟨66, _⟩ => ⟨S8x3136x4x256, .f32⟩
  | .hbm, ⟨67, _⟩ => ⟨S8x3136x4x768, .f32⟩
  | .hbm, ⟨68, _⟩ => ⟨S8x3136x4x256, .f32⟩
  | .hbm, ⟨69, _⟩ => ⟨S8x3136x4x256, .f32⟩
  | .hbm, ⟨70, _⟩ => ⟨S8x3136x4x256, .f32⟩
  | .hbm, ⟨71, _⟩ => ⟨S8x3136x4x8x32, .f32⟩
  | .hbm, ⟨72, _⟩ => ⟨S8x3136x8x4x32, .f32⟩
  | .hbm, ⟨73, _⟩ => ⟨S8x3136x4x8x32, .f32⟩
  | .hbm, ⟨74, _⟩ => ⟨S8x3136x8x4x32, .f32⟩
  | .hbm, ⟨75, _⟩ => ⟨S8x3136x4x8x32, .f32⟩
  | .hbm, ⟨76, _⟩ => ⟨S8x3136x8x4x32, .f32⟩
  | .hbm, ⟨77, _⟩ => ⟨S8x3136x8x4x4, .f32⟩
  | .hbm, ⟨78, _⟩ => ⟨S_, .f32⟩
  | .hbm, ⟨79, _⟩ => ⟨S8x3136x8x4x4, .f32⟩
  | .hbm, ⟨80, _⟩ => ⟨S8x3136x8x4x4, .f32⟩
  | .hbm, ⟨81, _⟩ => ⟨S1x1x1x4x4, .f32⟩
  | .hbm, ⟨82, _⟩ => ⟨S8x3136x8x4x4, .f32⟩
  | .hbm, ⟨83, _⟩ => ⟨S8x3136x8x4x4, .f32⟩
  | .hbm, ⟨84, _⟩ => ⟨S_, .f32⟩
  | .hbm, ⟨85, _⟩ => ⟨S8x3136x8x4, .f32⟩
  | .hbm, ⟨86, _⟩ => ⟨S_, .f32⟩
  | .hbm, ⟨87, _⟩ => ⟨S8x3136x8x4, .f32⟩
  | .hbm, ⟨88, _⟩ => ⟨S8x3136x8x4, .f32⟩
  | .hbm, ⟨89, _⟩ => ⟨S8x3136x8x4x1, .f32⟩
  | .hbm, ⟨90, _⟩ => ⟨S8x3136x8x4x4, .f32⟩
  | .hbm, ⟨91, _⟩ => ⟨S8x3136x8x4x4, .f32⟩
  | .hbm, ⟨92, _⟩ => ⟨S8x3136x8x4x4, .f32⟩
  | .hbm, ⟨93, _⟩ => ⟨S_, .f32⟩
  | .hbm, ⟨94, _⟩ => ⟨S8x3136x8x4, .f32⟩
  | .hbm, ⟨95, _⟩ => ⟨S8x3136x8x4x1, .f32⟩
  | .hbm, ⟨96, _⟩ => ⟨S8x3136x8x4x4, .f32⟩
  | .hbm, ⟨97, _⟩ => ⟨S8x3136x8x4x4, .f32⟩
  | .hbm, ⟨98, _⟩ => ⟨S8x3136x8x4x32, .f32⟩
  | .hbm, ⟨99, _⟩ => ⟨S8x3136x4x8x32, .f32⟩
  | .hbm, ⟨100, _⟩ => ⟨S8x3136x4x256, .f32⟩
  | .hbm, ⟨101, _⟩ => ⟨S8x3136x4x256, .f32⟩
  | .hbm, ⟨102, _⟩ => ⟨S1x1x1x256, .f32⟩
  | .hbm, ⟨103, _⟩ => ⟨S8x3136x4x256, .f32⟩
  | .hbm, ⟨104, _⟩ => ⟨S8x3136x4x256, .f32⟩
  | .hbm, ⟨105, _⟩ => ⟨S8x3136x1x256, .f32⟩
  | .hbm, ⟨106, _⟩ => ⟨S8x3136x256, .f32⟩
  | .hbm, ⟨107, _⟩ => ⟨S8x3136x1x256, .f32⟩
  | .hbm, ⟨108, _⟩ => ⟨S8x3136x256, .f32⟩
  | _, _ => ⟨S8x3136x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_cst_2 : Ref sig .tc := ⟨.hbm, 13, rfl⟩
abbrev main_v2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_v5 : Ref sig .tc := ⟨.hbm, 18, rfl⟩
abbrev main_cst_4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩

abbrev nD : Nat := 1
abbrev τ : Topo := Topo.v7x

variable {F : FTy → Type} [FloatOps F]

class Facts₀ : Prop where
  reducesTo_S8x3136x256_S8x256_d1 : S8x3136x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x3136x256_0_1_2 : S8x1x256.BroadcastsInDim S8x3136x256 (![0, 1, 2] : Fin 3 → Fin S8x3136x256.rank)
  bcast_S8x3136x256_S8x3136x1x256_0_1_3 : S8x3136x256.BroadcastsInDim S8x3136x1x256 (![0, 1, 3] : Fin 3 → Fin S8x3136x1x256.rank)
  concatenates_S8x3136x1x256_S8x3136x1x256_S8x3136x1x256_S8x3136x1x256_S8x3136x4x256_d2 : Shape.Concatenates [S8x3136x1x256, S8x3136x1x256, S8x3136x1x256, S8x3136x1x256] S8x3136x4x256 2
  slices_S8x3136x4x768_S8x3136x4x256_0_0_0_0 : S8x3136x4x768.Slices ![0, 0, 0, 0] S8x3136x4x256
  slices_S8x3136x4x768_S8x3136x4x256_0_0_0_256 : S8x3136x4x768.Slices ![0, 0, 0, 256] S8x3136x4x256
  slices_S8x3136x4x768_S8x3136x4x256_0_0_0_512 : S8x3136x4x768.Slices ![0, 0, 0, 512] S8x3136x4x256
  shapeCasts_S8x3136x4x256_S8x3136x4x8x32 : S8x3136x4x256.ShapeCasts S8x3136x4x8x32
  transposes_S8x3136x4x8x32_S8x3136x8x4x32_0_1_3_2_4 : S8x3136x4x8x32.Transposes [0, 1, 3, 2, 4] S8x3136x8x4x32
  bcast_S_S8x3136x8x4x4 : S_.BroadcastsInDim S8x3136x8x4x4 (![] : Fin 0 → Fin S8x3136x8x4x4.rank)
  bcast_S4x4_S1x1x1x4x4_3_4 : S4x4.BroadcastsInDim S1x1x1x4x4 (![3, 4] : Fin 2 → Fin S1x1x1x4x4.rank)
  bcast_S1x1x1x4x4_S8x3136x8x4x4_0_1_2_3_4 : S1x1x1x4x4.BroadcastsInDim S8x3136x8x4x4 (![0, 1, 2, 3, 4] : Fin 5 → Fin S8x3136x8x4x4.rank)
  reducesTo_S8x3136x8x4x4_S8x3136x8x4_d4 : S8x3136x8x4x4.ReducesTo [4] S8x3136x8x4
  bcast_S_S8x3136x8x4 : S_.BroadcastsInDim S8x3136x8x4 (![] : Fin 0 → Fin S8x3136x8x4.rank)
  bcast_S8x3136x8x4_S8x3136x8x4x1_0_1_2_3 : S8x3136x8x4.BroadcastsInDim S8x3136x8x4x1 (![0, 1, 2, 3] : Fin 4 → Fin S8x3136x8x4x1.rank)
  bcast_S8x3136x8x4x1_S8x3136x8x4x4_0_1_2_3_4 : S8x3136x8x4x1.BroadcastsInDim S8x3136x8x4x4 (![0, 1, 2, 3, 4] : Fin 5 → Fin S8x3136x8x4x4.rank)
  transposes_S8x3136x8x4x32_S8x3136x4x8x32_0_1_3_2_4 : S8x3136x8x4x32.Transposes [0, 1, 3, 2, 4] S8x3136x4x8x32
  shapeCasts_S8x3136x4x8x32_S8x3136x4x256 : S8x3136x4x8x32.ShapeCasts S8x3136x4x256
  bcast_S256_S1x1x1x256_3 : S256.BroadcastsInDim S1x1x1x256 (![3] : Fin 1 → Fin S1x1x1x256.rank)
  bcast_S1x1x1x256_S8x3136x4x256_0_1_2_3 : S1x1x1x256.BroadcastsInDim S8x3136x4x256 (![0, 1, 2, 3] : Fin 4 → Fin S8x3136x4x256.rank)
  slices_S8x3136x4x256_S8x3136x1x256_0_0_0_0 : S8x3136x4x256.Slices ![0, 0, 0, 0] S8x3136x1x256
  shapeCasts_S8x3136x1x256_S8x3136x256 : S8x3136x1x256.ShapeCasts S8x3136x256
  slices_S8x3136x4x256_S8x3136x1x256_0_0_1_0 : S8x3136x4x256.Slices ![0, 0, 1, 0] S8x3136x1x256
  dot_S8x3136x4x256_S768x256_S8x3136x4x768_3_1_012_0_n_n_wf : DotDims.WF S8x3136x4x256 S768x256 S8x3136x4x768 [3] [1] [0, 1, 2] [0] [] []
  dot_S8x3136x8x4x32_S8x3136x8x4x32_S8x3136x8x4x4_4_4_3_3_012_012_wf : DotDims.WF S8x3136x8x4x32 S8x3136x8x4x32 S8x3136x8x4x4 [4] [4] [3] [3] [0, 1, 2] [0, 1, 2]
  dot_S8x3136x8x4x4_S8x3136x8x4x32_S8x3136x8x4x32_4_3_3_4_012_012_wf : DotDims.WF S8x3136x8x4x4 S8x3136x8x4x32 S8x3136x8x4x32 [4] [3] [3] [4] [0, 1, 2] [0, 1, 2]
  dot_S8x3136x4x256_S256x256_S8x3136x4x256_3_1_012_0_n_n_wf : DotDims.WF S8x3136x4x256 S256x256 S8x3136x4x256 [3] [1] [0, 1, 2] [0] [] []

variable [Facts₀]

def dot_S8x3136x4x256_S768x256_S8x3136x4x768_3_1_012_0_n_n : DotDims S8x3136x4x256 S768x256 S8x3136x4x768 where
  lhsContracting := [3]
  rhsContracting := [1]
  lhsNonContracting := [0, 1, 2]
  rhsNonContracting := [0]
  lhsBatch := []
  rhsBatch := []
  wf := dot_S8x3136x4x256_S768x256_S8x3136x4x768_3_1_012_0_n_n_wf
def dot_S8x3136x8x4x32_S8x3136x8x4x32_S8x3136x8x4x4_4_4_3_3_012_012 : DotDims S8x3136x8x4x32 S8x3136x8x4x32 S8x3136x8x4x4 where
  lhsContracting := [4]
  rhsContracting := [4]
  lhsNonContracting := [3]
  rhsNonContracting := [3]
  lhsBatch := [0, 1, 2]
  rhsBatch := [0, 1, 2]
  wf := dot_S8x3136x8x4x32_S8x3136x8x4x32_S8x3136x8x4x4_4_4_3_3_012_012_wf
def dot_S8x3136x8x4x4_S8x3136x8x4x32_S8x3136x8x4x32_4_3_3_4_012_012 : DotDims S8x3136x8x4x4 S8x3136x8x4x32 S8x3136x8x4x32 where
  lhsContracting := [4]
  rhsContracting := [3]
  lhsNonContracting := [3]
  rhsNonContracting := [4]
  lhsBatch := [0, 1, 2]
  rhsBatch := [0, 1, 2]
  wf := dot_S8x3136x8x4x4_S8x3136x8x4x32_S8x3136x8x4x32_4_3_3_4_012_012_wf
def dot_S8x3136x4x256_S256x256_S8x3136x4x256_3_1_012_0_n_n : DotDims S8x3136x4x256 S256x256 S8x3136x4x256 where
  lhsContracting := [3]
  rhsContracting := [1]
  lhsNonContracting := [0, 1, 2]
  rhsNonContracting := [0]
  lhsBatch := []
  rhsBatch := []
  wf := dot_S8x3136x4x256_S256x256_S8x3136x4x256_3_1_012_0_n_n_wf

class Facts : Prop extends Facts₀ where

variable [Facts]
-- ==== Proof.Spec.lean ====
/-
  Two rounds of masked attention among four tokens, pixel by pixel, on the extended reals: the function that
  both programs compute.

  At a pixel the four tokens are rows of 256 numbers.  One round projects each token through a 768 × 256 weight
  matrix into a query, a key and a value row (columns 0–255, 256–511, 512–767 of the projection), cuts each row
  into 8 heads of 32 lanes, scores query i against key j head by head (the inner product over the head's 32
  lanes, times a fixed scale word, plus a mask entry), turns each row of four scores into shares by
  exp(score − top) / Σ exp(score − top) with top the largest of the four scores, mixes the four value rows by
  those shares head by head, and sends the mixed row through a 256 × 256 output matrix plus a bias.  The result
  of the whole computation is the second round's rows 0 and 1, the second round being fed the first round's
  four rows.  The tokens of the first round are a pixel's row of x, its row of y, and the two rows of means
  over the pixel axis.
-/
import Idealize.ShloMosaic.PureOps.Ideal.Laws
import Idealize.ShloMosaic.Lib.ValueIdx

noncomputable section

open scoped BigOperators

namespace Cert.Attn

open Idealize.ShloMosaic Idealize.ShloMosaic.ValueIdx

/-- Lane `t` of head `h` in a row of 256 lanes. -/
def lane (h : Fin 8) (t : Fin 32) : Fin 256 := ⟨h.val * 32 + t.val, by omega⟩
/-- The head a lane belongs to. -/
def head (e : Fin 256) : Fin 8 := ⟨e.val / 32, by omega⟩
/-- The lane's place inside its head. -/
def spot (e : Fin 256) : Fin 32 := ⟨e.val % 32, by omega⟩
/-- The projection's column holding lane `e` of the query, of the key, of the value. -/
def qCol (e : Fin 256) : Fin 768 := ⟨e.val, by omega⟩
def kCol (e : Fin 256) : Fin 768 := ⟨256 + e.val, by omega⟩
def vCol (e : Fin 256) : Fin 768 := ⟨512 + e.val, by omega⟩

theorem lane_head_spot (e : Fin 256) : lane (head e) (spot e) = e :=
  Fin.ext (by show e.val / 32 * 32 + e.val % 32 = e.val; omega)
theorem head_lane (h : Fin 8) (t : Fin 32) : head (lane h t) = h :=
  Fin.ext (by show (h.val * 32 + t.val) / 32 = h.val; omega)
theorem spot_lane (h : Fin 8) (t : Fin 32) : spot (lane h t) = t :=
  Fin.ext (by show (h.val * 32 + t.val) % 32 = t.val; omega)

/-- The scale applied to every score: the f32 word nearest 32^(-1/2), the same word in both programs. -/
def scaleWord : EReal := Ideal.ofBits .f32 0x3E3504F3#32
/-- The word of −∞, from which every largest-score fold starts. -/
def bottomWord : EReal := Ideal.ofBits .f32 0xFF800000#32

section Round

variable (W : Fin 768 → Fin 256 → EReal) (Wo : Fin 256 → Fin 256 → EReal) (bo : Fin 256 → EReal)
  (mask : Fin 4 → Fin 4 → EReal) (z : Fin 4 → Fin 256 → EReal)

/-- Token `n` projected onto column `e` of the weight matrix. -/
def proj (n : Fin 4) (e : Fin 768) : EReal := ∑ d : Fin 256, z n d * W e d

/-- The score of query `i` against key `j` in head `h`. -/
def score (i j : Fin 4) (h : Fin 8) : EReal :=
  (∑ t : Fin 32, proj W z i (qCol (lane h t)) * proj W z j (kCol (lane h t))) * scaleWord + mask i j

/-- The largest of query `i`'s four scores in head `h`. -/
def top (i : Fin 4) (h : Fin 8) : EReal :=
  (Finset.univ : Finset (Fin 4)).fold max bottomWord (fun j => score W mask z i j h)

/-- exp(score − top). -/
def weight (i j : Fin 4) (h : Fin 8) : EReal := Ideal.exp (score W mask z i j h - top W mask z i h)

/-- Query `i`'s four weights added up. -/
def total (i : Fin 4) (h : Fin 8) : EReal := ∑ j : Fin 4, weight W mask z i j h

/-- Key `j`'s share of query `i` in head `h`. -/
def share (i j : Fin 4) (h : Fin 8) : EReal := Ideal.div (weight W mask z i j h) (total W mask z i h)

/-- The four value rows mixed by query `i`'s shares, at lane `e`. -/
def mixed (i : Fin 4) (e : Fin 256) : EReal :=
  ∑ j : Fin 4, share W mask z i j (head e) * proj W z j (vCol e)

/-- One round: row `i`, entry `d`. -/
def round (i : Fin 4) (d : Fin 256) : EReal := (∑ e : Fin 256, mixed W mask z i e * Wo d e) + bo d

end Round

/-- The two mask tables, row-major: 0 and −100 (the word 0xC2C80000). -/
def tableA : Fin 16 → BitVec 32 := fun
  | 0 => 0x00000000#32 | 1 => 0x00000000#32 | 2 => 0x00000000#32 | 3 => 0xC2C80000#32
  | 4 => 0x00000000#32 | 5 => 0x00000000#32 | 6 => 0xC2C80000#32 | 7 => 0x00000000#32
  | 8 => 0x00000000#32 | 9 => 0xC2C80000#32 | 10 => 0x00000000#32 | 11 => 0x00000000#32
  | 12 => 0xC2C80000#32 | 13 => 0x00000000#32 | 14 => 0x00000000#32 | 15 => 0x00000000#32
  | _ => 0#32
def tableB : Fin 16 → BitVec 32 := fun
  | 0 => 0x00000000#32 | 1 => 0xC2C80000#32 | 2 => 0x00000000#32 | 3 => 0xC2C80000#32
  | 4 => 0xC2C80000#32 | 5 => 0x00000000#32 | 6 => 0xC2C80000#32 | 7 => 0x00000000#32
  | 8 => 0xC2C80000#32 | 9 => 0xC2C80000#32 | 10 => 0xC2C80000#32 | 11 => 0xC2C80000#32
  | 12 => 0xC2C80000#32 | 13 => 0xC2C80000#32 | 14 => 0xC2C80000#32 | 15 => 0xC2C80000#32
  | _ => 0#32
def cell (i j : Fin 4) : Fin 16 := ⟨i.val * 4 + j.val, by omega⟩
def maskA (i j : Fin 4) : EReal := Ideal.ofBits .f32 (tableA (cell i j))
def maskB (i j : Fin 4) : EReal := Ideal.ofBits .f32 (tableB (cell i j))

/-- The first round's four tokens at pixel (b, p): the pixel's rows of x and of y, and batch b's two mean rows. -/
def tokens (x y : (⟨3, ![8, 3136, 256]⟩ : Shape).Idx → EReal) (mx my : (⟨3, ![8, 1, 256]⟩ : Shape).Idx → EReal)
    (b : Fin 8) (p : Fin 3136) : Fin 4 → Fin 256 → EReal := fun n d =>
  match n with
  | 0 => x (ix3 b p d)
  | 1 => y (ix3 b p d)
  | 2 => mx (ix3 b (0 : Fin 1) d)
  | 3 => my (ix3 b (0 : Fin 1) d)

/-- A mean row as both programs compute it on the host: the sum over the pixel axis started from the zero word, laid
    out as an [8, 1, 256] array, divided entry by entry by the word of 3136. -/
def meanRow (x : FVec Ideal ⟨3, ![8, 3136, 256]⟩ .f32)
    (h1 : Shape.ReducesTo ⟨3, ![8, 3136, 256]⟩ [1] ⟨2, ![8, 256]⟩) (h2 : 0 < (⟨0, ![]⟩ : Shape).numel)
    (h3 : (⟨2, ![8, 256]⟩ : Shape).BroadcastsInDim ⟨3, ![8, 1, 256]⟩ (![0, 2] : Fin 2 → Fin 3))
    (h4 : (⟨0, ![]⟩ : Shape).BroadcastsInDim ⟨3, ![8, 1, 256]⟩ (![] : Fin 0 → Fin 3)) :
    FVec Ideal ⟨3, ![8, 1, 256]⟩ .f32 :=
  Host.divf
    (broadcastInDim ⟨3, ![8, 1, 256]⟩ ![0, 2] h3
      (Host.reduceAdd x (constant (F := Ideal) ⟨0, ![]⟩ .f32 0x00000000#32) h1 h2))
    (broadcastInDim ⟨3, ![8, 1, 256]⟩ ![] h4 (constant (F := Ideal) ⟨0, ![]⟩ .f32 0x45440000#32))

/-- Everything the result depends on besides the pixel: the two inputs, their mean rows, and the two rounds'
    matrices and biases. -/
structure Data where
  x : (⟨3, ![8, 3136, 256]⟩ : Shape).Idx → EReal
  y : (⟨3, ![8, 3136, 256]⟩ : Shape).Idx → EReal
  mx : (⟨3, ![8, 1, 256]⟩ : Shape).Idx → EReal
  my : (⟨3, ![8, 1, 256]⟩ : Shape).Idx → EReal
  w0 : (⟨2, ![768, 256]⟩ : Shape).Idx → EReal
  o0 : (⟨2, ![256, 256]⟩ : Shape).Idx → EReal
  b0 : (⟨1, ![256]⟩ : Shape).Idx → EReal
  w1 : (⟨2, ![768, 256]⟩ : Shape).Idx → EReal
  o1 : (⟨2, ![256, 256]⟩ : Shape).Idx → EReal
  b1 : (⟨1, ![256]⟩ : Shape).Idx → EReal

/-- The first round's four rows at pixel (b, p). -/
def first (D : Data) (b : Fin 8) (p : Fin 3136) : Fin 4 → Fin 256 → EReal :=
  round (fun e d => D.w0 (ix2 e d)) (fun d e => D.o0 (ix2 d e)) (fun d => D.b0 (ix1 d)) maskA
    (tokens D.x D.y D.mx D.my b p)

/-- The second round's row `i` at pixel (b, p). -/
def second (D : Data) (b : Fin 8) (p : Fin 3136) (i : Fin 4) (d : Fin 256) : EReal :=
  round (fun e d => D.w1 (ix2 e d)) (fun d e => D.o1 (ix2 d e)) (fun d => D.b1 (ix1 d)) maskB
    (first D b p) i d

/-- Result `i` (0 or 1) as a whole [8, 3136, 256] array. -/
def result (D : Data) (i : Fin 4) : (⟨3, ![8, 3136, 256]⟩ : Shape).Idx → EReal :=
  fun j => second D (j 0) (j 1) i (j 2)

end Cert.Attn

end
-- ==== Proof.LibHeads.lean ====
/-
  Layout operations and one-axis reductions of a kernel that stacks row blocks into one tall matrix and cuts each row of
  256 lanes into 8 heads of 32, each read at an entry with the indices spelt by coordinates.

  * a tall matrix [N, C] cast to [G, H, C] (N = G·H): entry (g, r, c) is entry (g·H + r, c);
  * a row of 256 lanes cast to 8 heads of 32 lanes, [A, B, 256] → [A, B, 8, 32]: entry (a, b, h, t) is entry
    (a, b, 32·h + t); and back, [B, 8, 32] → [B, 256];
  * a slice of one leading coordinate of a rank-3 array; a leading unit axis broadcast, a column [G, 1, 1] broadcast,
    a trailing unit axis broadcast; the unit-axis casts [1, 1, C] → [C], [G] → [G, 1, 1], [A, B, C] → [A, B, C, 1];
  * two [H, C] arrays stacked along axis 0;
  * over the extended reals, a sum from the zero word over the trailing axis of a rank-4 array, and a maximum from the
    word of −∞ over the leading axis of a rank-3 array, as the plain sum and the fold of max over that coordinate.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lib.Heads

open Idealize.ShloMosaic Idealize.ShloMosaic.ValueIdx

variable {α : Type}

/-- A tall matrix cut into blocks of `H` rows: entry (g, r, c) of the [G, H, C] array is entry (g·H + r, c). -/
theorem rows_to_blocks {N C G H : ℕ} (x : (⟨2, ![N, C]⟩ : Shape).Idx → α)
    (h : (⟨2, ![N, C]⟩ : Shape).ShapeCasts ⟨3, ![G, H, C]⟩) (g : Fin G) (r : Fin H) (c : Fin C) (k : Fin N)
    (hk : k.val = g.val * H + r.val) : shapeCast ⟨3, ![G, H, C]⟩ x h (ix3 g r c) = x (ix2 k c) :=
  shapeCast_apply x h _ _ (by
    rw [Shape.rowMajor_val_two, Shape.rowMajor_val_three]
    show k.val * C + c.val = (g.val * H + r.val) * C + c.val
    rw [hk])

/-- A row of 256 lanes cut into 8 heads of 32: entry (a, b, h, t) is entry (a, b, 32·h + t). -/
theorem lanes_to_heads {A B : ℕ} (x : (⟨3, ![A, B, 256]⟩ : Shape).Idx → α)
    (h : (⟨3, ![A, B, 256]⟩ : Shape).ShapeCasts ⟨4, ![A, B, 8, 32]⟩) (a : Fin A) (b : Fin B) (hd : Fin 8) (t : Fin 32)
    (e : Fin 256) (he : e.val = hd.val * 32 + t.val) :
    shapeCast ⟨4, ![A, B, 8, 32]⟩ x h (ix4 a b hd t) = x (ix3 a b e) :=
  shapeCast_apply x h _ _ (by
    rw [Shape.rowMajor_val_three, Shape.rowMajor_val_four]
    show (a.val * B + b.val) * 256 + e.val = ((a.val * B + b.val) * 8 + hd.val) * 32 + t.val
    omega)

/-- Eight heads of 32 lanes laid back in one row of 256: entry (b, 32·h + t) is entry (b, h, t). -/
theorem heads_to_lanes {B : ℕ} (x : (⟨3, ![B, 8, 32]⟩ : Shape).Idx → α)
    (h : (⟨3, ![B, 8, 32]⟩ : Shape).ShapeCasts ⟨2, ![B, 256]⟩) (b : Fin B) (e : Fin 256) (hd : Fin 8) (t : Fin 32)
    (he : e.val = hd.val * 32 + t.val) : shapeCast ⟨2, ![B, 256]⟩ x h (ix2 b e) = x (ix3 b hd t) :=
  shapeCast_apply x h _ _ (by
    rw [Shape.rowMajor_val_three, Shape.rowMajor_val_two]
    show (b.val * 8 + hd.val) * 32 + t.val = b.val * 256 + e.val
    omega)

/-- One leading coordinate of a rank-3 array: the slice from `o` along axis 0 reads, at (u, r, c), the source at (k, r, c)
    with k = o + u. -/
theorem slice_lead3 {G H C : ℕ} (o : ℕ) (X : (⟨3, ![G, H, C]⟩ : Shape).Idx → α)
    (h : (⟨3, ![G, H, C]⟩ : Shape).Slices ![o, 0, 0] ⟨3, ![1, H, C]⟩) (u : Fin 1) (r : Fin H) (c : Fin C) (k : Fin G)
    (hk : k.val = o + u.val) : extractStridedSlice ⟨3, ![1, H, C]⟩ ![o, 0, 0] X h (ix3 u r c) = X (ix3 k r c) :=
  extractStridedSlice_apply _ _ _ _ _ (fun ax => by
    match ax with
    | ⟨0, _⟩ => exact hk
    | ⟨1, _⟩ => exact (Nat.zero_add _).symm
    | ⟨2, _⟩ => exact (Nat.zero_add _).symm)

/-- A [1, H, C] array broadcast along a new leading extent reads, at (g, r, c), its entry (0, r, c). -/
theorem bcast_lead3 {G H C : ℕ} (v : (⟨3, ![1, H, C]⟩ : Shape).Idx → α)
    (h : (⟨3, ![1, H, C]⟩ : Shape).Broadcasts ⟨3, ![G, H, C]⟩) (g : Fin G) (r : Fin H) (c : Fin C) :
    broadcastTo ⟨3, ![G, H, C]⟩ v h (ix3 g r c) = v (ix3 (0 : Fin 1) r c) := by
  refine broadcastTo_apply v h (ix3 g r c) (ix3 (0 : Fin 1) r c) fun ax => ?_
  match ax with
  | ⟨0, _⟩ => rfl
  | ⟨1, _⟩ =>
    show r.val = if H = 1 then 0 else r.val
    split
    · have := r.isLt; omega
    · rfl
  | ⟨2, _⟩ =>
    show c.val = if C = 1 then 0 else c.val
    split
    · have := c.isLt; omega
    · rfl

/-- A column [G, 1, 1] broadcast over the two trailing extents reads, at (g, r, c), its entry (g, 0, 0). -/
theorem bcast_col3 {G H C : ℕ} (v : (⟨3, ![G, 1, 1]⟩ : Shape).Idx → α)
    (h : (⟨3, ![G, 1, 1]⟩ : Shape).Broadcasts ⟨3, ![G, H, C]⟩) (g : Fin G) (r : Fin H) (c : Fin C) :
    broadcastTo ⟨3, ![G, H, C]⟩ v h (ix3 g r c) = v (ix3 g (0 : Fin 1) (0 : Fin 1)) := by
  refine broadcastTo_apply v h (ix3 g r c) (ix3 g (0 : Fin 1) (0 : Fin 1)) fun ax => ?_
  match ax with
  | ⟨0, _⟩ =>
    show g.val = if G = 1 then 0 else g.val
    split
    · have := g.isLt; omega
    · rfl
  | ⟨1, _⟩ => rfl
  | ⟨2, _⟩ => rfl

/-- A trailing unit axis broadcast to `T` lanes: [A, B, C, 1] → [A, B, C, T] reads, at (a, b, c, t), entry (a, b, c, 0). -/
theorem bcast_last4 {A B C T : ℕ} (v : (⟨4, ![A, B, C, 1]⟩ : Shape).Idx → α)
    (h : (⟨4, ![A, B, C, 1]⟩ : Shape).Broadcasts ⟨4, ![A, B, C, T]⟩) (a : Fin A) (b : Fin B) (c : Fin C) (t : Fin T) :
    broadcastTo ⟨4, ![A, B, C, T]⟩ v h (ix4 a b c t) = v (ix4 a b c (0 : Fin 1)) := by
  refine broadcastTo_apply v h (ix4 a b c t) (ix4 a b c (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl
  | ⟨3, _⟩ => rfl

/-- A [1, 1, C] array cast to a vector [C] reads, at c, its entry (0, 0, c). -/
theorem cast_11c_c {C : ℕ} (x : (⟨3, ![1, 1, C]⟩ : Shape).Idx → α) (h : (⟨3, ![1, 1, C]⟩ : Shape).ShapeCasts ⟨1, ![C]⟩)
    (c : Fin C) : shapeCast ⟨1, ![C]⟩ x h (ix1 c) = x (ix3 (0 : Fin 1) (0 : Fin 1) c) :=
  shapeCast_apply x h _ _ (by
    rw [Shape.rowMajor_val_three, Shape.rowMajor_val_one]
    show (0 * 1 + 0) * C + c.val = c.val
    omega)

/-- A vector [G] cast to a column [G, 1, 1] reads, at (g, u, w), its entry g. -/
theorem cast_g_g11 {G : ℕ} (x : (⟨1, ![G]⟩ : Shape).Idx → α) (h : (⟨1, ![G]⟩ : Shape).ShapeCasts ⟨3, ![G, 1, 1]⟩)
    (g : Fin G) (u w : Fin 1) : shapeCast ⟨3, ![G, 1, 1]⟩ x h (ix3 g u w) = x (ix1 g) :=
  shapeCast_apply x h _ _ (by
    have hu : u.val = 0 := by omega
    have hw : w.val = 0 := by omega
    rw [Shape.rowMajor_val_one, Shape.rowMajor_val_three]
    show g.val = (g.val * 1 + u.val) * 1 + w.val
    omega)

/-- A rank-3 array given a trailing unit axis reads, at (a, b, c, u), its entry (a, b, c). -/
theorem cast_abc_abc1 {A B C : ℕ} (x : (⟨3, ![A, B, C]⟩ : Shape).Idx → α)
    (h : (⟨3, ![A, B, C]⟩ : Shape).ShapeCasts ⟨4, ![A, B, C, 1]⟩) (a : Fin A) (b : Fin B) (c : Fin C) (u : Fin 1) :
    shapeCast ⟨4, ![A, B, C, 1]⟩ x h (ix4 a b c u) = x (ix3 a b c) :=
  shapeCast_apply x h _ _ (by
    have hu : u.val = 0 := by omega
    rw [Shape.rowMajor_val_three, Shape.rowMajor_val_four]
    show (a.val * B + b.val) * C + c.val = ((a.val * B + b.val) * C + c.val) * 1 + u.val
    omega)

/-- Two [H, C] arrays stacked along axis 0: the entry at row g·H + r, column c, is entry (r, c) of array g. -/
theorem stack2_rows_apply {H C N : ℕ} (u : Fin 2 → ((⟨2, ![H, C]⟩ : Shape).Idx → α))
    (h : Shape.Concatenates [⟨2, ![H, C]⟩, ⟨2, ![H, C]⟩] ⟨2, ![N, C]⟩ 0)
    (g : Fin 2) (r : Fin H) (c : Fin C) (j : (⟨2, ![N, C]⟩ : Shape).Idx)
    (hj0 : (j 0).val = g.val * H + r.val) (hj1 : (j 1).val = c.val) :
    concatenate ⟨2, ![N, C]⟩ 0 [⟨⟨2, ![H, C]⟩, u 0⟩, ⟨⟨2, ![H, C]⟩, u 1⟩] h j = u g (ix2 r c) := by
  have hi : ∀ b : Fin 2, b.cast rfl ≠ (0 : Fin 2) → ((ix2 r c : (⟨2, ![H, C]⟩ : Shape).Idx) b).val
      = (j (b.cast rfl)).val := fun b hb =>
    match b, hb with
    | ⟨0, _⟩, hb => absurd rfl hb
    | ⟨1, _⟩, _ => hj1.symm
  fin_cases g
  · exact concatenate_apply_piece (t := ⟨2, ![N, C]⟩) 0 [⟨⟨2, ![H, C]⟩, u 0⟩, ⟨⟨2, ![H, C]⟩, u 1⟩] h j 0 (by simp) ⟨2, ![H, C]⟩ (u 0) rfl rfl 0 rfl _ hi (by simp at hj0; show 0 + r.val = (j 0).val; omega)
  · exact concatenate_apply_piece (t := ⟨2, ![N, C]⟩) 0 [⟨⟨2, ![H, C]⟩, u 0⟩, ⟨⟨2, ![H, C]⟩, u 1⟩] h j 1 (by simp) ⟨2, ![H, C]⟩ (u 1) rfl rfl H (by simp) _ hi (by simp at hj0; show H + r.val = (j 0).val; omega)

/-- The sum from the zero word over the trailing axis of a rank-4 array. -/
theorem sum_trail4 {a b c d : ℕ} (v : FVec Ideal ⟨4, ![a, b, c, d]⟩ .f32)
    (h : Shape.Reduces ⟨4, ![a, b, c, d]⟩ [3] ⟨3, ![a, b, c]⟩) (hφ : FKind.Formats .f32)
    (hacc : (0x00000000#32 : BitVec 32) = FKind.add.neutral .f32 hφ) (p : Fin a) (q : Fin b) (r : Fin c) :
    multiReduction .add [3] ⟨3, ![a, b, c]⟩ v 0x00000000#32 h hφ hacc (ix3 p q r) = ∑ k : Fin d, v (ix4 p q r k) :=
  (Ideal.multiReduction_add_single v _ h hφ hacc (ix3 p q r)).trans
    (Finset.sum_congr rfl fun k _ => congrArg v (funext fun e => match e with
      | ⟨0, _⟩ => rfl | ⟨1, _⟩ => rfl | ⟨2, _⟩ => rfl | ⟨3, _⟩ => rfl))

/-- The maximum from the word of −∞ over the leading axis of a rank-3 array: the fold of max down that axis. -/
theorem max_lead3 {a b c : ℕ} (v : FVec Ideal ⟨3, ![a, b, c]⟩ .f32)
    (h : Shape.Reduces ⟨3, ![a, b, c]⟩ [0] ⟨2, ![b, c]⟩) (hφ : FKind.Formats .f32)
    (hacc : (0xFF800000#32 : BitVec 32) = FKind.maximumf.neutral .f32 hφ) (p : Fin b) (q : Fin c) :
    multiReduction .maximumf [0] ⟨2, ![b, c]⟩ v 0xFF800000#32 h hφ hacc (ix2 p q)
      = (Finset.univ : Finset (Fin a)).fold max (Ideal.ofBits .f32 0xFF800000#32) (fun k => v (ix3 k p q)) := by
  refine (Ideal.multiReduction_maximumf_single v 0xFF800000#32 h hφ hacc (ix2 p q)).trans ?_
  exact congrArg (fun f : Fin a → EReal => (Finset.univ : Finset (Fin a)).fold max (Ideal.ofBits .f32 0xFF800000#32) f)
    (funext fun k => congrArg v (funext fun e => match e with
      | ⟨0, _⟩ => rfl | ⟨1, _⟩ => rfl | ⟨2, _⟩ => rfl))

end Cert.Lib.Heads

end
-- ==== Proof.LibAxisSum.lean ====
import Idealize.ShloMosaic.PureOps.Ideal.Laws
import Idealize.ShloMosaic.Lib.ValueIdx
import Idealize.ShloMosaic.Lib.Pipeline.Value

/-!
# A kernel's one-axis sums and keepdims casts, read at an entry

Over the extended reals a `vector.multi_reduction <add>` over one axis, from the zero word, is at each remaining
index the plain sum over that axis's coordinate. Stated here with the indices spelt by coordinates, for the
leading axis of arrays of rank 4, 3 and 2 and for the trailing axis of a rank-2 array, at any extents; and the cast
of a vector to a one-lane column, which a sum with kept dimensions goes through, read at an entry.
-/

noncomputable section

open scoped BigOperators

namespace Cert.Lib

open Idealize.ShloMosaic Idealize.ShloMosaic.ValueIdx

/-- The sum over the leading axis of a rank-4 array. -/
theorem sum_lead4 {a b c d : ℕ} (v : FVec Ideal ⟨4, ![a, b, c, d]⟩ .f32)
    (h : Shape.Reduces ⟨4, ![a, b, c, d]⟩ [0] ⟨3, ![b, c, d]⟩) (hφ : FKind.Formats .f32)
    (hacc : (0x00000000#32 : BitVec 32) = FKind.add.neutral .f32 hφ) (p : Fin b) (q : Fin c) (r : Fin d) :
    multiReduction .add [0] ⟨3, ![b, c, d]⟩ v 0x00000000#32 h hφ hacc (ix3 p q r) = ∑ k : Fin a, v (ix4 k p q r) :=
  (Ideal.multiReduction_add_single v _ h hφ hacc (ix3 p q r)).trans
    (Finset.sum_congr rfl fun k _ => congrArg v (funext fun e => match e with
      | ⟨0, _⟩ => rfl | ⟨1, _⟩ => rfl | ⟨2, _⟩ => rfl | ⟨3, _⟩ => rfl))

/-- The sum over the leading axis of a rank-3 array. -/
theorem sum_lead3 {a b c : ℕ} (v : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (p : Fin b) (q : Fin c) :
    multiReduction .add [0] ⟨2, ![b, c]⟩ v 0x00000000#32 h hφ hacc (ix2 p q) = ∑ k : Fin a, v (ix3 k p q) :=
  (Ideal.multiReduction_add_single v _ h hφ hacc (ix2 p q)).trans
    (Finset.sum_congr rfl fun k _ => congrArg v (funext fun e => match e with
      | ⟨0, _⟩ => rfl | ⟨1, _⟩ => rfl | ⟨2, _⟩ => rfl))

/-- The sum over the leading axis of a rank-2 array. -/
theorem sum_lead2 {a b : ℕ} (v : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (p : Fin b) :
    multiReduction .add [0] ⟨1, ![b]⟩ v 0x00000000#32 h hφ hacc (ix1 p) = ∑ k : Fin a, v (ix2 k p) :=
  (Ideal.multiReduction_add_single v _ h hφ hacc (ix1 p)).trans
    (Finset.sum_congr rfl fun k _ => congrArg v (funext fun e => match e with
      | ⟨0, _⟩ => rfl | ⟨1, _⟩ => rfl))

/-- The sum over the trailing axis of a rank-2 array. -/
theorem sum_trail2 {a b : ℕ} (v : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ v 0x00000000#32 h hφ hacc (ix1 p) = ∑ k : Fin b, v (ix2 p k) :=
  (Ideal.multiReduction_add_single v _ h hφ hacc (ix1 p)).trans
    (Finset.sum_congr rfl fun k _ => congrArg v (funext fun e => match e with
      | ⟨0, _⟩ => rfl | ⟨1, _⟩ => rfl))

/-- A vector cast to a one-lane column reads, at row `p`, the vector's entry `p`. -/
theorem cast_column_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.Lib

end
-- ==== Proof.KQuery.lean ====
/-
  One query's attention inside the kernel body, in five steps, each read at an entry.

  The body holds the queries and keys of a 448-pixel stretch as [4, 448, 256] arrays (token, pixel, lane), the values
  as [4, 448, 8, 32] (token, pixel, head, lane of the head) and a 4 × 4 mask table.  For query token i it
    * multiplies query i's row, repeated for the four key tokens, into the keys and adds up each head's 32 lanes;
    * scales by the fixed word;
    * adds row i of the mask table, one entry per key token;
    * subtracts the largest of the four and exponentiates;
    * divides by the four weights' sum, multiplies into the values, adds up over the key tokens, and lays the 8 heads
      back into a row of 256 lanes.
  Entry (pixel r, lane e) of the outcome is the specification's mixed row at lane e, once the queries, keys, values
  and mask entries at pixel r are the projections and mask the specification names.
-/
import proofs.«102808_j38259568673081_2_alg».proof.Proof.Gen.KernelIdeal.Skeleton
import proofs.«102808_j38259568673081_2_alg».proof.Proof.Spec
import proofs.«102808_j38259568673081_2_alg».proof.Proof.LibHeads
import proofs.«102808_j38259568673081_2_alg».proof.Proof.LibAxisSum
import Idealize.ShloMosaic.Lib.ValueLayout

noncomputable section

open scoped BigOperators

namespace Cert.KernelIdeal.Query

open Idealize.ShloMosaic Idealize.ShloMosaic.ValueIdx Cert.KernelIdeal Cert.KernelIdeal.Gen Cert.Lib.Heads Cert.Lib

/-! ## The five steps -/

/-- Query `o`'s row times every key row, added up over each head's 32 lanes. -/
def grouped (o : ℕ) (hs : S4x448x256.Slices ![o, 0, 0] S1x448x256) (Q K : FVec Ideal S4x448x256 .f32) :
    FVec Ideal S4x448x8 .f32 :=
  multiReduction .add [3] S4x448x8
    (shapeCast S4x448x8x32
      (mulf
        (broadcastTo S4x448x256
          (shapeCast S1x448x256
            (shapeCast S448x256 (extractStridedSlice S1x448x256 ![o, 0, 0] Q hs) shapeCasts_S1x448x256_S448x256)
            shapeCasts_S448x256_S1x448x256)
          broadcasts_S1x448x256_S4x448x256)
        K)
      shapeCasts_S4x448x256_S4x448x8x32)
    0x00000000#32 reduces_S4x448x8x32_S4x448x8 (.inl rfl) rfl

/-- Times the scale word. -/
def scaled (g : FVec Ideal S4x448x8 .f32) : FVec Ideal S4x448x8 .f32 :=
  mulf g (broadcast S4x448x8 (Scalar.ofBits (F := Ideal) .f32 0x3E3504F3#32))

/-- Row `o` of the mask table as a column over the key tokens. -/
def maskCol (o : ℕ) (hm : S4x4.Slices ![o, 0] S1x4) (M : Vec Ideal S4x4 .f32) : FVec Ideal S4x1x1 .f32 :=
  shapeCast S4x1x1 (shapeCast S4 (extractStridedSlice S1x4 ![o, 0] M hm) shapeCasts_S1x4_S4) shapeCasts_S4_S4x1x1

/-- Plus the mask column. -/
def masked (s : FVec Ideal S4x448x8 .f32) (mc : FVec Ideal S4x1x1 .f32) : FVec Ideal S4x448x8 .f32 :=
  addf s (broadcastTo S4x448x8 mc broadcasts_S4x1x1_S4x448x8)

/-- exp(score − largest score over the key tokens). -/
def weights (s : FVec Ideal S4x448x8 .f32) : FVec Ideal S4x448x8 .f32 :=
  exp (subf s (broadcastTo S4x448x8
    (shapeCast S1x448x8
      (multiReduction .maximumf [0] S448x8 s 0xFF800000#32 reduces_S4x448x8_S448x8 (.inl rfl) rfl)
      shapeCasts_S448x8_S1x448x8)
    broadcasts_S1x448x8_S4x448x8))

/-- Shares of the weights, times the values, added over the key tokens, heads laid back into lanes. -/
def mix (w : FVec Ideal S4x448x8 .f32) (Vh : FVec Ideal S4x448x8x32 .f32) : FVec Ideal S448x256 .f32 :=
  shapeCast S448x256
    (multiReduction .add [0] S448x8x32
      (mulf
        (broadcastTo S4x448x8x32
          (shapeCast S4x448x8x1
            (divf w (broadcastTo S4x448x8
              (shapeCast S1x448x8
                (multiReduction .add [0] S448x8 w 0x00000000#32 reduces_S4x448x8_S448x8 (.inl rfl) rfl)
                shapeCasts_S448x8_S1x448x8)
              broadcasts_S1x448x8_S4x448x8))
            shapeCasts_S4x448x8_S4x448x8x1)
          broadcasts_S4x448x8x1_S4x448x8x32)
        Vh)
      0x00000000#32 reduces_S4x448x8x32_S448x8x32 (.inl rfl) rfl)
    shapeCasts_S448x8x32_S448x256

/-! ## Each step at an entry -/

theorem grouped_apply (o : ℕ) (hs : S4x448x256.Slices ![o, 0, 0] S1x448x256) (Q K : FVec Ideal S4x448x256 .f32)
    (i : Fin 4) (hi : i.val = o) (j : Fin 4) (r : Fin 448) (h : Fin 8) :
    grouped o hs Q K (ix3 j r h)
      = ∑ t : Fin 32, Q (ix3 i r (Cert.Attn.lane h t)) * K (ix3 j r (Cert.Attn.lane h t)) := by
  unfold grouped
  refine (sum_trail4 _ _ _ _ j r h).trans ?_
  refine Finset.sum_congr rfl fun t _ => ?_
  refine (lanes_to_heads _ _ j r h t (Cert.Attn.lane h t) rfl).trans ?_
  refine congrArg (fun x => x * K (ix3 j r (Cert.Attn.lane h t))) ?_
  refine (bcast_lead3 _ _ j r (Cert.Attn.lane h t)).trans ?_
  refine (shapeCast_ab_1ab_apply _ _ (0 : Fin 1) r (Cert.Attn.lane h t)).trans ?_
  refine (shapeCast_1ab_ab_apply _ _ r (Cert.Attn.lane h t)).trans ?_
  exact slice_lead3 o Q hs (0 : Fin 1) r (Cert.Attn.lane h t) i (by rw [hi]; rfl)

theorem scaled_apply (g : FVec Ideal S4x448x8 .f32) (j : S4x448x8.Idx) : scaled g j = g j * Cert.Attn.scaleWord := rfl

theorem maskCol_apply (o : ℕ) (hm : S4x4.Slices ![o, 0] S1x4) (M : Vec Ideal S4x4 .f32) (i : Fin 4) (hi : i.val = o)
    (j : Fin 4) (u w : Fin 1) : maskCol o hm M (ix3 j u w) = M (ix2 i j) := by
  unfold maskCol
  refine (cast_g_g11 _ _ j u w).trans ?_
  refine (shapeCast_1a_a_apply _ _ j).trans ?_
  exact slice2_axis0_apply o M hm (0 : Fin 1) j i (by rw [hi]; rfl)

theorem masked_apply (s : FVec Ideal S4x448x8 .f32) (mc : FVec Ideal S4x1x1 .f32) (j : Fin 4) (r : Fin 448) (h : Fin 8) :
    masked s mc (ix3 j r h) = s (ix3 j r h) + mc (ix3 j (0 : Fin 1) (0 : Fin 1)) :=
  congrArg (fun x => s (ix3 j r h) + x) (bcast_col3 mc _ j r h)

theorem weights_apply (s : FVec Ideal S4x448x8 .f32) (j : Fin 4) (r : Fin 448) (h : Fin 8) :
    weights s (ix3 j r h)
      = Ideal.exp (s (ix3 j r h)
          - (Finset.univ : Finset (Fin 4)).fold max Cert.Attn.bottomWord (fun k => s (ix3 k r h))) := by
  unfold weights
  refine congrArg (fun x => Ideal.exp (s (ix3 j r h) - x)) ?_
  refine (bcast_lead3 _ _ j r h).trans ?_
  refine (shapeCast_ab_1ab_apply _ _ (0 : Fin 1) r h).trans ?_
  exact max_lead3 s _ _ _ r h

theorem mix_apply (w : FVec Ideal S4x448x8 .f32) (Vh : FVec Ideal S4x448x8x32 .f32) (r : Fin 448) (e : Fin 256) :
    mix w Vh (ix2 r e)
      = ∑ j : Fin 4, Ideal.div (w (ix3 j r (Cert.Attn.head e))) (∑ k : Fin 4, w (ix3 k r (Cert.Attn.head e)))
          * Vh (ix4 j r (Cert.Attn.head e) (Cert.Attn.spot e)) := by
  unfold mix
  refine (heads_to_lanes _ _ r e (Cert.Attn.head e) (Cert.Attn.spot e)
    (by show e.val = e.val / 32 * 32 + e.val % 32; omega)).trans ?_
  refine (sum_lead4 _ _ _ _ r (Cert.Attn.head e) (Cert.Attn.spot e)).trans ?_
  refine Finset.sum_congr rfl fun j _ => ?_
  refine congrArg (fun x => x * Vh (ix4 j r (Cert.Attn.head e) (Cert.Attn.spot e))) ?_
  refine (bcast_last4 _ _ j r (Cert.Attn.head e) (Cert.Attn.spot e)).trans ?_
  refine (cast_abc_abc1 _ _ j r (Cert.Attn.head e) (0 : Fin 1)).trans ?_
  refine congrArg (fun x => Ideal.div (w (ix3 j r (Cert.Attn.head e))) x) ?_
  refine (bcast_lead3 _ _ j r (Cert.Attn.head e)).trans ?_
  refine (shapeCast_ab_1ab_apply _ _ (0 : Fin 1) r (Cert.Attn.head e)).trans ?_
  exact sum_lead3 w _ _ _ r (Cert.Attn.head e)

/-! ## A whole query is the specification's mixed row -/

section
variable {W : Fin 768 → Fin 256 → EReal} {mask : Fin 4 → Fin 4 → EReal} {z : Fin 4 → Fin 256 → EReal}
  (Q K : FVec Ideal S4x448x256 .f32) (Vh : FVec Ideal S4x448x8x32 .f32) (M : Vec Ideal S4x4 .f32) (r : Fin 448)
  (hQ : ∀ (n : Fin 4) (e : Fin 256), Q (ix3 n r e) = Cert.Attn.proj W z n (Cert.Attn.qCol e))
  (hK : ∀ (n : Fin 4) (e : Fin 256), K (ix3 n r e) = Cert.Attn.proj W z n (Cert.Attn.kCol e))
  (hV : ∀ (n : Fin 4) (h : Fin 8) (t : Fin 32),
    Vh (ix4 n r h t) = Cert.Attn.proj W z n (Cert.Attn.vCol (Cert.Attn.lane h t)))
  (hM : ∀ i j : Fin 4, M (ix2 i j) = mask i j)
  (o : ℕ) (hs : S4x448x256.Slices ![o, 0, 0] S1x448x256) (hm : S4x4.Slices ![o, 0] S1x4) (i : Fin 4) (hi : i.val = o)

include hQ hK hM hi in
/-- The masked, scaled lane sums are the specification's scores. -/
theorem logits (j : Fin 4) (h : Fin 8) :
    masked (scaled (grouped o hs Q K)) (maskCol o hm M) (ix3 j r h) = Cert.Attn.score W mask z i j h := by
  rw [masked_apply, scaled_apply, grouped_apply o hs Q K i hi, maskCol_apply o hm M i hi, hM]
  unfold Cert.Attn.score
  simp only [hQ, hK]

include hQ hK hM hi in
/-- exp(score − top) is the specification's weight. -/
theorem weights_eq (j : Fin 4) (h : Fin 8) :
    weights (masked (scaled (grouped o hs Q K)) (maskCol o hm M)) (ix3 j r h) = Cert.Attn.weight W mask z i j h := by
  rw [weights_apply]
  simp only [logits Q K M r hQ hK hM o hs hm i hi]
  rfl

include hQ hK hV hM hi in
/-- The query's outcome at (pixel r, lane e) is the specification's mixed row. -/
theorem mixed_eq (e : Fin 256) :
    mix (weights (masked (scaled (grouped o hs Q K)) (maskCol o hm M))) Vh (ix2 r e) = Cert.Attn.mixed W mask z i e := by
  rw [mix_apply]
  simp only [weights_eq Q K M r hQ hK hM o hs hm i hi, hV, Cert.Attn.lane_head_spot]
  rfl

end

end Cert.KernelIdeal.Query

end
-- ==== Proof.LibRowBlocks.lean ====
/-
  Four arrays of one shape stacked along the leading axis, read at an entry: row `g · H + r` of the stack is
  row `r` of the `g`-th array.  For two-axis arrays [H, C] stacked to [N, C] and for vectors [H] laid end to
  end to [N]; any extents, any element type.
-/
import Idealize.ShloMosaic.Lib.Pipeline.Value
import Idealize.ShloMosaic.Lib.ValueIdx

namespace Cert.Proof.LibRowBlocks

open Idealize.ShloMosaic Idealize.ShloMosaic.ValueIdx

variable {α : Type} {H C N : ℕ}

/-- Four [H, C] arrays stacked along axis 0: the entry at row `g · H + r`, column `c`, is entry (r, c) of array `g`. -/
theorem stack4_rows_apply (u : Fin 4 → ((⟨2, ![H, C]⟩ : Shape).Idx → α))
    (h : Shape.Concatenates [⟨2, ![H, C]⟩, ⟨2, ![H, C]⟩, ⟨2, ![H, C]⟩, ⟨2, ![H, C]⟩] ⟨2, ![N, C]⟩ 0)
    (g : Fin 4) (r : Fin H) (c : Fin C) (j : (⟨2, ![N, C]⟩ : Shape).Idx)
    (hj0 : (j 0).val = g.val * H + r.val) (hj1 : (j 1).val = c.val) :
    concatenate ⟨2, ![N, C]⟩ 0
        [⟨⟨2, ![H, C]⟩, u 0⟩, ⟨⟨2, ![H, C]⟩, u 1⟩, ⟨⟨2, ![H, C]⟩, u 2⟩, ⟨⟨2, ![H, C]⟩, u 3⟩] h j
      = u g (ix2 r c) := by
  have hi : ∀ b : Fin 2, b.cast rfl ≠ (0 : Fin 2) → ((ix2 r c : (⟨2, ![H, C]⟩ : Shape).Idx) b).val
      = (j (b.cast rfl)).val := fun b hb =>
    match b, hb with
    | ⟨0, _⟩, hb => absurd rfl hb
    | ⟨1, _⟩, _ => hj1.symm
  fin_cases g
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 0 (by simp) ⟨2, ![H, C]⟩ (u 0) rfl rfl 0 rfl _ hi (by simp at hj0; show 0 + r.val = (j 0).val; omega)
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 1 (by simp) ⟨2, ![H, C]⟩ (u 1) rfl rfl H (by simp) _ hi (by simp at hj0; show H + r.val = (j 0).val; omega)
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 2 (by simp) ⟨2, ![H, C]⟩ (u 2) rfl rfl (H + H) (by simp) _ hi (by simp at hj0; show H + H + r.val = (j 0).val; omega)
  · exact concatenate_apply_piece (t := ⟨2, ![N, C]⟩) 0 [⟨⟨2, ![H, C]⟩, u 0⟩, ⟨⟨2, ![H, C]⟩, u 1⟩, ⟨⟨2, ![H, C]⟩, u 2⟩, ⟨⟨2, ![H, C]⟩, u 3⟩] h j 3 (by simp) ⟨2, ![H, C]⟩ (u 3) rfl rfl (H + H + H) (by simp [add_assoc]) _ hi (by simp at hj0; show H + H + H + r.val = (j 0).val; omega)

/-- Four vectors [H] laid end to end: the entry at `g · H + r` is entry `r` of vector `g`. -/
theorem stack4_vec_apply (u : Fin 4 → ((⟨1, ![H]⟩ : Shape).Idx → α))
    (h : Shape.Concatenates [⟨1, ![H]⟩, ⟨1, ![H]⟩, ⟨1, ![H]⟩, ⟨1, ![H]⟩] ⟨1, ![N]⟩ 0)
    (g : Fin 4) (r : Fin H) (j : (⟨1, ![N]⟩ : Shape).Idx) (hj0 : (j 0).val = g.val * H + r.val) :
    concatenate ⟨1, ![N]⟩ 0 [⟨⟨1, ![H]⟩, u 0⟩, ⟨⟨1, ![H]⟩, u 1⟩, ⟨⟨1, ![H]⟩, u 2⟩, ⟨⟨1, ![H]⟩, u 3⟩] h j
      = u g (ix1 r) := by
  have hi : ∀ b : Fin 1, b.cast rfl ≠ (0 : Fin 1) → ((ix1 r : (⟨1, ![H]⟩ : Shape).Idx) b).val
      = (j (b.cast rfl)).val := fun b hb =>
    match b, hb with
    | ⟨0, _⟩, hb => absurd rfl hb
  fin_cases g
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 0 (by simp) ⟨1, ![H]⟩ (u 0) rfl rfl 0 rfl _ hi (by simp at hj0; show 0 + r.val = (j 0).val; omega)
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 1 (by simp) ⟨1, ![H]⟩ (u 1) rfl rfl H (by simp) _ hi (by simp at hj0; show H + r.val = (j 0).val; omega)
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 2 (by simp) ⟨1, ![H]⟩ (u 2) rfl rfl (H + H) (by simp) _ hi (by simp at hj0; show H + H + r.val = (j 0).val; omega)
  · exact concatenate_apply_piece (t := ⟨1, ![N]⟩) 0 [⟨⟨1, ![H]⟩, u 0⟩, ⟨⟨1, ![H]⟩, u 1⟩, ⟨⟨1, ![H]⟩, u 2⟩, ⟨⟨1, ![H]⟩, u 3⟩] h j 3 (by simp) ⟨1, ![H]⟩ (u 3) rfl rfl (H + H + H) (by simp [add_assoc]) _ hi (by simp at hj0; show H + H + H + r.val = (j 0).val; omega)

end Cert.Proof.LibRowBlocks
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.KProj.lean ====
/-
  The projections inside the kernel body, read at an entry.

  The body stacks the four tokens' 448-row blocks into one tall matrix of 1792 rows (row 448·n + r is pixel r of
  token n), rounds it to bf16 (no change on the extended reals), multiplies it by a whole weight block into a zero
  accumulator, cuts the 768 columns into the query, key and value thirds, and cuts the rows back into the four
  tokens (and the value's lanes into heads).  Each of these is read here at one entry.
-/
import proofs.«102808_j38259568673081_2_alg».proof.Proof.Gen.KernelIdeal.Skeleton
import proofs.«102808_j38259568673081_2_alg».proof.Proof.Spec
import proofs.«102808_j38259568673081_2_alg».proof.Proof.LibHeads
import proofs.«102808_j38259568673081_2_alg».proof.Proof.LibRowBlocks
import proofs.«102808_j38259568673081_2_alg».proof.Proof.LibMatmulEntry
import Idealize.ShloMosaic.Lib.ValueLayout

noncomputable section

open scoped BigOperators

namespace Cert.KernelIdeal.Proj

open Idealize.ShloMosaic Idealize.ShloMosaic.ValueIdx Cert.KernelIdeal Cert.KernelIdeal.Gen Cert.Lib.Heads

/-- Row 448·n + r of a tall matrix of 1792 rows: pixel `r` of token `n`. -/
def row (n : Fin 4) (r : Fin 448) : Fin 1792 := ⟨n.val * 448 + r.val, by omega⟩
/-- Row 448·g + r of a matrix of 896 rows. -/
def row2 (g : Fin 2) (r : Fin 448) : Fin 896 := ⟨g.val * 448 + r.val, by omega⟩

/-! ## A tall matrix times a whole weight block -/

theorem dense768 (A : FVec Ideal S1792x256 .bf16) (Wt : Vec Ideal S256x768 .bf16) (a : Fin 1792) (c : Fin 768) :
    matmul dot_S1792x256_S256x768_S1792x768_1_0_0_1_n_n none A
      (shapeCast S256x768 Wt shapeCasts_S256x768_S256x768 : FVec Ideal S256x768 .bf16)
      (constant S1792x768 .f32 0x00000000#32) (ix2 a c)
      = ∑ d : Fin 256, A (ix2 a d) * Wt (ix2 d c) := by
  refine (Ideal.matmul_rows_cols _ rfl rfl rfl rfl rfl rfl none _ _ a c).trans ?_
  refine Finset.sum_congr rfl fun d _ => ?_
  rw [shapeCast_self]

theorem dense256 (A : FVec Ideal S1792x256 .bf16) (Wt : Vec Ideal S256x256 .bf16) (a : Fin 1792) (c : Fin 256) :
    matmul dot_S1792x256_S256x256_S1792x256_1_0_0_1_n_n none A
      (shapeCast S256x256 Wt shapeCasts_S256x256_S256x256 : FVec Ideal S256x256 .bf16)
      (constant S1792x256 .f32 0x00000000#32) (ix2 a c)
      = ∑ d : Fin 256, A (ix2 a d) * Wt (ix2 d c) := by
  refine (Ideal.matmul_rows_cols _ rfl rfl rfl rfl rfl rfl none _ _ a c).trans ?_
  refine Finset.sum_congr rfl fun d _ => ?_
  rw [shapeCast_self]

theorem dense896 (A : FVec Ideal S896x256 .bf16) (Wt : Vec Ideal S256x256 .bf16) (a : Fin 896) (c : Fin 256) :
    matmul dot_S896x256_S256x256_S896x256_1_0_0_1_n_n none A
      (shapeCast S256x256 Wt shapeCasts_S256x256_S256x256 : FVec Ideal S256x256 .bf16)
      (constant S896x256 .f32 0x00000000#32) (ix2 a c)
      = ∑ d : Fin 256, A (ix2 a d) * Wt (ix2 d c) := by
  refine (Ideal.matmul_rows_cols _ rfl rfl rfl rfl rfl rfl none _ _ a c).trans ?_
  refine Finset.sum_congr rfl fun d _ => ?_
  rw [shapeCast_self]

/-- A bias row added to every row of a tall matrix. -/
theorem bias1792 (bo : Vec Ideal S256 .f32) (a : Fin 1792) (d : Fin 256) :
    broadcastTo S1792x256 (shapeCast S1x256 bo shapeCasts_S256_S1x256) broadcasts_S1x256_S1792x256 (ix2 a d) = bo (ix1 d) :=
  (broadcastTo_1b_ab_apply _ _ a d).trans (shapeCast_a_1a_apply bo _ (0 : Fin 1) d)

theorem bias896 (bo : Vec Ideal S256 .f32) (a : Fin 896) (d : Fin 256) :
    broadcastTo S896x256 (shapeCast S1x256 bo shapeCasts_S256_S1x256) broadcasts_S1x256_S896x256 (ix2 a d) = bo (ix1 d) :=
  (broadcastTo_1b_ab_apply _ _ a d).trans (shapeCast_a_1a_apply bo _ (0 : Fin 1) d)

/-! ## The three column cuts, rows cut back into tokens -/

theorem cut_q (X : FVec Ideal S1792x768 .f32) (n : Fin 4) (r : Fin 448) (e : Fin 256) :
    shapeCast S4x448x256 (extractStridedSlice S1792x256 ![0, 0] X slices_S1792x768_o0_0_S1792x256)
        shapeCasts_S1792x256_S4x448x256 (ix3 n r e)
      = X (ix2 (row n r) (Cert.Attn.qCol e)) := by
  refine (rows_to_blocks _ _ n r e (row n r) rfl).trans ?_
  exact slice2_axis1_apply 0 X _ (row n r) e (Cert.Attn.qCol e) (by show e.val = 0 + e.val; omega)

theorem cut_k (X : FVec Ideal S1792x768 .f32) (n : Fin 4) (r : Fin 448) (e : Fin 256) :
    shapeCast S4x448x256 (extractStridedSlice S1792x256 ![0, 256] X slices_S1792x768_o0_256_S1792x256)
        shapeCasts_S1792x256_S4x448x256 (ix3 n r e)
      = X (ix2 (row n r) (Cert.Attn.kCol e)) := by
  refine (rows_to_blocks _ _ n r e (row n r) rfl).trans ?_
  exact slice2_axis1_apply 256 X _ (row n r) e (Cert.Attn.kCol e) rfl

theorem cut_v (X : FVec Ideal S1792x768 .f32) (n : Fin 4) (r : Fin 448) (h : Fin 8) (t : Fin 32) :
    shapeCast S4x448x8x32
        (shapeCast S4x448x256 (extractStridedSlice S1792x256 ![0, 512] X slices_S1792x768_o0_512_S1792x256)
          shapeCasts_S1792x256_S4x448x256)
        shapeCasts_S4x448x256_S4x448x8x32 (ix4 n r h t)
      = X (ix2 (row n r) (Cert.Attn.vCol (Cert.Attn.lane h t))) := by
  refine (lanes_to_heads _ _ n r h t (Cert.Attn.lane h t) rfl).trans ?_
  refine (rows_to_blocks _ _ n r (Cert.Attn.lane h t) (row n r) rfl).trans ?_
  exact slice2_axis1_apply 512 X _ (row n r) (Cert.Attn.lane h t) (Cert.Attn.vCol (Cert.Attn.lane h t)) rfl

/-! ## Four blocks stacked; a tall matrix cut into its four blocks and stacked again -/

theorem stacked_apply (A : Fin 4 → FVec Ideal S448x256 .f32) (n : Fin 4) (r : Fin 448) (d : Fin 256) :
    concatenate S1792x256 0 [⟨S448x256, A 0⟩, ⟨S448x256, A 1⟩, ⟨S448x256, A 2⟩, ⟨S448x256, A 3⟩]
        concatenates_S448x256_S448x256_S448x256_S448x256_S1792x256_d0 (ix2 (row n r) d)
      = A n (ix2 r d) :=
  Cert.Proof.LibRowBlocks.stack4_rows_apply A _ n r d _ rfl rfl

theorem stacked2_apply (A : Fin 2 → FVec Ideal S448x256 .f32) (g : Fin 2) (r : Fin 448) (d : Fin 256) :
    concatenate S896x256 0 [⟨S448x256, A 0⟩, ⟨S448x256, A 1⟩] concatenates_S448x256_S448x256_S896x256_d0
        (ix2 (row2 g r) d)
      = A g (ix2 r d) :=
  stack2_rows_apply A _ g r d _ rfl rfl

/-- Block `g` of a tall matrix, as the body cuts it out. -/
def block (g : ℕ) (hs : S4x448x256.Slices ![g, 0, 0] S1x448x256) (Y : FVec Ideal S1792x256 .f32) :
    FVec Ideal S448x256 .f32 :=
  shapeCast S448x256
    (extractStridedSlice S1x448x256 ![g, 0, 0] (shapeCast S4x448x256 Y shapeCasts_S1792x256_S4x448x256) hs)
    shapeCasts_S1x448x256_S448x256

theorem block_apply (g : ℕ) (hs : S4x448x256.Slices ![g, 0, 0] S1x448x256) (Y : FVec Ideal S1792x256 .f32)
    (n : Fin 4) (hn : n.val = g) (r : Fin 448) (d : Fin 256) : block g hs Y (ix2 r d) = Y (ix2 (row n r) d) := by
  unfold block
  refine (shapeCast_1ab_ab_apply _ _ r d).trans ?_
  refine (slice_lead3 g _ hs (0 : Fin 1) r d n (by rw [hn]; rfl)).trans ?_
  exact rows_to_blocks Y _ n r d (row n r) rfl

/-- Cutting a tall matrix into its four blocks and stacking them again changes nothing. -/
theorem restack (Y : FVec Ideal S1792x256 .f32) (n : Fin 4) (r : Fin 448) (d : Fin 256) :
    concatenate S1792x256 0
        [⟨S448x256, block 0 slices_S4x448x256_o0_0_0_S1x448x256 Y⟩, ⟨S448x256, block 1 slices_S4x448x256_o1_0_0_S1x448x256 Y⟩,
         ⟨S448x256, block 2 slices_S4x448x256_o2_0_0_S1x448x256 Y⟩, ⟨S448x256, block 3 slices_S4x448x256_o3_0_0_S1x448x256 Y⟩]
        concatenates_S448x256_S448x256_S448x256_S448x256_S1792x256_d0 (ix2 (row n r) d)
      = Y (ix2 (row n r) d) := by
  refine (stacked_apply ![block 0 slices_S4x448x256_o0_0_0_S1x448x256 Y, block 1 slices_S4x448x256_o1_0_0_S1x448x256 Y,
    block 2 slices_S4x448x256_o2_0_0_S1x448x256 Y, block 3 slices_S4x448x256_o3_0_0_S1x448x256 Y] n r d).trans ?_
  match n with
  | ⟨0, _⟩ => exact block_apply 0 slices_S4x448x256_o0_0_0_S1x448x256 Y ⟨0, by omega⟩ rfl r d
  | ⟨1, _⟩ => exact block_apply 1 slices_S4x448x256_o1_0_0_S1x448x256 Y ⟨1, by omega⟩ rfl r d
  | ⟨2, _⟩ => exact block_apply 2 slices_S4x448x256_o2_0_0_S1x448x256 Y ⟨2, by omega⟩ rfl r d
  | ⟨3, _⟩ => exact block_apply 3 slices_S4x448x256_o3_0_0_S1x448x256 Y ⟨3, by omega⟩ rfl r d

/-! ## The first round's tokens and projection -/

/-- Token `n` at pixel `r` of the stretch, lane `d`, from the four loaded blocks. -/
def tok (v0 v2 : Vec Ideal S1x448x256 .f32) (v4 v9 : Vec Ideal S1x1x256 .f32) (n : Fin 4) (r : Fin 448) (d : Fin 256) :
    EReal :=
  match n with
  | 0 => v0 (ix3 (0 : Fin 1) r d)
  | 1 => v2 (ix3 (0 : Fin 1) r d)
  | 2 => v4 (ix3 (0 : Fin 1) (0 : Fin 1) d)
  | 3 => v9 (ix3 (0 : Fin 1) (0 : Fin 1) d)

/-- A mean row laid over the stretch's 448 pixels. -/
theorem meanBlock_apply (v4 : Vec Ideal S1x1x256 .f32) (r : Fin 448) (d : Fin 256) :
    broadcastTo S448x256
        (shapeCast S1x256 (shapeCast S256 (shapeCast S1x1x256 v4 shapeCasts_S1x1x256_S1x1x256) shapeCasts_S1x1x256_S256)
          shapeCasts_S256_S1x256)
        broadcasts_S1x256_S448x256 (ix2 r d)
      = v4 (ix3 (0 : Fin 1) (0 : Fin 1) d) := by
  refine (broadcastTo_1b_ab_apply _ _ r d).trans ?_
  refine (shapeCast_a_1a_apply _ _ (0 : Fin 1) d).trans ?_
  refine (cast_11c_c _ _ d).trans ?_
  rw [shapeCast_self]

theorem pay3_apply (v0 v2 : Vec Ideal S1x448x256 .f32) (v4 v9 : Vec Ideal S1x1x256 .f32) (v16 : Vec Ideal S256x768 .bf16)
    (n : Fin 4) (r : Fin 448) (c : Fin 768) :
    k0_pay3 (F := Ideal) v0 v2 v4 v9 v16 (ix2 (row n r) c) = ∑ d : Fin 256, tok v0 v2 v4 v9 n r d * v16 (ix2 d c) := by
  unfold k0_pay3
  refine (dense768 _ v16 (row n r) c).trans ?_
  refine Finset.sum_congr rfl fun d _ => congrArg (fun x => x * v16 (ix2 d c)) ?_
  refine (stacked_apply ![shapeCast S448x256 v0 shapeCasts_S1x448x256_S448x256, shapeCast S448x256 v2 shapeCasts_S1x448x256_S448x256,
    broadcastTo S448x256 (shapeCast S1x256 (shapeCast S256 (shapeCast S1x1x256 v4 shapeCasts_S1x1x256_S1x1x256) shapeCasts_S1x1x256_S256) shapeCasts_S256_S1x256) broadcasts_S1x256_S448x256,
    broadcastTo S448x256 (shapeCast S1x256 (shapeCast S256 (shapeCast S1x1x256 v9 shapeCasts_S1x1x256_S1x1x256) shapeCasts_S1x1x256_S256) shapeCasts_S256_S1x256) broadcasts_S1x256_S448x256] n r d).trans ?_
  match n with
  | ⟨0, _⟩ => exact shapeCast_1ab_ab_apply v0 _ r d
  | ⟨1, _⟩ => exact shapeCast_1ab_ab_apply v2 _ r d
  | ⟨2, _⟩ => exact meanBlock_apply v4 r d
  | ⟨3, _⟩ => exact meanBlock_apply v9 r d

theorem pay4_apply (v0 v2 : Vec Ideal S1x448x256 .f32) (v4 v9 : Vec Ideal S1x1x256 .f32) (v16 : Vec Ideal S256x768 .bf16)
    (n : Fin 4) (r : Fin 448) (e : Fin 256) :
    k0_pay4 (F := Ideal) v0 v2 v4 v9 v16 (ix3 n r e) = k0_pay3 (F := Ideal) v0 v2 v4 v9 v16 (ix2 (row n r) (Cert.Attn.qCol e)) :=
  cut_q _ n r e

theorem pay5_apply (v0 v2 : Vec Ideal S1x448x256 .f32) (v4 v9 : Vec Ideal S1x1x256 .f32) (v16 : Vec Ideal S256x768 .bf16)
    (n : Fin 4) (r : Fin 448) (e : Fin 256) :
    k0_pay5 (F := Ideal) v0 v2 v4 v9 v16 (ix3 n r e) = k0_pay3 (F := Ideal) v0 v2 v4 v9 v16 (ix2 (row n r) (Cert.Attn.kCol e)) :=
  cut_k _ n r e

theorem pay6_apply (v0 v2 : Vec Ideal S1x448x256 .f32) (v4 v9 : Vec Ideal S1x1x256 .f32) (v16 : Vec Ideal S256x768 .bf16)
    (n : Fin 4) (r : Fin 448) (h : Fin 8) (t : Fin 32) :
    k0_pay6 (F := Ideal) v0 v2 v4 v9 v16 (ix4 n r h t)
      = k0_pay3 (F := Ideal) v0 v2 v4 v9 v16 (ix2 (row n r) (Cert.Attn.vCol (Cert.Attn.lane h t))) :=
  cut_v _ n r h t

end Cert.KernelIdeal.Proj

end
-- ==== Proof.KStage.lean ====
/-
  The kernel body's two rounds, against the specification.

  With the four tokens of a pixel stretch stacked as rows, the first projection at row (token n, pixel r) is the
  specification's projection of token n; each of the four queries' outcomes is the specification's mixed row; the
  output matrix and bias turn them into the first round's rows, which stacked again are the second round's tokens;
  the second projection, the two queries the body keeps, and the second output layer give rows 0 and 1 of the second
  round.  Everything is read at one pixel r of the stretch, under entrywise hypotheses on the twelve loaded blocks.
-/
import proofs.«102808_j38259568673081_2_alg».proof.Proof.KQuery
import proofs.«102808_j38259568673081_2_alg».proof.Proof.KProj

noncomputable section

open scoped BigOperators

namespace Cert.KernelIdeal.Stage

open Idealize.ShloMosaic Idealize.ShloMosaic.ValueIdx Cert.KernelIdeal Cert.KernelIdeal.Gen Cert.Lib.Heads
open Cert.KernelIdeal.Query Cert.KernelIdeal.Proj

/-! ## The payloads that stack rows, read at a row -/

theorem pay12_apply (Q K : FVec Ideal S4x448x256 .f32) (Vh : FVec Ideal S4x448x8x32 .f32) (M : Vec Ideal S4x4 .f32)
    (v54 v82 : FVec Ideal S448x256 .f32) (v89 : FVec Ideal S4x448x8 .f32) (n : Fin 4) (r : Fin 448) (e : Fin 256) :
    k0_pay12 (F := Ideal) Q K Vh M v54 v82 v89 (ix2 (row n r) e)
      = (![v54, v82,
            mix (weights (masked (scaled v89) (maskCol 2 slices_S4x4_o2_0_S1x4 M))) Vh,
            mix (weights (masked (scaled (grouped 3 slices_S4x448x256_o3_0_0_S1x448x256 Q K))
              (maskCol 3 slices_S4x4_o3_0_S1x4 M))) Vh] : Fin 4 → FVec Ideal S448x256 .f32) n (ix2 r e) :=
  stacked_apply (![v54, v82,
      mix (weights (masked (scaled v89) (maskCol 2 slices_S4x4_o2_0_S1x4 M))) Vh,
      mix (weights (masked (scaled (grouped 3 slices_S4x448x256_o3_0_0_S1x448x256 Q K))
        (maskCol 3 slices_S4x4_o3_0_S1x4 M))) Vh] : Fin 4 → FVec Ideal S448x256 .f32) n r e

theorem pay13_apply (A : FVec Ideal S1792x256 .bf16) (Wo : Vec Ideal S256x256 .bf16) (bo : Vec Ideal S256 .f32)
    (W' : Vec Ideal S256x768 .bf16) (n : Fin 4) (r : Fin 448) (c : Fin 768) :
    k0_pay13 (F := Ideal) A Wo bo W' (ix2 (row n r) c)
      = ∑ d : Fin 256, ((∑ e : Fin 256, A (ix2 (row n r) e) * Wo (ix2 e d)) + bo (ix1 d)) * W' (ix2 d c) := by
  unfold k0_pay13
  refine (dense768 _ W' (row n r) c).trans ?_
  refine Finset.sum_congr rfl fun d _ => congrArg (fun x => x * W' (ix2 d c)) ?_
  refine (restack _ n r d).trans ?_
  exact congrArg₂ (fun x y => x + y) (dense256 A Wo (row n r) d) (bias1792 bo (row n r) d)

theorem pay14_apply (A : FVec Ideal S1792x256 .bf16) (Wo : Vec Ideal S256x256 .bf16) (bo : Vec Ideal S256 .f32)
    (W' : Vec Ideal S256x768 .bf16) (n : Fin 4) (r : Fin 448) (e : Fin 256) :
    k0_pay14 (F := Ideal) A Wo bo W' (ix3 n r e) = k0_pay13 (F := Ideal) A Wo bo W' (ix2 (row n r) (Cert.Attn.qCol e)) :=
  cut_q _ n r e

theorem pay15_apply (A : FVec Ideal S1792x256 .bf16) (Wo : Vec Ideal S256x256 .bf16) (bo : Vec Ideal S256 .f32)
    (W' : Vec Ideal S256x768 .bf16) (n : Fin 4) (r : Fin 448) (e : Fin 256) :
    k0_pay15 (F := Ideal) A Wo bo W' (ix3 n r e) = k0_pay13 (F := Ideal) A Wo bo W' (ix2 (row n r) (Cert.Attn.kCol e)) :=
  cut_k _ n r e

theorem pay16_apply (A : FVec Ideal S1792x256 .bf16) (Wo : Vec Ideal S256x256 .bf16) (bo : Vec Ideal S256 .f32)
    (W' : Vec Ideal S256x768 .bf16) (n : Fin 4) (r : Fin 448) (h : Fin 8) (t : Fin 32) :
    k0_pay16 (F := Ideal) A Wo bo W' (ix4 n r h t)
      = k0_pay13 (F := Ideal) A Wo bo W' (ix2 (row n r) (Cert.Attn.vCol (Cert.Attn.lane h t))) :=
  cut_v _ n r h t

theorem pay18_apply (Q K : FVec Ideal S4x448x256 .f32) (Vh : FVec Ideal S4x448x8x32 .f32) (M : Vec Ideal S4x4 .f32)
    (w : FVec Ideal S4x448x8 .f32) (Wo : Vec Ideal S256x256 .bf16) (bo : Vec Ideal S256 .f32)
    (g : Fin 2) (r : Fin 448) (d : Fin 256) :
    k0_pay18 (F := Ideal) Q K Vh M w Wo bo (ix3 g r d)
      = (∑ e : Fin 256,
          (![mix w Vh,
             mix (weights (masked (scaled (grouped 1 slices_S4x448x256_o1_0_0_S1x448x256 Q K))
               (maskCol 1 slices_S4x4_o1_0_S1x4 M))) Vh] : Fin 2 → FVec Ideal S448x256 .f32) g (ix2 r e) * Wo (ix2 e d))
        + bo (ix1 d) := by
  unfold k0_pay18
  refine (rows_to_blocks _ _ g r d (row2 g r) rfl).trans ?_
  refine congrArg₂ (fun x y => x + y) ?_ (bias896 bo (row2 g r) d)
  refine (dense896 _ Wo (row2 g r) d).trans ?_
  refine Finset.sum_congr rfl fun e _ => congrArg (fun x => x * Wo (ix2 e d)) ?_
  exact stacked2_apply (![mix w Vh,
      mix (weights (masked (scaled (grouped 1 slices_S4x448x256_o1_0_0_S1x448x256 Q K))
        (maskCol 1 slices_S4x4_o1_0_S1x4 M))) Vh] : Fin 2 → FVec Ideal S448x256 .f32) g r e

/-! ## The body as one function of its twelve blocks -/

/-- The four first-round mixed rows, stacked and rounded to bf16. -/
def stackedMix (x0 x1 : Vec Ideal S1x448x256 .f32) (x2 x3 : Vec Ideal S1x1x256 .f32) (x4 : Vec Ideal S256x768 .bf16)
    (x7 : Vec Ideal S4x4 .f32) : FVec Ideal S1792x256 .bf16 :=
  k0_pay12 (k0_pay4 x0 x1 x2 x3 x4) (k0_pay5 x0 x1 x2 x3 x4) (k0_pay6 x0 x1 x2 x3 x4) x7
    (k0_pay9 (k0_pay6 x0 x1 x2 x3 x4) (k0_pay7 x0 x1 x2 x3 x4) (k0_pay8 x7))
    (k0_pay10 (k0_pay4 x0 x1 x2 x3 x4) (k0_pay5 x0 x1 x2 x3 x4) (k0_pay6 x0 x1 x2 x3 x4) x7)
    (k0_pay11 (k0_pay4 x0 x1 x2 x3 x4) (k0_pay5 x0 x1 x2 x3 x4))

/-- The body's outcome: the second round's rows 0 and 1 over the stretch, as a [2, 448, 256] array. -/
def bodyOut (x0 x1 : Vec Ideal S1x448x256 .f32) (x2 x3 : Vec Ideal S1x1x256 .f32) (x4 : Vec Ideal S256x768 .bf16)
    (x5 : Vec Ideal S256x256 .bf16) (x6 : Vec Ideal S256 .f32) (x7 : Vec Ideal S4x4 .f32) (x8 : Vec Ideal S256x768 .bf16)
    (x9 : Vec Ideal S256x256 .bf16) (x10 : Vec Ideal S256 .f32) (x11 : Vec Ideal S4x4 .f32) : FVec Ideal S2x448x256 .f32 :=
  k0_pay18 (k0_pay14 (stackedMix x0 x1 x2 x3 x4 x7) x5 x6 x8) (k0_pay15 (stackedMix x0 x1 x2 x3 x4 x7) x5 x6 x8)
    (k0_pay16 (stackedMix x0 x1 x2 x3 x4 x7) x5 x6 x8) x11 (k0_pay17 (stackedMix x0 x1 x2 x3 x4 x7) x5 x6 x8 x11) x9 x10

section
variable {x0 x1 : Vec Ideal S1x448x256 .f32} {x2 x3 : Vec Ideal S1x1x256 .f32} {x4 : Vec Ideal S256x768 .bf16}
  {x5 : Vec Ideal S256x256 .bf16} {x6 : Vec Ideal S256 .f32} {x7 : Vec Ideal S4x4 .f32} {x8 : Vec Ideal S256x768 .bf16}
  {x9 : Vec Ideal S256x256 .bf16} {x10 : Vec Ideal S256 .f32} {x11 : Vec Ideal S4x4 .f32}
  {W W' : Fin 768 → Fin 256 → EReal} {O O' : Fin 256 → Fin 256 → EReal} {B B' : Fin 256 → EReal}
  {mask mask' : Fin 4 → Fin 4 → EReal} {z : Fin 4 → Fin 256 → EReal} (r : Fin 448)
  (htok : ∀ (n : Fin 4) (d : Fin 256), tok x0 x1 x2 x3 n r d = z n d)
  (hW : ∀ (d : Fin 256) (c : Fin 768), x4 (ix2 d c) = W c d)
  (hO : ∀ e d : Fin 256, x5 (ix2 e d) = O d e)
  (hB : ∀ d : Fin 256, x6 (ix1 d) = B d)
  (hM : ∀ i j : Fin 4, x7 (ix2 i j) = mask i j)
  (hW' : ∀ (d : Fin 256) (c : Fin 768), x8 (ix2 d c) = W' c d)
  (hO' : ∀ e d : Fin 256, x9 (ix2 e d) = O' d e)
  (hB' : ∀ d : Fin 256, x10 (ix1 d) = B' d)
  (hM' : ∀ i j : Fin 4, x11 (ix2 i j) = mask' i j)

include htok hW in
/-- The first projection at (token n, pixel r) is the specification's. -/
theorem proj_first (n : Fin 4) (c : Fin 768) :
    k0_pay3 (F := Ideal) x0 x1 x2 x3 x4 (ix2 (row n r) c) = Cert.Attn.proj W z n c := by
  rw [pay3_apply]
  unfold Cert.Attn.proj
  exact Finset.sum_congr rfl fun d _ => by rw [htok, hW]

include htok hW hM in
/-- The stacked first-round mixed rows at (token n, pixel r). -/
theorem stackedMix_apply (n : Fin 4) (e : Fin 256) :
    stackedMix x0 x1 x2 x3 x4 x7 (ix2 (row n r) e) = Cert.Attn.mixed W mask z n e := by
  have hQ : ∀ (n : Fin 4) (e : Fin 256),
      k0_pay4 (F := Ideal) x0 x1 x2 x3 x4 (ix3 n r e) = Cert.Attn.proj W z n (Cert.Attn.qCol e) := fun n e => by
    rw [pay4_apply, proj_first r htok hW]
  have hK : ∀ (n : Fin 4) (e : Fin 256),
      k0_pay5 (F := Ideal) x0 x1 x2 x3 x4 (ix3 n r e) = Cert.Attn.proj W z n (Cert.Attn.kCol e) := fun n e => by
    rw [pay5_apply, proj_first r htok hW]
  have hV : ∀ (n : Fin 4) (h : Fin 8) (t : Fin 32), k0_pay6 (F := Ideal) x0 x1 x2 x3 x4 (ix4 n r h t)
      = Cert.Attn.proj W z n (Cert.Attn.vCol (Cert.Attn.lane h t)) := fun n h t => by
    rw [pay6_apply, proj_first r htok hW]
  unfold stackedMix
  rw [pay12_apply]
  match n with
  | ⟨0, _⟩ => exact mixed_eq _ _ _ x7 r hQ hK hV hM 0 slices_S4x448x256_o0_0_0_S1x448x256 slices_S4x4_o0_0_S1x4 ⟨0, by omega⟩ rfl e
  | ⟨1, _⟩ => exact mixed_eq _ _ _ x7 r hQ hK hV hM 1 slices_S4x448x256_o1_0_0_S1x448x256 slices_S4x4_o1_0_S1x4 ⟨1, by omega⟩ rfl e
  | ⟨2, _⟩ => exact mixed_eq _ _ _ x7 r hQ hK hV hM 2 slices_S4x448x256_o2_0_0_S1x448x256 slices_S4x4_o2_0_S1x4 ⟨2, by omega⟩ rfl e
  | ⟨3, _⟩ => exact mixed_eq _ _ _ x7 r hQ hK hV hM 3 slices_S4x448x256_o3_0_0_S1x448x256 slices_S4x4_o3_0_S1x4 ⟨3, by omega⟩ rfl e

include htok hW hM hO hB hW' in
/-- The second projection at (token n, pixel r): the specification's, of the first round's rows. -/
theorem proj_second (n : Fin 4) (c : Fin 768) :
    k0_pay13 (F := Ideal) (stackedMix x0 x1 x2 x3 x4 x7) x5 x6 x8 (ix2 (row n r) c)
      = Cert.Attn.proj W' (Cert.Attn.round W O B mask z) n c := by
  rw [pay13_apply]
  unfold Cert.Attn.proj Cert.Attn.round
  refine Finset.sum_congr rfl fun d _ => ?_
  rw [hW', hB]
  refine congrArg (fun x => (x + B d) * W' c d) ?_
  exact Finset.sum_congr rfl fun e _ => by rw [stackedMix_apply r htok hW hM, hO]

include htok hW hM hO hB hW' hO' hB' hM' in
/-- The body's outcome at (row g, pixel r, entry d): row g of the second round. -/
theorem bodyOut_apply (g : Fin 2) (d : Fin 256) :
    bodyOut x0 x1 x2 x3 x4 x5 x6 x7 x8 x9 x10 x11 (ix3 g r d)
      = Cert.Attn.round W' O' B' mask' (Cert.Attn.round W O B mask z) (Fin.castLE (by omega) g) d := by
  have hQ : ∀ (n : Fin 4) (e : Fin 256),
      k0_pay14 (F := Ideal) (stackedMix x0 x1 x2 x3 x4 x7) x5 x6 x8 (ix3 n r e)
        = Cert.Attn.proj W' (Cert.Attn.round W O B mask z) n (Cert.Attn.qCol e) := fun n e => by
    rw [pay14_apply, proj_second r htok hW hO hB hM hW']
  have hK : ∀ (n : Fin 4) (e : Fin 256),
      k0_pay15 (F := Ideal) (stackedMix x0 x1 x2 x3 x4 x7) x5 x6 x8 (ix3 n r e)
        = Cert.Attn.proj W' (Cert.Attn.round W O B mask z) n (Cert.Attn.kCol e) := fun n e => by
    rw [pay15_apply, proj_second r htok hW hO hB hM hW']
  have hV : ∀ (n : Fin 4) (h : Fin 8) (t : Fin 32),
      k0_pay16 (F := Ideal) (stackedMix x0 x1 x2 x3 x4 x7) x5 x6 x8 (ix4 n r h t)
        = Cert.Attn.proj W' (Cert.Attn.round W O B mask z) n (Cert.Attn.vCol (Cert.Attn.lane h t)) := fun n h t => by
    rw [pay16_apply, proj_second r htok hW hO hB hM hW']
  unfold bodyOut
  rw [pay18_apply]
  unfold Cert.Attn.round
  rw [hB']
  refine congrArg (fun x => x + B' d) ?_
  refine Finset.sum_congr rfl fun e _ => ?_
  rw [hO']
  refine congrArg (fun x => x * O' d e) ?_
  match g with
  | ⟨0, _⟩ => exact mixed_eq _ _ _ x11 r hQ hK hV hM' 0 slices_S4x448x256_o0_0_0_S1x448x256 slices_S4x4_o0_0_S1x4 ⟨0, by omega⟩ rfl e
  | ⟨1, _⟩ => exact mixed_eq _ _ _ x11 r hQ hK hV hM' 1 slices_S4x448x256_o1_0_0_S1x448x256 slices_S4x4_o1_0_S1x4 ⟨1, by omega⟩ rfl e

end

end Cert.KernelIdeal.Stage

end
-- ==== Proof.BlockValue.lean ====
/-
  What the kernel body leaves in its two output blocks, entry by entry, in terms of the specification.

  At a grid point the body sees a 448-pixel stretch of x and of y, the batch's two mean rows, and the two rounds'
  matrices (the projection matrices transposed), biases and mask tables.  If those blocks hold, entry by entry, the
  corresponding entries of the data, then entry (0, r, d) of the first output block is row 0, entry d, of the second
  round at pixel (b, 448·pt + r), and the same entry of the second output block is row 1.
-/
import proofs.«102808_j38259568673081_2_alg».proof.Proof.Gen.KernelIdeal.Frame
import proofs.«102808_j38259568673081_2_alg».proof.Proof.Spec
import proofs.«102808_j38259568673081_2_alg».proof.Proof.KStage

noncomputable section

namespace Cert.KernelIdeal.BlockValue

open Idealize.ShloMosaic Idealize.ShloMosaic.ValueIdx Cert.KernelIdeal Cert.KernelIdeal.Gen Cert.Lib.Heads
open Cert.KernelIdeal.Stage Cert.KernelIdeal.Proj

/-- Pixel `r` of stretch `pt`. -/
def pixel (pt : Fin 7) (r : Fin 448) : Fin 3136 := ⟨pt.val * 448 + r.val, by omega⟩

/-- The hypotheses on the twelve input blocks at grid point (b, pt). -/
structure Holds (D : Cert.Attn.Data) (b : Fin 8) (pt : Fin 7)
    (x0 x1 : Vec Ideal S1x448x256 .f32) (x2 x3 : Vec Ideal S1x1x256 .f32) (x4 : Vec Ideal S256x768 .bf16)
    (x5 : Vec Ideal S256x256 .bf16) (x6 : Vec Ideal S256 .f32) (x7 : Vec Ideal S4x4 .f32) (x8 : Vec Ideal S256x768 .bf16)
    (x9 : Vec Ideal S256x256 .bf16) (x10 : Vec Ideal S256 .f32) (x11 : Vec Ideal S4x4 .f32) : Prop where
  hx : ∀ (r : Fin 448) (d : Fin 256), x0 (ix3 (0 : Fin 1) r d) = D.x (ix3 b (pixel pt r) d)
  hy : ∀ (r : Fin 448) (d : Fin 256), x1 (ix3 (0 : Fin 1) r d) = D.y (ix3 b (pixel pt r) d)
  hmx : ∀ d : Fin 256, x2 (ix3 (0 : Fin 1) (0 : Fin 1) d) = D.mx (ix3 b (0 : Fin 1) d)
  hmy : ∀ d : Fin 256, x3 (ix3 (0 : Fin 1) (0 : Fin 1) d) = D.my (ix3 b (0 : Fin 1) d)
  hw0 : ∀ (d : Fin 256) (e : Fin 768), x4 (ix2 d e) = D.w0 (ix2 e d)
  ho0 : ∀ (e d : Fin 256), x5 (ix2 e d) = D.o0 (ix2 d e)
  hb0 : ∀ d : Fin 256, x6 (ix1 d) = D.b0 (ix1 d)
  hm0 : ∀ i j : Fin 4, x7 (ix2 i j) = Cert.Attn.maskA i j
  hw1 : ∀ (d : Fin 256) (e : Fin 768), x8 (ix2 d e) = D.w1 (ix2 e d)
  ho1 : ∀ (e d : Fin 256), x9 (ix2 e d) = D.o1 (ix2 d e)
  hb1 : ∀ d : Fin 256, x10 (ix1 d) = D.b1 (ix1 d)
  hm1 : ∀ i j : Fin 4, x11 (ix2 i j) = Cert.Attn.maskB i j

variable {D : Cert.Attn.Data} {b : Fin 8} {pt : Fin 7}
  {x0 x1 : Vec Ideal S1x448x256 .f32} {x2 x3 : Vec Ideal S1x1x256 .f32} {x4 : Vec Ideal S256x768 .bf16}
  {x5 : Vec Ideal S256x256 .bf16} {x6 : Vec Ideal S256 .f32} {x7 : Vec Ideal S4x4 .f32} {x8 : Vec Ideal S256x768 .bf16}
  {x9 : Vec Ideal S256x256 .bf16} {x10 : Vec Ideal S256 .f32} {x11 : Vec Ideal S4x4 .f32}

/-! ## The last payloads: the outcome's two rows laid out as blocks -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

theorem pay1_apply (v : FVec Ideal S448x256 .f32) (u : Fin 1) (r : Fin 448) (d : Fin 256) :
    k0_pay1 (F := Ideal) v (ix3 u r d) = v (ix2 r d) :=
  shapeCast_ab_1ab_apply v _ u r d

theorem pay19_apply (Q K : FVec Ideal S4x448x256 .f32) (Vh : FVec Ideal S4x448x8x32 .f32) (M : Vec Ideal S4x4 .f32)
    (w : FVec Ideal S4x448x8 .f32) (Wo : Vec Ideal S256x256 .bf16) (bo : Vec Ideal S256 .f32) (r : Fin 448) (d : Fin 256) :
    k0_pay19 (F := Ideal) Q K Vh M w Wo bo (ix2 r d) = k0_pay18 (F := Ideal) Q K Vh M w Wo bo (ix3 (0 : Fin 2) r d) :=
  (shapeCast_1ab_ab_apply _ _ r d).trans (slice_lead3 0 _ _ (0 : Fin 1) r d (0 : Fin 2) rfl)

theorem pay2_apply (X : FVec Ideal S2x448x256 .f32) (u : Fin 1) (r : Fin 448) (d : Fin 256) :
    k0_pay2 (F := Ideal) X (ix3 u r d) = X (ix3 (1 : Fin 2) r d) :=
  (shapeCast_ab_1ab_apply _ _ u r d).trans
    ((shapeCast_1ab_ab_apply _ _ r d).trans (slice_lead3 1 X _ (0 : Fin 1) r d (1 : Fin 2) rfl))

/-- The loaded blocks' four tokens at pixel `r` are the specification's tokens at pixel (b, 448·pt + r). -/
theorem tokens_of (h : Holds D b pt x0 x1 x2 x3 x4 x5 x6 x7 x8 x9 x10 x11) (r : Fin 448) (n : Fin 4) (d : Fin 256) :
    tok x0 x1 x2 x3 n r d = Cert.Attn.tokens D.x D.y D.mx D.my b (pixel pt r) n d :=
  match n with
  | ⟨0, _⟩ => h.hx r d
  | ⟨1, _⟩ => h.hy r d
  | ⟨2, _⟩ => h.hmx d
  | ⟨3, _⟩ => h.hmy d

/-- The body's outcome at (row g, pixel r, entry d) is row g of the specification's second round. -/
theorem body_row (h : Holds D b pt x0 x1 x2 x3 x4 x5 x6 x7 x8 x9 x10 x11) (g : Fin 2) (r : Fin 448) (d : Fin 256) :
    bodyOut x0 x1 x2 x3 x4 x5 x6 x7 x8 x9 x10 x11 (ix3 g r d)
      = Cert.Attn.second D b (pixel pt r) (Fin.castLE (by omega) g) d :=
  bodyOut_apply r (tokens_of h r) h.hw0 h.ho0 h.hb0 h.hm0 h.hw1 h.ho1 h.hb1 h.hm1 g d

/-- The first output block: row 0 of the second round. -/
theorem block12 (h : Holds D b pt x0 x1 x2 x3 x4 x5 x6 x7 x8 x9 x10 x11) (r : Fin 448) (d : Fin 256) :
    out0_12 (F := Ideal) x0 x1 x2 x3 x4 x5 x6 x7 x8 x9 x10 x11 (ix3 (0 : Fin 1) r d)
      = Cert.Attn.second D b (pixel pt r) 0 d := by
  unfold out0_12
  rw [View.canon_unit_zero zeros3]
  simp only [View.ld_unit_zero (S := S1x448x256) zeros3, View.ld_unit_zero (S := S1x1x256) zeros3,
    View.ld_unit_zero (S := S256x768) zeros2, View.ld_unit_zero (S := S4x4) zeros2,
    View.ld_unit_zero (S := S256x256) zeros2, View.ld_unit_zero (S := S256) zeros1]
  rw [pay1_apply, pay19_apply]
  exact body_row h (0 : Fin 2) r d

/-- The second output block: row 1 of the second round. -/
theorem block13 (h : Holds D b pt x0 x1 x2 x3 x4 x5 x6 x7 x8 x9 x10 x11) (r : Fin 448) (d : Fin 256) :
    out0_13 (F := Ideal) x0 x1 x2 x3 x4 x5 x6 x7 x8 x9 x10 x11 (ix3 (0 : Fin 1) r d)
      = Cert.Attn.second D b (pixel pt r) 1 d := by
  unfold out0_13
  rw [View.canon_unit_zero zeros3]
  simp only [View.ld_unit_zero (S := S1x448x256) zeros3, View.ld_unit_zero (S := S1x1x256) zeros3,
    View.ld_unit_zero (S := S256x768) zeros2, View.ld_unit_zero (S := S4x4) zeros2,
    View.ld_unit_zero (S := S256x256) zeros2, View.ld_unit_zero (S := S256) zeros1]
  rw [pay2_apply]
  exact body_row h (1 : Fin 2) r d

end Cert.KernelIdeal.BlockValue

end
-- ==== Proof.KernelHost.lean ====
/-
  What the launch finds in the arrays its windows read, and the data of the specification as the kernel's run sees it.

  Before the one launch the host writes eight arrays that the launch reads beside the arguments: the two mean rows
  (the pixel-axis sum of x, and of y, started from the zero word, laid out as [8, 1, 256] and divided by the word of
  3136), each of the four matrices transposed and narrowed to bf16 (on the extended reals narrowing changes nothing, so
  entry (d, e) of such an array is entry (e, d) of the argument), and the two constant 4 × 4 mask tables.  This module
  reads each of those arrays at an index.  The mean rows are never opened: they are the specification's `meanRow` of
  the argument, as one term.
-/
import proofs.«102808_j38259568673081_2_alg».proof.Proof.Gen.KernelIdeal.Frame
import proofs.«102808_j38259568673081_2_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The specification's data read off core `c`'s launch memory: the eight arguments, and the two mean rows as the
    host expression of x and of y. -/
def data (c : Dev nD) : Cert.Attn.Data where
  x := m ((c.tc : Thread nD τ).loc main_arg0)
  y := m ((c.tc : Thread nD τ).loc main_arg1)
  mx := Cert.Attn.meanRow (m ((c.tc : Thread nD τ).loc main_arg0)) reducesTo_S8x3136x256_S8x256_d1 h_S_
    bcast_S8x256_S8x1x256_0_2 bcast_S_S8x1x256
  my := Cert.Attn.meanRow (m ((c.tc : Thread nD τ).loc main_arg1)) reducesTo_S8x3136x256_S8x256_d1 h_S_
    bcast_S8x256_S8x1x256_0_2 bcast_S_S8x1x256
  w0 := m ((c.tc : Thread nD τ).loc main_arg2)
  o0 := m ((c.tc : Thread nD τ).loc main_arg3)
  b0 := m ((c.tc : Thread nD τ).loc main_arg4)
  w1 := m ((c.tc : Thread nD τ).loc main_arg5)
  o1 := m ((c.tc : Thread nD τ).loc main_arg6)
  b1 := m ((c.tc : Thread nD τ).loc main_arg7)

/-- The launch finds the mean row of x in its third window's array. -/
theorem mean_x (c : Dev nD) : (V m c main_v3 : S8x1x256.Idx → EReal) = (data m c).mx := by
  dsimp only [Gen.V, Gen.hostOps0]
  after_results
  rfl

/-- The launch finds the mean row of y in its fourth window's array. -/
theorem mean_y (c : Dev nD) : (V m c main_v7 : S8x1x256.Idx → EReal) = (data m c).my := by
  dsimp only [Gen.V, Gen.hostOps0]
  after_results
  rfl

/-- A [768, 256] matrix transposed, at (d, e), is the matrix at (e, d). -/
theorem transposed_wide (x : S768x256.Idx → EReal) (d : Fin 256) (e : Fin 768) :
    transpose S256x768 [1, 0] x transposes_S768x256_S256x768_1_0 (ix2 d e) = x (ix2 e d) :=
  transpose_apply [1, 0] x transposes_S768x256_S256x768_1_0 (ix2 d e) (ix2 e d)
    (fun b => by match b with | ⟨0, _⟩ => rfl | ⟨1, _⟩ => rfl)

/-- A [256, 256] matrix transposed, at (e, d), is the matrix at (d, e). -/
theorem transposed_square (x : S256x256.Idx → EReal) (e d : Fin 256) :
    transpose S256x256 [1, 0] x transposes_S256x256_S256x256_1_0 (ix2 e d) = x (ix2 d e) :=
  transpose_apply [1, 0] x transposes_S256x256_S256x256_1_0 (ix2 e d) (ix2 d e)
    (fun b => by match b with | ⟨0, _⟩ => rfl | ⟨1, _⟩ => rfl)

/-- The first projection matrix as the launch finds it: transposed. -/
theorem proj0_apply (c : Dev nD) (d : Fin 256) (e : Fin 768) :
    (V m c main_v9 : S256x768.Idx → EReal) (ix2 d e) = (data m c).w0 (ix2 e d) := by
  have h : @Eq (S256x768.Idx → EReal) (V m c main_v9)
      (truncf (F := Ideal) .bf16 (transpose S256x768 [1, 0] (m ((c.tc : Thread nD τ).loc main_arg2)) transposes_S768x256_S256x768_1_0)
          bitsLt_bf16_f32) := by
    dsimp only [Gen.V, Gen.hostOps0]
    after_results
  rw [h]
  exact transposed_wide _ d e

/-- The first output matrix as the launch finds it: transposed. -/
theorem out0_apply (c : Dev nD) (e d : Fin 256) :
    (V m c main_v11 : S256x256.Idx → EReal) (ix2 e d) = (data m c).o0 (ix2 d e) := by
  have h : @Eq (S256x256.Idx → EReal) (V m c main_v11)
      (truncf (F := Ideal) .bf16 (transpose S256x256 [1, 0] (m ((c.tc : Thread nD τ).loc main_arg3)) transposes_S256x256_S256x256_1_0)
          bitsLt_bf16_f32) := by
    dsimp only [Gen.V, Gen.hostOps0]
    after_results
  rw [h]
  exact transposed_square _ e d

/-- The second projection matrix as the launch finds it: transposed. -/
theorem proj1_apply (c : Dev nD) (d : Fin 256) (e : Fin 768) :
    (V m c main_v13 : S256x768.Idx → EReal) (ix2 d e) = (data m c).w1 (ix2 e d) := by
  have h : @Eq (S256x768.Idx → EReal) (V m c main_v13)
      (truncf (F := Ideal) .bf16 (transpose S256x768 [1, 0] (m ((c.tc : Thread nD τ).loc main_arg5)) transposes_S768x256_S256x768_1_0)
          bitsLt_bf16_f32) := by
    dsimp only [Gen.V, Gen.hostOps0]
    after_results
  rw [h]
  exact transposed_wide _ d e

/-- The second output matrix as the launch finds it: transposed. -/
theorem out1_apply (c : Dev nD) (e d : Fin 256) :
    (V m c main_v15 : S256x256.Idx → EReal) (ix2 e d) = (data m c).o1 (ix2 d e) := by
  have h : @Eq (S256x256.Idx → EReal) (V m c main_v15)
      (truncf (F := Ideal) .bf16 (transpose S256x256 [1, 0] (m ((c.tc : Thread nD τ).loc main_arg6)) transposes_S256x256_S256x256_1_0)
          bitsLt_bf16_f32) := by
    dsimp only [Gen.V, Gen.hostOps0]
    after_results
  rw [h]
  exact transposed_square _ e d

/-- The first mask table as the launch finds it. -/
theorem maskA_apply (c : Dev nD) (i j : Fin 4) :
    (V m c main_cst : S4x4.Idx → EReal) (ix2 i j) = Cert.Attn.maskA i j := by
  have h : (V m c main_cst : S4x4.Idx → EReal)
      = fun k => Ideal.ofBits .f32 (lit0 (S4x4.rowMajor k)) := by
    dsimp only [Gen.V, Gen.hostOps0]
    after_results
    rfl
  rw [h]
  show Ideal.ofBits .f32 (lit0 (S4x4.rowMajor (ix2 i j))) = Ideal.ofBits .f32 (Cert.Attn.tableA (Cert.Attn.cell i j))
  refine congrArg _ ?_
  fin_cases i <;> fin_cases j <;> rfl

/-- The second mask table as the launch finds it. -/
theorem maskB_apply (c : Dev nD) (i j : Fin 4) :
    (V m c main_cst_0 : S4x4.Idx → EReal) (ix2 i j) = Cert.Attn.maskB i j := by
  have h : (V m c main_cst_0 : S4x4.Idx → EReal)
      = fun k => Ideal.ofBits .f32 (lit1 (S4x4.rowMajor k)) := by
    dsimp only [Gen.V, Gen.hostOps0]
    after_results
    rfl
  rw [h]
  show Ideal.ofBits .f32 (lit1 (S4x4.rowMajor (ix2 i j))) = Ideal.ofBits .f32 (Cert.Attn.tableB (Cert.Attn.cell i j))
  refine congrArg _ ?_
  fin_cases i <;> fin_cases j <;> rfl

end Cert.KernelIdeal.KValue

end
-- ==== Proof.KernelBlocks.lean ====
/-
  The twelve blocks the kernel body sees at a grid point, entry by entry, in terms of the specification's data.

  The grid has 8 × 7 points in row-major order: point t works on batch t / 7 and on pixel stretch t % 7, the 448 pixels
  from 448 · (t % 7) on.  An entry of a block sits in its array, on each axis, at the block's index times the block's
  size plus the entry's coordinate inside the block.  The blocks of x and y move with the point on the batch and pixel
  axes, the blocks of the two mean rows with the batch only, and the other eight windows are whole arrays, the same
  at every point.  The block indices as functions of the point are decided once over the 56 points; everything else
  is arithmetic on coordinates.
-/
import proofs.«102808_j38259568673081_2_alg».proof.Proof.Gen.KernelIdeal.Value
import proofs.«102808_j38259568673081_2_alg».proof.Proof.BlockValue
import proofs.«102808_j38259568673081_2_alg».proof.Proof.KernelHost

noncomputable section

namespace Cert.KernelIdeal.KValue

open Cert.KernelIdeal Cert.KernelIdeal.Gen Idealize.ShloMosaic Idealize.ShloMosaic.TcCoe Idealize.SL.Sem
open Idealize.ShloMosaic.ValueIdx
open Cert.KernelIdeal.BlockValue (pixel Holds)

variable (m : (ℓ : Loc nD τ sig) → Buf (Elt Ideal) ℓ)

/-! ## The grid -/

/-- The batch point `t` works on. -/
def batch (t : Fin cfg0.N) : Fin 8 :=
  ⟨t.val / 7, by have h := t.isLt; have hN : cfg0.N = 56 := N_0; omega⟩

/-- The stretch of 448 pixels point `t` works on. -/
def stretch (t : Fin cfg0.N) : Fin 7 := ⟨t.val % 7, Nat.mod_lt _ (by decide)⟩

/-- The blocks of x, of y and of the two results sit at (batch, stretch, 0). -/
theorem idx_moving : ∀ t : Fin cfg0.N,
    win0_0.index t (0 : Fin 3) = t.val / 7 ∧ win0_0.index t (1 : Fin 3) = t.val % 7 ∧ win0_0.index t (2 : Fin 3) = 0
    ∧ win0_1.index t (0 : Fin 3) = t.val / 7 ∧ win0_1.index t (1 : Fin 3) = t.val % 7 ∧ win0_1.index t (2 : Fin 3) = 0
    ∧ win0_12.index t (0 : Fin 3) = t.val / 7 ∧ win0_12.index t (1 : Fin 3) = t.val % 7 ∧ win0_12.index t (2 : Fin 3) = 0
    ∧ win0_13.index t (0 : Fin 3) = t.val / 7 ∧ win0_13.index t (1 : Fin 3) = t.val % 7 ∧ win0_13.index t (2 : Fin 3) = 0 :=
  (by decide +kernel : ∀ t : Fin grid0.N, _)

/-- The blocks of the two mean rows sit at (batch, 0, 0). -/
theorem idx_rows : ∀ t : Fin cfg0.N,
    win0_2.index t (0 : Fin 3) = t.val / 7 ∧ win0_2.index t (1 : Fin 3) = 0 ∧ win0_2.index t (2 : Fin 3) = 0
    ∧ win0_3.index t (0 : Fin 3) = t.val / 7 ∧ win0_3.index t (1 : Fin 3) = 0 ∧ win0_3.index t (2 : Fin 3) = 0 :=
  (by decide +kernel : ∀ t : Fin grid0.N, _)

/-- The other eight windows are whole arrays: block index zero on every axis. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0 :=
  (by decide +kernel : ∀ t : Fin grid0.N, _)

/-! ## The blocks that move with the point -/

/-- The block of x at point `t`: entry (0, r, d) is x at (batch, 448 · stretch + r, d). -/
theorem blk_x (c : Dev nD) (t : Fin cfg0.N) (y : S1x448x256.Idx) (k : S8x3136x256.Idx)
    (h0 : (k 0).val = t.val / 7) (h1 : (k 1).val = t.val % 7 * 448 + (y 1).val) (h2 : (k 2).val = (y 2).val) :
    (iblk m c 0 t : Vec Ideal S1x448x256 .f32) y = (data m c).x k := by
  obtain ⟨e0, e1, e2, -⟩ := idx_moving t
  unfold iblk
  rw [View.read_apply]
  show V m c main_arg0 (((cfg0.win 0).blk t).view.emb y) = _
  rw [V_main_arg0]
  refine congrArg _ (funext fun a => Fin.ext ?_)
  have hy0 : (y 0).val < 1 := (y 0).isLt
  match a with
  | ⟨0, _⟩ => show win0_0.index t (0 : Fin 3) * 1 + 1 * (y 0).val = (k 0).val; omega
  | ⟨1, _⟩ => show win0_0.index t (1 : Fin 3) * 448 + 1 * (y 1).val = (k 1).val; omega
  | ⟨2, _⟩ => show win0_0.index t (2 : Fin 3) * 256 + 1 * (y 2).val = (k 2).val; omega

/-- The block of y at point `t`, likewise. -/
theorem blk_y (c : Dev nD) (t : Fin cfg0.N) (y : S1x448x256.Idx) (k : S8x3136x256.Idx)
    (h0 : (k 0).val = t.val / 7) (h1 : (k 1).val = t.val % 7 * 448 + (y 1).val) (h2 : (k 2).val = (y 2).val) :
    (iblk m c 1 t : Vec Ideal S1x448x256 .f32) y = (data m c).y k := by
  obtain ⟨-, -, -, e0, e1, e2, -⟩ := idx_moving t
  unfold iblk
  rw [View.read_apply]
  show V m c main_arg1 (((cfg0.win 1).blk t).view.emb y) = _
  rw [V_main_arg1]
  refine congrArg _ (funext fun a => Fin.ext ?_)
  have hy0 : (y 0).val < 1 := (y 0).isLt
  match a with
  | ⟨0, _⟩ => show win0_1.index t (0 : Fin 3) * 1 + 1 * (y 0).val = (k 0).val; omega
  | ⟨1, _⟩ => show win0_1.index t (1 : Fin 3) * 448 + 1 * (y 1).val = (k 1).val; omega
  | ⟨2, _⟩ => show win0_1.index t (2 : Fin 3) * 256 + 1 * (y 2).val = (k 2).val; omega

/-- The block of the mean row of x at point `t`: the batch's row. -/
theorem blk_mx (c : Dev nD) (t : Fin cfg0.N) (y : S1x1x256.Idx) (k : S8x1x256.Idx)
    (h0 : (k 0).val = t.val / 7) (h2 : (k 2).val = (y 2).val) :
    (iblk m c 2 t : Vec Ideal S1x1x256 .f32) y = (data m c).mx k := by
  obtain ⟨e0, e1, e2, -⟩ := idx_rows t
  unfold iblk
  rw [View.read_apply]
  show V m c main_v3 (((cfg0.win 2).blk t).view.emb y) = _
  rw [mean_x]
  refine congrArg _ (funext fun a => Fin.ext ?_)
  have hy0 : (y 0).val < 1 := (y 0).isLt
  have hy1 : (y 1).val < 1 := (y 1).isLt
  have hk1 : (k 1).val < 1 := (k 1).isLt
  match a with
  | ⟨0, _⟩ => show win0_2.index t (0 : Fin 3) * 1 + 1 * (y 0).val = (k 0).val; omega
  | ⟨1, _⟩ => show win0_2.index t (1 : Fin 3) * 1 + 1 * (y 1).val = (k 1).val; omega
  | ⟨2, _⟩ => show win0_2.index t (2 : Fin 3) * 256 + 1 * (y 2).val = (k 2).val; omega

/-- The block of the mean row of y at point `t`: the batch's row. -/
theorem blk_my (c : Dev nD) (t : Fin cfg0.N) (y : S1x1x256.Idx) (k : S8x1x256.Idx)
    (h0 : (k 0).val = t.val / 7) (h2 : (k 2).val = (y 2).val) :
    (iblk m c 3 t : Vec Ideal S1x1x256 .f32) y = (data m c).my k := by
  obtain ⟨-, -, -, e0, e1, e2⟩ := idx_rows t
  unfold iblk
  rw [View.read_apply]
  show V m c main_v7 (((cfg0.win 3).blk t).view.emb y) = _
  rw [mean_y]
  refine congrArg _ (funext fun a => Fin.ext ?_)
  have hy0 : (y 0).val < 1 := (y 0).isLt
  have hy1 : (y 1).val < 1 := (y 1).isLt
  have hk1 : (k 1).val < 1 := (k 1).isLt
  match a with
  | ⟨0, _⟩ => show win0_3.index t (0 : Fin 3) * 1 + 1 * (y 0).val = (k 0).val; omega
  | ⟨1, _⟩ => show win0_3.index t (1 : Fin 3) * 1 + 1 * (y 1).val = (k 1).val; omega
  | ⟨2, _⟩ => show win0_3.index t (2 : Fin 3) * 256 + 1 * (y 2).val = (k 2).val; omega

/-! ## The whole-array windows -/

/-- The first projection matrix's window at any point is its whole array. -/
theorem blk_w0 (c : Dev nD) (t : Fin cfg0.N) (y : S256x768.Idx) :
    (iblk m c 4 t : Vec Ideal S256x768 .bf16) y = (V m c main_v9 : S256x768.Idx → EReal) y := by
  obtain ⟨e0, e1, -⟩ := idx_whole t
  unfold iblk
  rw [View.read_apply]
  show V m c main_v9 (((cfg0.win 4).blk t).view.emb y) = _
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 768 + 1 * (y 1).val = (y 1).val; omega

/-- The first output matrix's window. -/
theorem blk_o0 (c : Dev nD) (t : Fin cfg0.N) (y : S256x256.Idx) :
    (iblk m c 5 t : Vec Ideal S256x256 .bf16) y = (V m c main_v11 : S256x256.Idx → EReal) y := by
  obtain ⟨-, -, e0, e1, -⟩ := idx_whole t
  unfold iblk
  rw [View.read_apply]
  show V m c main_v11 (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- The first bias's window. -/
theorem blk_b0 (c : Dev nD) (t : Fin cfg0.N) (y : S256.Idx) :
    (iblk m c 6 t : Vec Ideal S256 .f32) y = (data m c).b0 y := by
  obtain ⟨-, -, -, -, e0, -⟩ := idx_whole t
  unfold iblk
  rw [View.read_apply]
  show V m c main_arg4 (((cfg0.win 6).blk t).view.emb y) = _
  rw [V_main_arg4]
  refine congrArg _ (funext fun a => Fin.ext ?_)
  match a with
  | ⟨0, _⟩ => show win0_6.index t (0 : Fin 1) * 256 + 1 * (y 0).val = (y 0).val; omega

/-- The first mask table's window. -/
theorem blk_m0 (c : Dev nD) (t : Fin cfg0.N) (y : S4x4.Idx) :
    (iblk m c 7 t : Vec Ideal S4x4 .f32) y = (V m c main_cst : S4x4.Idx → EReal) y := by
  obtain ⟨-, -, -, -, -, e0, e1, -⟩ := idx_whole t
  unfold iblk
  rw [View.read_apply]
  show V m c main_cst (((cfg0.win 7).blk t).view.emb y) = _
  refine congrArg _ (funext fun a => Fin.ext ?_)
  match a with
  | ⟨0, _⟩ => show win0_7.index t (0 : Fin 2) * 4 + 1 * (y 0).val = (y 0).val; omega
  | ⟨1, _⟩ => show win0_7.index t (1 : Fin 2) * 4 + 1 * (y 1).val = (y 1).val; omega

/-- The second projection matrix's window. -/
theorem blk_w1 (c : Dev nD) (t : Fin cfg0.N) (y : S256x768.Idx) :
    (iblk m c 8 t : Vec Ideal S256x768 .bf16) y = (V m c main_v13 : S256x768.Idx → EReal) y := by
  obtain ⟨-, -, -, -, -, -, -, e0, e1, -⟩ := idx_whole t
  unfold iblk
  rw [View.read_apply]
  show V m c main_v13 (((cfg0.win 8).blk t).view.emb y) = _
  refine congrArg _ (funext fun a => Fin.ext ?_)
  match a with
  | ⟨0, _⟩ => show win0_8.index t (0 : Fin 2) * 256 + 1 * (y 0).val = (y 0).val; omega
  | ⟨1, _⟩ => show win0_8.index t (1 : Fin 2) * 768 + 1 * (y 1).val = (y 1).val; omega

/-- The second output matrix's window. -/
theorem blk_o1 (c : Dev nD) (t : Fin cfg0.N) (y : S256x256.Idx) :
    (iblk m c 9 t : Vec Ideal S256x256 .bf16) y = (V m c main_v15 : S256x256.Idx → EReal) y := by
  obtain ⟨-, -, -, -, -, -, -, -, -, e0, e1, -⟩ := idx_whole t
  unfold iblk
  rw [View.read_apply]
  show V m c main_v15 (((cfg0.win 9).blk t).view.emb y) = _
  refine congrArg _ (funext fun a => Fin.ext ?_)
  match a with
  | ⟨0, _⟩ => show win0_9.index t (0 : Fin 2) * 256 + 1 * (y 0).val = (y 0).val; omega
  | ⟨1, _⟩ => show win0_9.index t (1 : Fin 2) * 256 + 1 * (y 1).val = (y 1).val; omega

/-- The second bias's window. -/
theorem blk_b1 (c : Dev nD) (t : Fin cfg0.N) (y : S256.Idx) :
    (iblk m c 10 t : Vec Ideal S256 .f32) y = (data m c).b1 y := by
  obtain ⟨-, -, -, -, -, -, -, -, -, -, -, e0, -⟩ := idx_whole t
  unfold iblk
  rw [View.read_apply]
  show V m c main_arg7 (((cfg0.win 10).blk t).view.emb y) = _
  rw [V_main_arg7]
  refine congrArg _ (funext fun a => Fin.ext ?_)
  match a with
  | ⟨0, _⟩ => show win0_10.index t (0 : Fin 1) * 256 + 1 * (y 0).val = (y 0).val; omega

/-- The second mask table's window. -/
theorem blk_m1 (c : Dev nD) (t : Fin cfg0.N) (y : S4x4.Idx) :
    (iblk m c 11 t : Vec Ideal S4x4 .f32) y = (V m c main_cst_0 : S4x4.Idx → EReal) y := by
  obtain ⟨-, -, -, -, -, -, -, -, -, -, -, -, e0, e1⟩ := idx_whole t
  unfold iblk
  rw [View.read_apply]
  show V m c main_cst_0 (((cfg0.win 11).blk t).view.emb y) = _
  refine congrArg _ (funext fun a => Fin.ext ?_)
  match a with
  | ⟨0, _⟩ => show win0_11.index t (0 : Fin 2) * 4 + 1 * (y 0).val = (y 0).val; omega
  | ⟨1, _⟩ => show win0_11.index t (1 : Fin 2) * 4 + 1 * (y 1).val = (y 1).val; omega

/-! ## All twelve at once -/

/-- At point `t` the twelve input blocks hold the data's entries for batch `batch t` and stretch `stretch t`. -/
theorem holds (c : Dev nD) (t : Fin cfg0.N) :
    Holds (data m c) (batch t) (stretch t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  hx r d := blk_x m c t (ix3 (0 : Fin 1) r d) (ix3 (batch t) (pixel (stretch t) r) d) rfl rfl rfl
  hy r d := blk_y m c t (ix3 (0 : Fin 1) r d) (ix3 (batch t) (pixel (stretch t) r) d) rfl rfl rfl
  hmx d := blk_mx m c t (ix3 (0 : Fin 1) (0 : Fin 1) d) (ix3 (batch t) (0 : Fin 1) d) rfl rfl
  hmy d := blk_my m c t (ix3 (0 : Fin 1) (0 : Fin 1) d) (ix3 (batch t) (0 : Fin 1) d) rfl rfl
  hw0 d e := (blk_w0 m c t (ix2 d e)).trans (proj0_apply m c d e)
  ho0 e d := (blk_o0 m c t (ix2 e d)).trans (out0_apply m c e d)
  hb0 d := blk_b0 m c t (ix1 d)
  hm0 i j := (blk_m0 m c t (ix2 i j)).trans (maskA_apply m c i j)
  hw1 d e := (blk_w1 m c t (ix2 d e)).trans (proj1_apply m c d e)
  ho1 e d := (blk_o1 m c t (ix2 e d)).trans (out1_apply m c e d)
  hb1 d := blk_b1 m c t (ix1 d)
  hm1 i j := (blk_m1 m c t (ix2 i j)).trans (maskB_apply m c i j)

end Cert.KernelIdeal.KValue

end
-- ==== Proof.KernelRun.lean ====
/-
  The kernel program's run, from the output blocks to the whole result arrays.

  The launch visits the 8 × 7 grid points in row-major order; at point t it hands the body the twelve input blocks of
  that point and writes the body's two output blocks back to block (t / 7, t % 7, 0) of the two result arrays.  The body
  leaves in its output blocks rows 0 and 1 of the second round at the block's pixels (the block theorems), the input
  blocks hold the data's entries for the point's batch and pixel stretch, and a block's entry (0, r, d) sits in its
  array at (t / 7, 448 · (t % 7) + r, d).  So what each point writes back is that point's block of ONE whole-array
  function, the specification's result; the 56 blocks cover the [8, 3136, 256] array (entry (b, p, d) lies in the block
  of point 7 · b + p / 448), hence after the run each result array is the specification's result, and the eight
  arguments are as launched.
-/
import proofs.«102808_j38259568673081_2_alg».proof.Proof.KernelBlocks

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.BlockValue (pixel Holds block12 block13)

variable (m : (ℓ : Loc nD τ sig) → Buf (Elt Ideal) ℓ) (ρ : Dev nD → PrngReg)

/-! ## Result 0 -/

/-- What the body leaves in its first output block at point `t`, at any entry: row 0 of the second round at the
    entry's pixel of the point's batch. -/
theorem point12 (c : Dev nD) (t : Fin cfg0.N) (y : S1x448x256.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = Cert.Attn.result (data m c) 0 (ix3 (batch t) (pixel (stretch t) (y 1)) (y 2)) := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  exact (congrArg _ hy).trans (block12 (holds m c t) (y 1) (y 2))

/-- What point `t` writes back to result 0's array is the point's block of the specification's result 0. -/
theorem flushed12_eq (c : Dev nD) (t : Fin cfg0.N) :
    (dats m 0 c).flushed 12 t
      = ((cfg0.win 12).blk t).view.read (Elt Ideal) (Cert.Attn.result (data m c) 0) := by
  rw [Value.flushed12]
  funext y
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((cfg0.win 12).xinj (grid0.coords t) y)
      = Cert.Attn.result (data m c) 0 (((cfg0.win 12).blk t).view.emb y)
  refine (point12 m c t _).trans ?_
  obtain ⟨-, -, -, -, -, -, e0, e1, e2, -⟩ := idx_moving t
  refine congrArg _ (funext fun a => Fin.ext ?_)
  have hy0 : (y 0).val < 1 := (y 0).isLt
  match a with
  | ⟨0, _⟩ => show t.val / 7 = win0_12.index t (0 : Fin 3) * 1 + 1 * (y 0).val; omega
  | ⟨1, _⟩ => show t.val % 7 * 448 + (y 1).val = win0_12.index t (1 : Fin 3) * 448 + 1 * (y 1).val; omega
  | ⟨2, _⟩ => show (y 2).val = win0_12.index t (2 : Fin 3) * 256 + 1 * (y 2).val; omega

/-- An index of result 0's array is in point `t`'s block iff each coordinate is in the block's range on its axis. -/
theorem mem_blk12 (t : Fin cfg0.N) (i : S8x3136x256.Idx) :
    i ∈ ((cfg0.win 12).blk t).view.set ↔ ∀ a : Fin 3, win0_12.index t a * S1x448x256.size a ≤ (i a).val
      ∧ (i a).val < win0_12.index t a * S1x448x256.size a + S1x448x256.size a := by
  show i ∈ ((View.whole main_v16_0).slice (win0_12.rect t)).set ↔ _
  rw [View.set_slice_whole, Rect.mem_set_unit]
  exact Iff.rfl

/-- Every entry of result 0's array is written: entry (b, p, d) by point 7 · b + p / 448. -/
theorem cover12 (i : S8x3136x256.Idx) :
    ∃ t : Fin cfg0.N, (cfg0.win 12).flush t = true ∧ i ∈ ((cfg0.win 12).blk t).view.set := by
  have hi0 : (i 0).val < 8 := (i 0).isLt
  have hi1 : (i 1).val < 3136 := (i 1).isLt
  have hi2 : (i 2).val < 256 := (i 2).isLt
  have hN : cfg0.N = 56 := N_0
  obtain ⟨t, ht⟩ : ∃ t : Fin cfg0.N, t.val = 7 * (i 0).val + (i 1).val / 448 := ⟨⟨_, by omega⟩, rfl⟩
  obtain ⟨-, -, -, -, -, -, e0, e1, e2, -⟩ := idx_moving t
  refine ⟨t, flush0_12 t, ?_⟩
  rw [mem_blk12]
  intro a
  match a with
  | ⟨0, _⟩ =>
    show win0_12.index t (0 : Fin 3) * 1 ≤ (i 0).val ∧ (i 0).val < win0_12.index t (0 : Fin 3) * 1 + 1
    omega
  | ⟨1, _⟩ =>
    show win0_12.index t (1 : Fin 3) * 448 ≤ (i 1).val ∧ (i 1).val < win0_12.index t (1 : Fin 3) * 448 + 448
    omega
  | ⟨2, _⟩ =>
    show win0_12.index t (2 : Fin 3) * 256 ≤ (i 2).val ∧ (i 2).val < win0_12.index t (2 : Fin 3) * 256 + 256
    omega

/-- So after the run result 0's array is the specification's result 0. -/
theorem final12 (c : Dev nD) : (dats m 0 c).arrAt 12 cfg0.N = Cert.Attn.result (data m c) 0 :=
  (dats m 0 c).arrAt_eq_of_cover 12 (Cert.Attn.result (data m c) 0) (fun t _ => flushed12_eq m c t) cover12

/-! ## Result 1 -/

/-- What the body leaves in its second output block at point `t`, at any entry: row 1 of the second round at the
    entry's pixel of the point's batch. -/
theorem point13 (c : Dev nD) (t : Fin cfg0.N) (y : S1x448x256.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = Cert.Attn.result (data m c) 1 (ix3 (batch t) (pixel (stretch t) (y 1)) (y 2)) := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  exact (congrArg _ hy).trans (block13 (holds m c t) (y 1) (y 2))

/-- What point `t` writes back to result 1's array is the point's block of the specification's result 1. -/
theorem flushed13_eq (c : Dev nD) (t : Fin cfg0.N) :
    (dats m 0 c).flushed 13 t
      = ((cfg0.win 13).blk t).view.read (Elt Ideal) (Cert.Attn.result (data m c) 1) := by
  rw [Value.flushed13]
  funext y
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((cfg0.win 13).xinj (grid0.coords t) y)
      = Cert.Attn.result (data m c) 1 (((cfg0.win 13).blk t).view.emb y)
  refine (point13 m c t _).trans ?_
  obtain ⟨-, -, -, -, -, -, -, -, -, e0, e1, e2⟩ := idx_moving t
  refine congrArg _ (funext fun a => Fin.ext ?_)
  have hy0 : (y 0).val < 1 := (y 0).isLt
  match a with
  | ⟨0, _⟩ => show t.val / 7 = win0_13.index t (0 : Fin 3) * 1 + 1 * (y 0).val; omega
  | ⟨1, _⟩ => show t.val % 7 * 448 + (y 1).val = win0_13.index t (1 : Fin 3) * 448 + 1 * (y 1).val; omega
  | ⟨2, _⟩ => show (y 2).val = win0_13.index t (2 : Fin 3) * 256 + 1 * (y 2).val; omega

/-- An index of result 1's array is in point `t`'s block iff each coordinate is in the block's range on its axis. -/
theorem mem_blk13 (t : Fin cfg0.N) (i : S8x3136x256.Idx) :
    i ∈ ((cfg0.win 13).blk t).view.set ↔ ∀ a : Fin 3, win0_13.index t a * S1x448x256.size a ≤ (i a).val
      ∧ (i a).val < win0_13.index t a * S1x448x256.size a + S1x448x256.size a := by
  show i ∈ ((View.whole main_v16_1).slice (win0_13.rect t)).set ↔ _
  rw [View.set_slice_whole, Rect.mem_set_unit]
  exact Iff.rfl

/-- Every entry of result 1's array is written: entry (b, p, d) by point 7 · b + p / 448. -/
theorem cover13 (i : S8x3136x256.Idx) :
    ∃ t : Fin cfg0.N, (cfg0.win 13).flush t = true ∧ i ∈ ((cfg0.win 13).blk t).view.set := by
  have hi0 : (i 0).val < 8 := (i 0).isLt
  have hi1 : (i 1).val < 3136 := (i 1).isLt
  have hi2 : (i 2).val < 256 := (i 2).isLt
  have hN : cfg0.N = 56 := N_0
  obtain ⟨t, ht⟩ : ∃ t : Fin cfg0.N, t.val = 7 * (i 0).val + (i 1).val / 448 := ⟨⟨_, by omega⟩, rfl⟩
  obtain ⟨-, -, -, -, -, -, -, -, -, e0, e1, e2⟩ := idx_moving t
  refine ⟨t, flush0_13 t, ?_⟩
  rw [mem_blk13]
  intro a
  match a with
  | ⟨0, _⟩ =>
    show win0_13.index t (0 : Fin 3) * 1 ≤ (i 0).val ∧ (i 0).val < win0_13.index t (0 : Fin 3) * 1 + 1
    omega
  | ⟨1, _⟩ =>
    show win0_13.index t (1 : Fin 3) * 448 ≤ (i 1).val ∧ (i 1).val < win0_13.index t (1 : Fin 3) * 448 + 448
    omega
  | ⟨2, _⟩ =>
    show win0_13.index t (2 : Fin 3) * 256 ≤ (i 2).val ∧ (i 2).val < win0_13.index t (2 : Fin 3) * 256 + 256
    omega

/-- So after the run result 1's array is the specification's result 1. -/
theorem final13 (c : Dev nD) : (dats m 0 c).arrAt 13 cfg0.N = Cert.Attn.result (data m c) 1 :=
  (dats m 0 c).arrAt_eq_of_cover 13 (Cert.Attn.result (data m c) 1) (fun t _ => flushed13_eq m c t) cover13

/-! ## The run -/

/-- Every weakly fair execution of the kernel program terminates with the two result arrays at the specification's
    results 0 and 1 of the launch memory's data, and the eight arguments unchanged. -/
theorem run : θ_run (defs (F := Ideal)) (onTc (τ := τ) (main (F := Ideal))) ⟨m, fun _ => 0, ρ⟩ fun r => ∀ c : Dev nD,
        r.2.mem ((c.tc : Thread nD τ).loc main_v16_0) = Cert.Attn.result (data m c) 0
        ∧ r.2.mem ((c.tc : Thread nD τ).loc main_v16_1) = Cert.Attn.result (data m c) 1
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono
    (fun r h c => ⟨(h c).1.trans (final12 m c), (h c).2.1.trans (final13 m c), (h c).2.2⟩)
    (Cert.KernelIdeal.Value.run_blocks m ρ)

end Cert.KernelIdeal.KValue

end
-- ==== Proof.RefOps.lean ====
/-
  The reference program as a list of host operations, and its run.

  The reference has no kernel: its @main is 101 host operations in a straight line.  They are listed here in five
  stretches — the tokens, the first round, the second round's projection, the rest of the second round, the two
  result rows — so that each stretch can be read by itself.  Every weakly fair execution of @main terminates, and
  every buffer then holds what the operations, folded in order over the launch contents, leave in it.
-/
import proofs.«102808_j38259568673081_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The two mask tables, the two mean rows, and the four tokens of every pixel laid side by side: the first 21 operations. -/
abbrev opsTokens : List (HloOp τ sig (Elt F)) :=
  [ StableHlo.nullary main_cst (fun i => FloatOps.ofBits .f32 (lit0 (S4x4.rowMajor i))),
    StableHlo.nullary main_cst_0 (fun i => FloatOps.ofBits .f32 (lit1 (S4x4.rowMajor i))),
    StableHlo.nullary main_cst_1 (constant S_ .f32 0x00000000#32),
    StableHlo.binary main_arg0 main_cst_1 main_v0 ((fun x v => Host.reduceAdd x v reducesTo_S8x3136x256_S8x256_d1 h_S_) : (⟨S8x3136x256, .f32⟩ : BufTy).Contents (Elt F) → (⟨S_, .f32⟩ : BufTy).Contents (Elt F) → (⟨S8x256, .f32⟩ : BufTy).Contents (Elt F)),
    StableHlo.unary main_v0 main_v1 (broadcastInDim S8x1x256 ![0, 2] bcast_S8x256_S8x1x256_0_2 : (⟨S8x256, .f32⟩ : BufTy).Contents (Elt F) → (⟨S8x1x256, .f32⟩ : BufTy).Contents (Elt F)),
    StableHlo.nullary main_cst_2 (constant S_ .f32 0x45440000#32),
    StableHlo.unary main_cst_2 main_v2 (broadcastInDim S8x1x256 ![] bcast_S_S8x1x256 : (⟨S_, .f32⟩ : BufTy).Contents (Elt F) → (⟨S8x1x256, .f32⟩ : BufTy).Contents (Elt F)),
    StableHlo.binary main_v1 main_v2 main_v3 (Host.divf : (⟨S8x1x256, .f32⟩ : BufTy).Contents (Elt F) → (⟨S8x1x256, .f32⟩ : BufTy).Contents (Elt F) → (⟨S8x1x256, .f32⟩ : BufTy).Contents (Elt F)),
    StableHlo.nullary main_cst_3 (constant S_ .f32 0x00000000#32),
    StableHlo.binary main_arg1 main_cst_3 main_v4 ((fun x v => Host.reduceAdd x v reducesTo_S8x3136x256_S8x256_d1 h_S_) : (⟨S8x3136x256, .f32⟩ : BufTy).Contents (Elt F) → (⟨S_, .f32⟩ : BufTy).Contents (Elt F) → (⟨S8x256, .f32⟩ : BufTy).Contents (Elt F)),
    StableHlo.unary main_v4 main_v5 (broadcastInDim S8x1x256 ![0, 2] bcast_S8x256_S8x1x256_0_2 : (⟨S8x256, .f32⟩ : BufTy).Contents (Elt F) → (⟨S8x1x256, .f32⟩ : BufTy).Contents (Elt F)),
    StableHlo.nullary main_cst_4 (constant S_ .f32 0x45440000#32),
    StableHlo.unary main_cst_4 main_v6 (broadcastInDim S8x1x256 ![] bcast_S_S8x1x256 : (⟨S_, .f32⟩ : BufTy).Contents (Elt F) → (⟨S8x1x256, .f32⟩ : BufTy).Contents (Elt F)),
    StableHlo.binary main_v5 main_v6 main_v7 (Host.divf : (⟨S8x1x256, .f32⟩ : BufTy).Contents (Elt F) → (⟨S8x1x256, .f32⟩ : BufTy).Contents (Elt F) → (⟨S8x1x256, .f32⟩ : BufTy).Contents (Elt F)),
    StableHlo.unary main_v3 main_v8 (broadcastInDim S8x3136x256 ![0, 1, 2] bcast_S8x1x256_S8x3136x256_0_1_2 : (⟨S8x1x256, .f32⟩ : BufTy).Contents (Elt F) → (⟨S8x3136x256, .f32⟩ : BufTy).Contents (Elt F)),
    StableHlo.unary main_v7 main_v9 (broadcastInDim S8x3136x256 ![0, 1, 2] bcast_S8x1x256_S8x3136x256_0_1_2 : (⟨S8x1x256, .f32⟩ : BufTy).Contents (Elt F) → (⟨S8x3136x256, .f32⟩ : BufTy).Contents (Elt F)),
    StableHlo.unary main_arg0 main_v10 (broadcastInDim S8x3136x1x256 ![0, 1, 3] bcast_S8x3136x256_S8x3136x1x256_0_1_3 : (⟨S8x3136x256, .f32⟩ : BufTy).Contents (Elt F) → (⟨S8x3136x1x256, .f32⟩ : BufTy).Contents (Elt F)),
    StableHlo.unary main_arg1 main_v11 (broadcastInDim S8x3136x1x256 ![0, 1, 3] bcast_S8x3136x256_S8x3136x1x256_0_1_3 : (⟨S8x3136x256, .f32⟩ : BufTy).Contents (Elt F) → (⟨S8x3136x1x256, .f32⟩ : BufTy).Contents (Elt F)),
    StableHlo.unary main_v8 main_v12 (broadcastInDim S8x3136x1x256 ![0, 1, 3] bcast_S8x3136x256_S8x3136x1x256_0_1_3 : (⟨S8x3136x256, .f32⟩ : BufTy).Contents (Elt F) → (⟨S8x3136x1x256, .f32⟩ : BufTy).Contents (Elt F)),
    StableHlo.unary main_v9 main_v13 (broadcastInDim S8x3136x1x256 ![0, 1, 3] bcast_S8x3136x256_S8x3136x1x256_0_1_3 : (⟨S8x3136x256, .f32⟩ : BufTy).Contents (Elt F) → (⟨S8x3136x1x256, .f32⟩ : BufTy).Contents (Elt F)),
    StableHlo.nary ![main_v10, main_v11, main_v12, main_v13] main_v14 (fun u => concatenate S8x3136x4x256 2 [⟨S8x3136x1x256, u 0⟩, ⟨S8x3136x1x256, u 1⟩, ⟨S8x3136x1x256, u 2⟩, ⟨S8x3136x1x256, u 3⟩] concatenates_S8x3136x1x256_S8x3136x1x256_S8x3136x1x256_S8x3136x1x256_S8x3136x4x256_d2) ]

/-- The first round on the tokens: 38 operations, ending in its four rows per pixel. -/
abbrev opsRoundA : List (HloOp τ sig (Elt F)) :=
  [ StableHlo.binary main_v14 main_arg2 main_v15 ((fun l r => Host.dotGeneral dot_S8x3136x4x256_S768x256_S8x3136x4x768_3_1_012_0_n_n none l r) : (⟨S8x3136x4x256, .f32⟩ : BufTy).Contents (Elt F) → (⟨S768x256, .f32⟩ : BufTy).Contents (Elt F) → (⟨S8x3136x4x768, .f32⟩ : BufTy).Contents (Elt F)),
    StableHlo.unary main_v15 main_v16 ((extractStridedSlice S8x3136x4x256 ![0, 0, 0, 0] · slices_S8x3136x4x768_S8x3136x4x256_0_0_0_0) : (⟨S8x3136x4x768, .f32⟩ : BufTy).Contents (Elt F) → (⟨S8x3136x4x256, .f32⟩ : BufTy).Contents (Elt F)),
    StableHlo.unary main_v15 main_v17 ((extractStridedSlice S8x3136x4x256 ![0, 0, 0, 256] · slices_S8x3136x4x768_S8x3136x4x256_0_0_0_256) : (⟨S8x3136x4x768, .f32⟩ : BufTy).Contents (Elt F) → (⟨S8x3136x4x256, .f32⟩ : BufTy).Contents (Elt F)),
    StableHlo.unary main_v15 main_v18 ((extractStridedSlice S8x3136x4x256 ![0, 0, 0, 512] · slices_S8x3136x4x768_S8x3136x4x256_0_0_0_512) : (⟨S8x3136x4x768, .f32⟩ : BufTy).Contents (Elt F) → (⟨S8x3136x4x256, .f32⟩ : BufTy).Contents (Elt F)),
    StableHlo.reshape main_v16 main_v19 rfl shapeCasts_S8x3136x4x256_S8x3136x4x8x32,
    StableHlo.unary main_v19 main_v20 ((transpose S8x3136x8x4x32 [0, 1, 3, 2, 4] · transposes_S8x3136x4x8x32_S8x3136x8x4x32_0_1_3_2_4) : (⟨S8x3136x4x8x32, .f32⟩ : BufTy).Contents (Elt F) → (⟨S8x3136x8x4x32, .f32⟩ : BufTy).Contents (Elt F)),
    StableHlo.reshape main_v17 main_v21 rfl shapeCasts_S8x3136x4x256_S8x3136x4x8x32,
    StableHlo.unary main_v21 main_v22 ((transpose S8x3136x8x4x32 [0, 1, 3, 2, 4] · transposes_S8x3136x4x8x32_S8x3136x8x4x32_0_1_3_2_4) : (⟨S8x3136x4x8x32, .f32⟩ : BufTy).Contents (Elt F) → (⟨S8x3136x8x4x32, .f32⟩ : BufTy).Contents (Elt F)),
    StableHlo.reshape main_v18 main_v23 rfl shapeCasts_S8x3136x4x256_S8x3136x4x8x32,
    StableHlo.unary main_v23 main_v24 ((transpose S8x3136x8x4x32 [0, 1, 3, 2, 4] · transposes_S8x3136x4x8x32_S8x3136x8x4x32_0_1_3_2_4) : (⟨S8x3136x4x8x32, .f32⟩ : BufTy).Contents (Elt F) → (⟨S8x3136x8x4x32, .f32⟩ : BufTy).Contents (Elt F)),
    StableHlo.binary main_v20 main_v22 main_v25 ((fun l r => Host.dotGeneral dot_S8x3136x8x4x32_S8x3136x8x4x32_S8x3136x8x4x4_4_4_3_3_012_012 none l r) : (⟨S8x3136x8x4x32, .f32⟩ : BufTy).Contents (Elt F) → (⟨S8x3136x8x4x32, .f32⟩ : BufTy).Contents (Elt F) → (⟨S8x3136x8x4x4, .f32⟩ : BufTy).Contents (Elt F)),
    StableHlo.nullary main_cst_5 (constant S_ .f32 0x3E3504F3#32),
    StableHlo.unary main_cst_5 main_v26 (broadcastInDim S8x3136x8x4x4 ![] bcast_S_S8x3136x8x4x4 : (⟨S_, .f32⟩ : BufTy).Contents (Elt F) → (⟨S8x3136x8x4x4, .f32⟩ : BufTy).Contents (Elt F)),
    StableHlo.binary main_v25 main_v26 main_v27 (mulf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.unary main_cst main_v28 (broadcastInDim S1x1x1x4x4 ![3, 4] bcast_S4x4_S1x1x1x4x4_3_4 : (⟨S4x4, .f32⟩ : BufTy).Contents (Elt F) → (⟨S1x1x1x4x4, .f32⟩ : BufTy).Contents (Elt F)),
    StableHlo.unary main_v28 main_v29 (broadcastInDim S8x3136x8x4x4 ![0, 1, 2, 3, 4] bcast_S1x1x1x4x4_S8x3136x8x4x4_0_1_2_3_4 : (⟨S1x1x1x4x4, .f32⟩ : BufTy).Contents (Elt F) → (⟨S8x3136x8x4x4, .f32⟩ : BufTy).Contents (Elt F)),
    StableHlo.binary main_v27 main_v29 main_v30 (addf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.nullary main_cst_6 (constant S_ .f32 0xFF800000#32),
    StableHlo.binary main_v30 main_cst_6 main_v31 ((fun x v => Host.reduce FloatOps.maximumf x v reducesTo_S8x3136x8x4x4_S8x3136x8x4_d4 h_S_) : (⟨S8x3136x8x4x4, .f32⟩ : BufTy).Contents (Elt F) → (⟨S_, .f32⟩ : BufTy).Contents (Elt F) → (⟨S8x3136x8x4, .f32⟩ : BufTy).Contents (Elt F)),
    StableHlo.nullary main_cst_7 (constant S_ .f32 0xFF800000#32),
    StableHlo.unary main_cst_7 main_v32 (broadcastInDim S8x3136x8x4 ![] bcast_S_S8x3136x8x4 : (⟨S_, .f32⟩ : BufTy).Contents (Elt F) → (⟨S8x3136x8x4, .f32⟩ : BufTy).Contents (Elt F)),
    StableHlo.binary main_v32 main_v31 main_v33 (maximumf : (⟨S8x3136x8x4, .f32⟩ : BufTy).Contents (Elt F) → (⟨S8x3136x8x4, .f32⟩ : BufTy).Contents (Elt F) → (⟨S8x3136x8x4, .f32⟩ : BufTy).Contents (Elt F)),
    StableHlo.unary main_v33 main_v34 (broadcastInDim S8x3136x8x4x1 ![0, 1, 2, 3] bcast_S8x3136x8x4_S8x3136x8x4x1_0_1_2_3 : (⟨S8x3136x8x4, .f32⟩ : BufTy).Contents (Elt F) → (⟨S8x3136x8x4x1, .f32⟩ : BufTy).Contents (Elt F)),
    StableHlo.unary main_v34 main_v35 (broadcastInDim S8x3136x8x4x4 ![0, 1, 2, 3, 4] bcast_S8x3136x8x4x1_S8x3136x8x4x4_0_1_2_3_4 : (⟨S8x3136x8x4x1, .f32⟩ : BufTy).Contents (Elt F) → (⟨S8x3136x8x4x4, .f32⟩ : BufTy).Contents (Elt F)),
    StableHlo.binary main_v30 main_v35 main_v36 (subf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.unary main_v36 main_v37 (Host.exp : (⟨S8x3136x8x4x4, .f32⟩ : BufTy).Contents (Elt F) → (⟨S8x3136x8x4x4, .f32⟩ : BufTy).Contents (Elt F)),
    StableHlo.nullary main_cst_8 (constant S_ .f32 0x00000000#32),
    StableHlo.binary main_v37 main_cst_8 main_v38 ((fun x v => Host.reduceAdd x v reducesTo_S8x3136x8x4x4_S8x3136x8x4_d4 h_S_) : (⟨S8x3136x8x4x4, .f32⟩ : BufTy).Contents (Elt F) → (⟨S_, .f32⟩ : BufTy).Contents (Elt F) → (⟨S8x3136x8x4, .f32⟩ : BufTy).Contents (Elt F)),
    StableHlo.unary main_v38 main_v39 (broadcastInDim S8x3136x8x4x1 ![0, 1, 2, 3] bcast_S8x3136x8x4_S8x3136x8x4x1_0_1_2_3 : (⟨S8x3136x8x4, .f32⟩ : BufTy).Contents (Elt F) → (⟨S8x3136x8x4x1, .f32⟩ : BufTy).Contents (Elt F)),
    StableHlo.unary main_v39 main_v40 (broadcastInDim S8x3136x8x4x4 ![0, 1, 2, 3, 4] bcast_S8x3136x8x4x1_S8x3136x8x4x4_0_1_2_3_4 : (⟨S8x3136x8x4x1, .f32⟩ : BufTy).Contents (Elt F) → (⟨S8x3136x8x4x4, .f32⟩ : BufTy).Contents (Elt F)),
    StableHlo.binary main_v37 main_v40 main_v41 (Host.divf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.binary main_v41 main_v24 main_v42 ((fun l r => Host.dotGeneral dot_S8x3136x8x4x4_S8x3136x8x4x32_S8x3136x8x4x32_4_3_3_4_012_012 none l r) : (⟨S8x3136x8x4x4, .f32⟩ : BufTy).Contents (Elt F) → (⟨S8x3136x8x4x32, .f32⟩ : BufTy).Contents (Elt F) → (⟨S8x3136x8x4x32, .f32⟩ : BufTy).Contents (Elt F)),
    StableHlo.unary main_v42 main_v43 ((transpose S8x3136x4x8x32 [0, 1, 3, 2, 4] · transposes_S8x3136x8x4x32_S8x3136x4x8x32_0_1_3_2_4) : (⟨S8x3136x8x4x32, .f32⟩ : BufTy).Contents (Elt F) → (⟨S8x3136x4x8x32, .f32⟩ : BufTy).Contents (Elt F)),
    StableHlo.reshape main_v43 main_v44 rfl shapeCasts_S8x3136x4x8x32_S8x3136x4x256,
    StableHlo.binary main_v44 main_arg3 main_v45 ((fun l r => Host.dotGeneral dot_S8x3136x4x256_S256x256_S8x3136x4x256_3_1_012_0_n_n none l r) : (⟨S8x3136x4x256, .f32⟩ : BufTy).Contents (Elt F) → (⟨S256x256, .f32⟩ : BufTy).Contents (Elt F) → (⟨S8x3136x4x256, .f32⟩ : BufTy).Contents (Elt F)),
    StableHlo.unary main_arg4 main_v46 (broadcastInDim S1x1x1x256 ![3] bcast_S256_S1x1x1x256_3 : (⟨S256, .f32⟩ : BufTy).Contents (Elt F) → (⟨S1x1x1x256, .f32⟩ : BufTy).Contents (Elt F)),
    StableHlo.unary main_v46 main_v47 (broadcastInDim S8x3136x4x256 ![0, 1, 2, 3] bcast_S1x1x1x256_S8x3136x4x256_0_1_2_3 : (⟨S1x1x1x256, .f32⟩ : BufTy).Contents (Elt F) → (⟨S8x3136x4x256, .f32⟩ : BufTy).Contents (Elt F)),
    StableHlo.binary main_v45 main_v47 main_v48 (addf : (⟨S8x3136x4x256, .f32⟩ : BufTy).Contents (Elt F) → (⟨S8x3136x4x256, .f32⟩ : BufTy).Contents (Elt F) → (⟨S8x3136x4x256, .f32⟩ : BufTy).Contents (Elt F)) ]

/-- The second round's projection of the first round's rows: one operation. -/
abbrev opsProjB : List (HloOp τ sig (Elt F)) :=
  [ StableHlo.binary main_v48 main_arg5 main_v49 ((fun l r => Host.dotGeneral dot_S8x3136x4x256_S768x256_S8x3136x4x768_3_1_012_0_n_n none l r) : (⟨S8x3136x4x256, .f32⟩ : BufTy).Contents (Elt F) → (⟨S768x256, .f32⟩ : BufTy).Contents (Elt F) → (⟨S8x3136x4x768, .f32⟩ : BufTy).Contents (Elt F)) ]

/-- The rest of the second round: 37 operations. -/
abbrev opsRoundB : List (HloOp τ sig (Elt F)) :=
  [ StableHlo.unary main_v49 main_v50 ((extractStridedSlice S8x3136x4x256 ![0, 0, 0, 0] · slices_S8x3136x4x768_S8x3136x4x256_0_0_0_0) : (⟨S8x3136x4x768, .f32⟩ : BufTy).Contents (Elt F) → (⟨S8x3136x4x256, .f32⟩ : BufTy).Contents (Elt F)),
    StableHlo.unary main_v49 main_v51 ((extractStridedSlice S8x3136x4x256 ![0, 0, 0, 256] · slices_S8x3136x4x768_S8x3136x4x256_0_0_0_256) : (⟨S8x3136x4x768, .f32⟩ : BufTy).Contents (Elt F) → (⟨S8x3136x4x256, .f32⟩ : BufTy).Contents (Elt F)),
    StableHlo.unary main_v49 main_v52 ((extractStridedSlice S8x3136x4x256 ![0, 0, 0, 512] · slices_S8x3136x4x768_S8x3136x4x256_0_0_0_512) : (⟨S8x3136x4x768, .f32⟩ : BufTy).Contents (Elt F) → (⟨S8x3136x4x256, .f32⟩ : BufTy).Contents (Elt F)),
    StableHlo.reshape main_v50 main_v53 rfl shapeCasts_S8x3136x4x256_S8x3136x4x8x32,
    StableHlo.unary main_v53 main_v54 ((transpose S8x3136x8x4x32 [0, 1, 3, 2, 4] · transposes_S8x3136x4x8x32_S8x3136x8x4x32_0_1_3_2_4) : (⟨S8x3136x4x8x32, .f32⟩ : BufTy).Contents (Elt F) → (⟨S8x3136x8x4x32, .f32⟩ : BufTy).Contents (Elt F)),
    StableHlo.reshape main_v51 main_v55 rfl shapeCasts_S8x3136x4x256_S8x3136x4x8x32,
    StableHlo.unary main_v55 main_v56 ((transpose S8x3136x8x4x32 [0, 1, 3, 2, 4] · transposes_S8x3136x4x8x32_S8x3136x8x4x32_0_1_3_2_4) : (⟨S8x3136x4x8x32, .f32⟩ : BufTy).Contents (Elt F) → (⟨S8x3136x8x4x32, .f32⟩ : BufTy).Contents (Elt F)),
    StableHlo.reshape main_v52 main_v57 rfl shapeCasts_S8x3136x4x256_S8x3136x4x8x32,
    StableHlo.unary main_v57 main_v58 ((transpose S8x3136x8x4x32 [0, 1, 3, 2, 4] · transposes_S8x3136x4x8x32_S8x3136x8x4x32_0_1_3_2_4) : (⟨S8x3136x4x8x32, .f32⟩ : BufTy).Contents (Elt F) → (⟨S8x3136x8x4x32, .f32⟩ : BufTy).Contents (Elt F)),
    StableHlo.binary main_v54 main_v56 main_v59 ((fun l r => Host.dotGeneral dot_S8x3136x8x4x32_S8x3136x8x4x32_S8x3136x8x4x4_4_4_3_3_012_012 none l r) : (⟨S8x3136x8x4x32, .f32⟩ : BufTy).Contents (Elt F) → (⟨S8x3136x8x4x32, .f32⟩ : BufTy).Contents (Elt F) → (⟨S8x3136x8x4x4, .f32⟩ : BufTy).Contents (Elt F)),
    StableHlo.nullary main_cst_9 (constant S_ .f32 0x3E3504F3#32),
    StableHlo.unary main_cst_9 main_v60 (broadcastInDim S8x3136x8x4x4 ![] bcast_S_S8x3136x8x4x4 : (⟨S_, .f32⟩ : BufTy).Contents (Elt F) → (⟨S8x3136x8x4x4, .f32⟩ : BufTy).Contents (Elt F)),
    StableHlo.binary main_v59 main_v60 main_v61 (mulf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.unary main_cst_0 main_v62 (broadcastInDim S1x1x1x4x4 ![3, 4] bcast_S4x4_S1x1x1x4x4_3_4 : (⟨S4x4, .f32⟩ : BufTy).Contents (Elt F) → (⟨S1x1x1x4x4, .f32⟩ : BufTy).Contents (Elt F)),
    StableHlo.unary main_v62 main_v63 (broadcastInDim S8x3136x8x4x4 ![0, 1, 2, 3, 4] bcast_S1x1x1x4x4_S8x3136x8x4x4_0_1_2_3_4 : (⟨S1x1x1x4x4, .f32⟩ : BufTy).Contents (Elt F) → (⟨S8x3136x8x4x4, .f32⟩ : BufTy).Contents (Elt F)),
    StableHlo.binary main_v61 main_v63 main_v64 (addf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.nullary main_cst_10 (constant S_ .f32 0xFF800000#32),
    StableHlo.binary main_v64 main_cst_10 main_v65 ((fun x v => Host.reduce FloatOps.maximumf x v reducesTo_S8x3136x8x4x4_S8x3136x8x4_d4 h_S_) : (⟨S8x3136x8x4x4, .f32⟩ : BufTy).Contents (Elt F) → (⟨S_, .f32⟩ : BufTy).Contents (Elt F) → (⟨S8x3136x8x4, .f32⟩ : BufTy).Contents (Elt F)),
    StableHlo.nullary main_cst_11 (constant S_ .f32 0xFF800000#32),
    StableHlo.unary main_cst_11 main_v66 (broadcastInDim S8x3136x8x4 ![] bcast_S_S8x3136x8x4 : (⟨S_, .f32⟩ : BufTy).Contents (Elt F) → (⟨S8x3136x8x4, .f32⟩ : BufTy).Contents (Elt F)),
    StableHlo.binary main_v66 main_v65 main_v67 (maximumf : (⟨S8x3136x8x4, .f32⟩ : BufTy).Contents (Elt F) → (⟨S8x3136x8x4, .f32⟩ : BufTy).Contents (Elt F) → (⟨S8x3136x8x4, .f32⟩ : BufTy).Contents (Elt F)),
    StableHlo.unary main_v67 main_v68 (broadcastInDim S8x3136x8x4x1 ![0, 1, 2, 3] bcast_S8x3136x8x4_S8x3136x8x4x1_0_1_2_3 : (⟨S8x3136x8x4, .f32⟩ : BufTy).Contents (Elt F) → (⟨S8x3136x8x4x1, .f32⟩ : BufTy).Contents (Elt F)),
    StableHlo.unary main_v68 main_v69 (broadcastInDim S8x3136x8x4x4 ![0, 1, 2, 3, 4] bcast_S8x3136x8x4x1_S8x3136x8x4x4_0_1_2_3_4 : (⟨S8x3136x8x4x1, .f32⟩ : BufTy).Contents (Elt F) → (⟨S8x3136x8x4x4, .f32⟩ : BufTy).Contents (Elt F)),
    StableHlo.binary main_v64 main_v69 main_v70 (subf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.unary main_v70 main_v71 (Host.exp : (⟨S8x3136x8x4x4, .f32⟩ : BufTy).Contents (Elt F) → (⟨S8x3136x8x4x4, .f32⟩ : BufTy).Contents (Elt F)),
    StableHlo.nullary main_cst_12 (constant S_ .f32 0x00000000#32),
    StableHlo.binary main_v71 main_cst_12 main_v72 ((fun x v => Host.reduceAdd x v reducesTo_S8x3136x8x4x4_S8x3136x8x4_d4 h_S_) : (⟨S8x3136x8x4x4, .f32⟩ : BufTy).Contents (Elt F) → (⟨S_, .f32⟩ : BufTy).Contents (Elt F) → (⟨S8x3136x8x4, .f32⟩ : BufTy).Contents (Elt F)),
    StableHlo.unary main_v72 main_v73 (broadcastInDim S8x3136x8x4x1 ![0, 1, 2, 3] bcast_S8x3136x8x4_S8x3136x8x4x1_0_1_2_3 : (⟨S8x3136x8x4, .f32⟩ : BufTy).Contents (Elt F) → (⟨S8x3136x8x4x1, .f32⟩ : BufTy).Contents (Elt F)),
    StableHlo.unary main_v73 main_v74 (broadcastInDim S8x3136x8x4x4 ![0, 1, 2, 3, 4] bcast_S8x3136x8x4x1_S8x3136x8x4x4_0_1_2_3_4 : (⟨S8x3136x8x4x1, .f32⟩ : BufTy).Contents (Elt F) → (⟨S8x3136x8x4x4, .f32⟩ : BufTy).Contents (Elt F)),
    StableHlo.binary main_v71 main_v74 main_v75 (Host.divf : (⟨S8x3136x8x4x4, .f32⟩ : BufTy).Contents (Elt F) → (⟨S8x3136x8x4x4, .f32⟩ : BufTy).Contents (Elt F) → (⟨S8x3136x8x4x4, .f32⟩ : BufTy).Contents (Elt F)),
    StableHlo.binary main_v75 main_v58 main_v76 ((fun l r => Host.dotGeneral dot_S8x3136x8x4x4_S8x3136x8x4x32_S8x3136x8x4x32_4_3_3_4_012_012 none l r) : (⟨S8x3136x8x4x4, .f32⟩ : BufTy).Contents (Elt F) → (⟨S8x3136x8x4x32, .f32⟩ : BufTy).Contents (Elt F) → (⟨S8x3136x8x4x32, .f32⟩ : BufTy).Contents (Elt F)),
    StableHlo.unary main_v76 main_v77 ((transpose S8x3136x4x8x32 [0, 1, 3, 2, 4] · transposes_S8x3136x8x4x32_S8x3136x4x8x32_0_1_3_2_4) : (⟨S8x3136x8x4x32, .f32⟩ : BufTy).Contents (Elt F) → (⟨S8x3136x4x8x32, .f32⟩ : BufTy).Contents (Elt F)),
    StableHlo.reshape main_v77 main_v78 rfl shapeCasts_S8x3136x4x8x32_S8x3136x4x256,
    StableHlo.binary main_v78 main_arg6 main_v79 ((fun l r => Host.dotGeneral dot_S8x3136x4x256_S256x256_S8x3136x4x256_3_1_012_0_n_n none l r) : (⟨S8x3136x4x256, .f32⟩ : BufTy).Contents (Elt F) → (⟨S256x256, .f32⟩ : BufTy).Contents (Elt F) → (⟨S8x3136x4x256, .f32⟩ : BufTy).Contents (Elt F)),
    StableHlo.unary main_arg7 main_v80 (broadcastInDim S1x1x1x256 ![3] bcast_S256_S1x1x1x256_3 : (⟨S256, .f32⟩ : BufTy).Contents (Elt F) → (⟨S1x1x1x256, .f32⟩ : BufTy).Contents (Elt F)),
    StableHlo.unary main_v80 main_v81 (broadcastInDim S8x3136x4x256 ![0, 1, 2, 3] bcast_S1x1x1x256_S8x3136x4x256_0_1_2_3 : (⟨S1x1x1x256, .f32⟩ : BufTy).Contents (Elt F) → (⟨S8x3136x4x256, .f32⟩ : BufTy).Contents (Elt F)),
    StableHlo.binary main_v79 main_v81 main_v82 (addf : (⟨S8x3136x4x256, .f32⟩ : BufTy).Contents (Elt F) → (⟨S8x3136x4x256, .f32⟩ : BufTy).Contents (Elt F) → (⟨S8x3136x4x256, .f32⟩ : BufTy).Contents (Elt F)) ]

/-- Rows 0 and 1 of the second round cut out and laid out as the two results: the last 4 operations. -/
abbrev opsRows : List (HloOp τ sig (Elt F)) :=
  [ StableHlo.unary main_v82 main_v83 ((extractStridedSlice S8x3136x1x256 ![0, 0, 0, 0] · slices_S8x3136x4x256_S8x3136x1x256_0_0_0_0) : (⟨S8x3136x4x256, .f32⟩ : BufTy).Contents (Elt F) → (⟨S8x3136x1x256, .f32⟩ : BufTy).Contents (Elt F)),
    StableHlo.reshape main_v83 main_v84 rfl shapeCasts_S8x3136x1x256_S8x3136x256,
    StableHlo.unary main_v82 main_v85 ((extractStridedSlice S8x3136x1x256 ![0, 0, 1, 0] · slices_S8x3136x4x256_S8x3136x1x256_0_0_1_0) : (⟨S8x3136x4x256, .f32⟩ : BufTy).Contents (Elt F) → (⟨S8x3136x1x256, .f32⟩ : BufTy).Contents (Elt F)),
    StableHlo.reshape main_v85 main_v86 rfl shapeCasts_S8x3136x1x256_S8x3136x256 ]

/-- All of @main's operations, in order. -/
abbrev ops : List (HloOp τ sig (Elt F)) := opsTokens ++ (opsRoundA ++ (opsProjB ++ (opsRoundB ++ opsRows)))

set_option maxRecDepth 8192 in
set_option maxHeartbeats 4000000 in
theorem main_part0_eq (c : Dev nD) : main_part0 (F := F) c = seq (opsTokens ++ (opsRoundA ++ opsProjB)) := rfl
set_option maxRecDepth 8192 in
set_option maxHeartbeats 4000000 in
theorem main_part1_eq (c : Dev nD) : main_part1 (F := F) c = seq (opsRoundB ++ opsRows) := rfl

/-- @main is the five stretches run one after another. -/
theorem main_eq (c : Dev nD) : main (F := F) c = seq ops := by
  have e : (ops : List (HloOp τ sig (Elt F))) = (opsTokens ++ (opsRoundA ++ opsProjB)) ++ (opsRoundB ++ opsRows) := by
    simp only [ops, List.append_assoc]
  rw [e, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsTokens_sub : (opsTokens : List (HloOp τ sig (Elt F))).Forall fun op => op.bufs ⊆ tcRefs τ sig :=
  ⟨nullary_bufs_sub .., nullary_bufs_sub .., nullary_bufs_sub .., binary_bufs_sub .., unary_bufs_sub .., nullary_bufs_sub .., unary_bufs_sub .., binary_bufs_sub .., nullary_bufs_sub .., binary_bufs_sub .., unary_bufs_sub .., nullary_bufs_sub .., unary_bufs_sub .., binary_bufs_sub .., unary_bufs_sub .., unary_bufs_sub .., unary_bufs_sub .., unary_bufs_sub .., unary_bufs_sub .., unary_bufs_sub .., nary_bufs_sub ..⟩
set_option maxRecDepth 8192 in
theorem opsTokens_fresh : ∀ op ∈ (opsTokens : List (HloOp τ sig (Elt F))), op.fresh = ∅ := by
  intro _ h; (repeat (cases h with | head => rfl | tail _ h => ?_)); exact nomatch h

set_option maxRecDepth 8192 in
theorem opsRoundA_sub : (opsRoundA : List (HloOp τ sig (Elt F))).Forall fun op => op.bufs ⊆ tcRefs τ sig :=
  ⟨binary_bufs_sub .., unary_bufs_sub .., unary_bufs_sub .., unary_bufs_sub .., reshape_bufs_sub .., unary_bufs_sub .., reshape_bufs_sub .., unary_bufs_sub .., reshape_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub ..⟩
set_option maxRecDepth 8192 in
theorem opsRoundA_fresh : ∀ op ∈ (opsRoundA : List (HloOp τ sig (Elt F))), op.fresh = ∅ := by
  intro _ h; (repeat (cases h with | head => rfl | tail _ h => ?_)); exact nomatch h

set_option maxRecDepth 8192 in
theorem opsProjB_sub : (opsProjB : List (HloOp τ sig (Elt F))).Forall fun op => op.bufs ⊆ tcRefs τ sig :=
  binary_bufs_sub ..
set_option maxRecDepth 8192 in
theorem opsProjB_fresh : ∀ op ∈ (opsProjB : List (HloOp τ sig (Elt F))), op.fresh = ∅ := by
  intro _ h; (repeat (cases h with | head => rfl | tail _ h => ?_)); exact nomatch h

set_option maxRecDepth 8192 in
theorem opsRoundB_sub : (opsRoundB : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., unary_bufs_sub .., unary_bufs_sub .., binary_bufs_sub ..⟩
set_option maxRecDepth 8192 in
theorem opsRoundB_fresh : ∀ op ∈ (opsRoundB : List (HloOp τ sig (Elt F))), op.fresh = ∅ := by
  intro _ h; (repeat (cases h with | head => rfl | tail _ h => ?_)); exact nomatch h

set_option maxRecDepth 8192 in
theorem opsRows_sub : (opsRows : List (HloOp τ sig (Elt F))).Forall fun op => op.bufs ⊆ tcRefs τ sig :=
  ⟨unary_bufs_sub .., reshape_bufs_sub .., unary_bufs_sub .., reshape_bufs_sub ..⟩
set_option maxRecDepth 8192 in
theorem opsRows_fresh : ∀ op ∈ (opsRows : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsTokens_sub op h, List.forall_iff_forall_mem.mp opsRoundA_sub op h,
      List.forall_iff_forall_mem.mp opsProjB_sub op h, List.forall_iff_forall_mem.mp opsRoundB_sub op h,
      List.forall_iff_forall_mem.mp opsRows_sub op h]

theorem ops_fresh : ∀ op ∈ (ops : List (HloOp τ sig (Elt F))), op.fresh = ∅ := fun op h => by
  simp only [ops, List.mem_append] at h
  rcases h with h | h | h | h | h
  exacts [opsTokens_fresh op h, opsRoundA_fresh op h, opsProjB_fresh op h, opsRoundB_fresh op h, opsRows_fresh op h]

/-- On every device, from any memory with zero counters: every weakly fair execution of @main terminates, and each
    buffer ends holding the fold of the operations over the device's launch contents. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefRoundDef.lean ====
/-
  One round of the reference, as a function of its five operands.

  The reference computes a round on whole arrays: every pixel's four tokens at once, as an [8, 3136, 4, 256] array.
  It projects the tokens through the weight matrix, cuts the projection into query, key and value columns, lays each
  out head by head as [8, 3136, 8, 4, 32], scores queries against keys, adds the mask, takes shares of
  exp(score − top) row by row, mixes the value rows by those shares, lays the result back out as [8, 3136, 4, 256]
  and sends it through the output matrix plus the bias.  Each step is named here; the steps are exactly the
  reference's operations, in its order, so that the run of the reference is these functions composed.
-/
import proofs.«102808_j38259568673081_2_alg».proof.Proof.Gen.ReferenceIdeal
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The tokens projected through the weight matrix: columns 0–255 the queries, 256–511 the keys, 512–767 the values. -/
def refProj (z : FVec Ideal S8x3136x4x256 .f32) (W : FVec Ideal S768x256 .f32) : FVec Ideal S8x3136x4x768 .f32 :=
  Host.dotGeneral dot_S8x3136x4x256_S768x256_S8x3136x4x768_3_1_012_0_n_n none z W

/-- A block of 256 columns of the projection laid out head by head. -/
def refHeads (x : FVec Ideal S8x3136x4x256 .f32) : FVec Ideal S8x3136x8x4x32 .f32 :=
  transpose S8x3136x8x4x32 [0, 1, 3, 2, 4] (shapeCast S8x3136x4x8x32 x shapeCasts_S8x3136x4x256_S8x3136x4x8x32)
    transposes_S8x3136x4x8x32_S8x3136x8x4x32_0_1_3_2_4

/-- The queries, the keys and the values, head by head. -/
def refQ (P : FVec Ideal S8x3136x4x768 .f32) : FVec Ideal S8x3136x8x4x32 .f32 :=
  refHeads (extractStridedSlice S8x3136x4x256 ![0, 0, 0, 0] P slices_S8x3136x4x768_S8x3136x4x256_0_0_0_0)
def refK (P : FVec Ideal S8x3136x4x768 .f32) : FVec Ideal S8x3136x8x4x32 .f32 :=
  refHeads (extractStridedSlice S8x3136x4x256 ![0, 0, 0, 256] P slices_S8x3136x4x768_S8x3136x4x256_0_0_0_256)
def refV (P : FVec Ideal S8x3136x4x768 .f32) : FVec Ideal S8x3136x8x4x32 .f32 :=
  refHeads (extractStridedSlice S8x3136x4x256 ![0, 0, 0, 512] P slices_S8x3136x4x768_S8x3136x4x256_0_0_0_512)

/-- Query i against key j in every head: the inner product over the head's lanes, scaled, plus the mask entry. -/
def refScores (q k : FVec Ideal S8x3136x8x4x32 .f32) (M : FVec Ideal S4x4 .f32) : FVec Ideal S8x3136x8x4x4 .f32 :=
  addf
    (mulf (Host.dotGeneral dot_S8x3136x8x4x32_S8x3136x8x4x32_S8x3136x8x4x4_4_4_3_3_012_012 none q k)
      (broadcastInDim S8x3136x8x4x4 ![] bcast_S_S8x3136x8x4x4 (constant (F := Ideal) S_ .f32 0x3E3504F3#32)))
    (broadcastInDim S8x3136x8x4x4 ![0, 1, 2, 3, 4] bcast_S1x1x1x4x4_S8x3136x8x4x4_0_1_2_3_4
      (broadcastInDim S1x1x1x4x4 ![3, 4] bcast_S4x4_S1x1x1x4x4_3_4 M))

/-- Each query's largest score, as the reference takes it: the largest over the keys started from the word of −∞, and
    once more against that word. -/
def refTop (s : FVec Ideal S8x3136x8x4x4 .f32) : FVec Ideal S8x3136x8x4 .f32 :=
  maximumf
    (broadcastInDim S8x3136x8x4 ![] bcast_S_S8x3136x8x4 (constant (F := Ideal) S_ .f32 0xFF800000#32))
    (Host.reduce FloatOps.maximumf s (constant (F := Ideal) S_ .f32 0xFF800000#32) reducesTo_S8x3136x8x4x4_S8x3136x8x4_d4 h_S_)

/-- exp(score − top). -/
def refWeights (s : FVec Ideal S8x3136x8x4x4 .f32) : FVec Ideal S8x3136x8x4x4 .f32 :=
  Host.exp (subf s
    (broadcastInDim S8x3136x8x4x4 ![0, 1, 2, 3, 4] bcast_S8x3136x8x4x1_S8x3136x8x4x4_0_1_2_3_4
      (broadcastInDim S8x3136x8x4x1 ![0, 1, 2, 3] bcast_S8x3136x8x4_S8x3136x8x4x1_0_1_2_3 (refTop s))))

/-- Each weight over its row's total. -/
def refShares (w : FVec Ideal S8x3136x8x4x4 .f32) : FVec Ideal S8x3136x8x4x4 .f32 :=
  Host.divf w
    (broadcastInDim S8x3136x8x4x4 ![0, 1, 2, 3, 4] bcast_S8x3136x8x4x1_S8x3136x8x4x4_0_1_2_3_4
      (broadcastInDim S8x3136x8x4x1 ![0, 1, 2, 3] bcast_S8x3136x8x4_S8x3136x8x4x1_0_1_2_3
        (Host.reduceAdd w (constant (F := Ideal) S_ .f32 0x00000000#32) reducesTo_S8x3136x8x4x4_S8x3136x8x4_d4 h_S_)))

/-- The value rows mixed by the shares, laid back out as rows of 256 lanes. -/
def refMix (sh : FVec Ideal S8x3136x8x4x4 .f32) (v : FVec Ideal S8x3136x8x4x32 .f32) : FVec Ideal S8x3136x4x256 .f32 :=
  shapeCast S8x3136x4x256
    (transpose S8x3136x4x8x32 [0, 1, 3, 2, 4] (Host.dotGeneral dot_S8x3136x8x4x4_S8x3136x8x4x32_S8x3136x8x4x32_4_3_3_4_012_012 none sh v)
      transposes_S8x3136x8x4x32_S8x3136x4x8x32_0_1_3_2_4)
    shapeCasts_S8x3136x4x8x32_S8x3136x4x256

/-- The mixed rows through the output matrix, plus the bias. -/
def refOut (mx : FVec Ideal S8x3136x4x256 .f32) (Wo : FVec Ideal S256x256 .f32) (bo : FVec Ideal S256 .f32) :
    FVec Ideal S8x3136x4x256 .f32 :=
  addf (Host.dotGeneral dot_S8x3136x4x256_S256x256_S8x3136x4x256_3_1_012_0_n_n none mx Wo)
    (broadcastInDim S8x3136x4x256 ![0, 1, 2, 3] bcast_S1x1x1x256_S8x3136x4x256_0_1_2_3
      (broadcastInDim S1x1x1x256 ![3] bcast_S256_S1x1x1x256_3 bo))

/-- One round of the reference on every pixel's four tokens. -/
def refRound (z : FVec Ideal S8x3136x4x256 .f32) (W : FVec Ideal S768x256 .f32) (Wo : FVec Ideal S256x256 .f32)
    (bo : FVec Ideal S256 .f32) (M : FVec Ideal S4x4 .f32) : FVec Ideal S8x3136x4x256 .f32 :=
  refOut
    (refMix (refShares (refWeights (refScores (refQ (refProj z W)) (refK (refProj z W)) M))) (refV (refProj z W)))
    Wo bo

/-- A mask table as the reference holds it: entry (i, j) is the table's word at row-major place 4i + j. -/
def refTable (lit : Fin 16 → BitVec 32) : FVec Ideal S4x4 .f32 :=
  fun i => FloatOps.ofBits .f32 (lit (S4x4.rowMajor i))

/-- The row of means over the pixel axis, as the reference computes it. -/
def refMean (x : FVec Ideal S8x3136x256 .f32) : FVec Ideal S8x1x256 .f32 :=
  Host.divf
    (broadcastInDim S8x1x256 ![0, 2] bcast_S8x256_S8x1x256_0_2
      (Host.reduceAdd x (constant (F := Ideal) S_ .f32 0x00000000#32) reducesTo_S8x3136x256_S8x256_d1 h_S_))
    (broadcastInDim S8x1x256 ![] bcast_S_S8x1x256 (constant (F := Ideal) S_ .f32 0x45440000#32))

/-- An [8, 3136, 256] array as one token of every pixel. -/
def refAsToken (x : FVec Ideal S8x3136x256 .f32) : FVec Ideal S8x3136x1x256 .f32 :=
  broadcastInDim S8x3136x1x256 ![0, 1, 3] bcast_S8x3136x256_S8x3136x1x256_0_1_3 x

/-- A mean row repeated at every pixel. -/
def refOverPixels (r : FVec Ideal S8x1x256 .f32) : FVec Ideal S8x3136x256 .f32 :=
  broadcastInDim S8x3136x256 ![0, 1, 2] bcast_S8x1x256_S8x3136x256_0_1_2 r

/-- The four tokens of every pixel side by side: the pixel's row of x, of y, and the two mean rows. -/
def refTokens (x y : FVec Ideal S8x3136x256 .f32) : FVec Ideal S8x3136x4x256 .f32 :=
  concatenate S8x3136x4x256 2
    [⟨S8x3136x1x256, refAsToken x⟩, ⟨S8x3136x1x256, refAsToken y⟩,
     ⟨S8x3136x1x256, refAsToken (refOverPixels (refMean x))⟩, ⟨S8x3136x1x256, refAsToken (refOverPixels (refMean y))⟩]
    concatenates_S8x3136x1x256_S8x3136x1x256_S8x3136x1x256_S8x3136x1x256_S8x3136x4x256_d2

/-- Row `n` (0 or 1) of every pixel's four rows, as an [8, 3136, 256] array. -/
def refRow0 (r : FVec Ideal S8x3136x4x256 .f32) : FVec Ideal S8x3136x256 .f32 :=
  shapeCast S8x3136x256
    (extractStridedSlice S8x3136x1x256 ![0, 0, 0, 0] r slices_S8x3136x4x256_S8x3136x1x256_0_0_0_0)
    shapeCasts_S8x3136x1x256_S8x3136x256
def refRow1 (r : FVec Ideal S8x3136x4x256 .f32) : FVec Ideal S8x3136x256 .f32 :=
  shapeCast S8x3136x256
    (extractStridedSlice S8x3136x1x256 ![0, 0, 1, 0] r slices_S8x3136x4x256_S8x3136x1x256_0_0_1_0)
    shapeCasts_S8x3136x1x256_S8x3136x256

end Cert.ReferenceIdeal.RefValue

end
-- ==== Proof.LibAfterAppend.lean ====
/-
  Host operations run one stretch after another.

  The contents of a device's buffers after a list of host operations is a fold of the operations over the contents
  before.  A fold over a concatenation is the fold over the second list started from the fold over the first: the
  contents after `l₁ ++ l₂` are the contents after `l₂` from the contents after `l₁`.  This lets a long host
  program be read one stretch at a time, with the contents between two stretches carried as one unknown.
-/
import Idealize.ShloMosaic.Lib.StableHlo.Run

noncomputable section

namespace Cert.Lib.AfterAppend

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Three stretches, as a host program cut twice reads them. -/
theorem after_three (l₁ l₂ l₃ : List (HloOp τ sig Val)) (V : Valuation τ sig Val) :
    after (List.flatten [l₁, l₂, l₃]) V = after l₃ (after l₂ (after l₁ V)) := by
  simp only [List.flatten_cons, List.flatten_nil, List.append_nil, after_append]

end Cert.Lib.AfterAppend

end
-- ==== Proof.RefStretch.lean ====
/-
  The reference's five stretches of operations, each read as a function of what the buffers held before it.

  From any contents `V` of the device's buffers: the first stretch leaves the tokens of x and y and the two mask
  tables; a round's stretch leaves the round of the tokens, matrices, bias and table it found; the last stretch leaves
  rows 0 and 1.  A stretch leaves every buffer it does not write as it found it.  Read one after another, the
  stretches give the two results as the second round of the first round of the tokens.
-/
import proofs.«102808_j38259568673081_2_alg».proof.Proof.RefOps
import proofs.«102808_j38259568673081_2_alg».proof.Proof.RefRoundDef
import proofs.«102808_j38259568673081_2_alg».proof.Proof.LibAfterAppend

noncomputable section

namespace Cert.ReferenceIdeal.RefValue

open Cert.ReferenceIdeal Cert.ReferenceIdeal.Gen Idealize.ShloMosaic Idealize.ShloMosaic.TcCoe Idealize.SL.Sem Idealize.ShloMosaic.StableHlo

variable (V : Valuation τ sig (Elt Ideal))

/-! ## The tokens and the tables -/

set_option maxRecDepth 8192 in
theorem tokens_v14 : after (opsTokens (F := Ideal)) V (Proc.devRef .tc main_v14)
    = refTokens (V (Proc.devRef .tc main_arg0)) (V (Proc.devRef .tc main_arg1)) := by
  after_results
  rfl
set_option maxRecDepth 8192 in
theorem tokens_cst : after (opsTokens (F := Ideal)) V (Proc.devRef .tc main_cst) = refTable lit0 := by
  after_results
  rfl
set_option maxRecDepth 8192 in
theorem tokens_cst_0 : after (opsTokens (F := Ideal)) V (Proc.devRef .tc main_cst_0) = refTable lit1 := by
  after_results
  rfl
set_option maxRecDepth 8192 in
theorem tokens_keeps_arg0 : after (opsTokens (F := Ideal)) V (Proc.devRef .tc main_arg0) = V (Proc.devRef .tc main_arg0) := by
  after_results
set_option maxRecDepth 8192 in
theorem tokens_keeps_arg1 : after (opsTokens (F := Ideal)) V (Proc.devRef .tc main_arg1) = V (Proc.devRef .tc main_arg1) := by
  after_results
set_option maxRecDepth 8192 in
theorem tokens_keeps_arg2 : after (opsTokens (F := Ideal)) V (Proc.devRef .tc main_arg2) = V (Proc.devRef .tc main_arg2) := by
  after_results
set_option maxRecDepth 8192 in
theorem tokens_keeps_arg3 : after (opsTokens (F := Ideal)) V (Proc.devRef .tc main_arg3) = V (Proc.devRef .tc main_arg3) := by
  after_results
set_option maxRecDepth 8192 in
theorem tokens_keeps_arg4 : after (opsTokens (F := Ideal)) V (Proc.devRef .tc main_arg4) = V (Proc.devRef .tc main_arg4) := by
  after_results
set_option maxRecDepth 8192 in
theorem tokens_keeps_arg5 : after (opsTokens (F := Ideal)) V (Proc.devRef .tc main_arg5) = V (Proc.devRef .tc main_arg5) := by
  after_results
set_option maxRecDepth 8192 in
theorem tokens_keeps_arg6 : after (opsTokens (F := Ideal)) V (Proc.devRef .tc main_arg6) = V (Proc.devRef .tc main_arg6) := by
  after_results
set_option maxRecDepth 8192 in
theorem tokens_keeps_arg7 : after (opsTokens (F := Ideal)) V (Proc.devRef .tc main_arg7) = V (Proc.devRef .tc main_arg7) := by
  after_results

/-! ## The first round -/

set_option maxRecDepth 8192 in
set_option maxHeartbeats 4000000 in
theorem roundA_v48 : after (opsRoundA (F := Ideal)) V (Proc.devRef .tc main_v48)
    = refRound (V (Proc.devRef .tc main_v14)) (V (Proc.devRef .tc main_arg2)) (V (Proc.devRef .tc main_arg3)) (V (Proc.devRef .tc main_arg4)) (V (Proc.devRef .tc main_cst)) := by
  after_results_simp
  rfl
set_option maxRecDepth 8192 in
set_option maxHeartbeats 4000000 in
theorem roundA_keeps_cst_0 : after (opsRoundA (F := Ideal)) V (Proc.devRef .tc main_cst_0) = V (Proc.devRef .tc main_cst_0) := by
  after_results_simp
set_option maxRecDepth 8192 in
set_option maxHeartbeats 4000000 in
theorem roundA_keeps_arg0 : after (opsRoundA (F := Ideal)) V (Proc.devRef .tc main_arg0) = V (Proc.devRef .tc main_arg0) := by
  after_results_simp
set_option maxRecDepth 8192 in
set_option maxHeartbeats 4000000 in
theorem roundA_keeps_arg1 : after (opsRoundA (F := Ideal)) V (Proc.devRef .tc main_arg1) = V (Proc.devRef .tc main_arg1) := by
  after_results_simp
set_option maxRecDepth 8192 in
set_option maxHeartbeats 4000000 in
theorem roundA_keeps_arg2 : after (opsRoundA (F := Ideal)) V (Proc.devRef .tc main_arg2) = V (Proc.devRef .tc main_arg2) := by
  after_results_simp
set_option maxRecDepth 8192 in
set_option maxHeartbeats 4000000 in
theorem roundA_keeps_arg3 : after (opsRoundA (F := Ideal)) V (Proc.devRef .tc main_arg3) = V (Proc.devRef .tc main_arg3) := by
  after_results_simp
set_option maxRecDepth 8192 in
set_option maxHeartbeats 4000000 in
theorem roundA_keeps_arg4 : after (opsRoundA (F := Ideal)) V (Proc.devRef .tc main_arg4) = V (Proc.devRef .tc main_arg4) := by
  after_results_simp
set_option maxRecDepth 8192 in
set_option maxHeartbeats 4000000 in
theorem roundA_keeps_arg5 : after (opsRoundA (F := Ideal)) V (Proc.devRef .tc main_arg5) = V (Proc.devRef .tc main_arg5) := by
  after_results_simp
set_option maxRecDepth 8192 in
set_option maxHeartbeats 4000000 in
theorem roundA_keeps_arg6 : after (opsRoundA (F := Ideal)) V (Proc.devRef .tc main_arg6) = V (Proc.devRef .tc main_arg6) := by
  after_results_simp
set_option maxRecDepth 8192 in
set_option maxHeartbeats 4000000 in
theorem roundA_keeps_arg7 : after (opsRoundA (F := Ideal)) V (Proc.devRef .tc main_arg7) = V (Proc.devRef .tc main_arg7) := by
  after_results_simp

/-! ## The second round -/

/-- The second round's 38 operations: its projection and the rest. -/
abbrev opsSecond : List (HloOp τ sig (Elt Ideal)) := opsProjB (F := Ideal) ++ opsRoundB (F := Ideal)

set_option maxRecDepth 8192 in
set_option maxHeartbeats 4000000 in
theorem roundB_v82 : after opsSecond V (Proc.devRef .tc main_v82)
    = refRound (V (Proc.devRef .tc main_v48)) (V (Proc.devRef .tc main_arg5)) (V (Proc.devRef .tc main_arg6)) (V (Proc.devRef .tc main_arg7)) (V (Proc.devRef .tc main_cst_0)) := by
  simp only [opsSecond, opsProjB, opsRoundB, List.cons_append, List.nil_append]
  after_results_simp
  rfl
set_option maxRecDepth 8192 in
set_option maxHeartbeats 4000000 in
theorem roundB_keeps_arg0 : after opsSecond V (Proc.devRef .tc main_arg0) = V (Proc.devRef .tc main_arg0) := by
  simp only [opsSecond, opsProjB, opsRoundB, List.cons_append, List.nil_append]
  after_results_simp
set_option maxRecDepth 8192 in
set_option maxHeartbeats 4000000 in
theorem roundB_keeps_arg1 : after opsSecond V (Proc.devRef .tc main_arg1) = V (Proc.devRef .tc main_arg1) := by
  simp only [opsSecond, opsProjB, opsRoundB, List.cons_append, List.nil_append]
  after_results_simp
set_option maxRecDepth 8192 in
set_option maxHeartbeats 4000000 in
theorem roundB_keeps_arg2 : after opsSecond V (Proc.devRef .tc main_arg2) = V (Proc.devRef .tc main_arg2) := by
  simp only [opsSecond, opsProjB, opsRoundB, List.cons_append, List.nil_append]
  after_results_simp
set_option maxRecDepth 8192 in
set_option maxHeartbeats 4000000 in
theorem roundB_keeps_arg3 : after opsSecond V (Proc.devRef .tc main_arg3) = V (Proc.devRef .tc main_arg3) := by
  simp only [opsSecond, opsProjB, opsRoundB, List.cons_append, List.nil_append]
  after_results_simp
set_option maxRecDepth 8192 in
set_option maxHeartbeats 4000000 in
theorem roundB_keeps_arg4 : after opsSecond V (Proc.devRef .tc main_arg4) = V (Proc.devRef .tc main_arg4) := by
  simp only [opsSecond, opsProjB, opsRoundB, List.cons_append, List.nil_append]
  after_results_simp
set_option maxRecDepth 8192 in
set_option maxHeartbeats 4000000 in
theorem roundB_keeps_arg5 : after opsSecond V (Proc.devRef .tc main_arg5) = V (Proc.devRef .tc main_arg5) := by
  simp only [opsSecond, opsProjB, opsRoundB, List.cons_append, List.nil_append]
  after_results_simp
set_option maxRecDepth 8192 in
set_option maxHeartbeats 4000000 in
theorem roundB_keeps_arg6 : after opsSecond V (Proc.devRef .tc main_arg6) = V (Proc.devRef .tc main_arg6) := by
  simp only [opsSecond, opsProjB, opsRoundB, List.cons_append, List.nil_append]
  after_results_simp
set_option maxRecDepth 8192 in
set_option maxHeartbeats 4000000 in
theorem roundB_keeps_arg7 : after opsSecond V (Proc.devRef .tc main_arg7) = V (Proc.devRef .tc main_arg7) := by
  simp only [opsSecond, opsProjB, opsRoundB, List.cons_append, List.nil_append]
  after_results_simp

/-! ## The two result rows -/

theorem rows_v84 : after (opsRows (F := Ideal)) V (Proc.devRef .tc main_v84) = refRow0 (V (Proc.devRef .tc main_v82)) := by
  after_results
  rfl
theorem rows_v86 : after (opsRows (F := Ideal)) V (Proc.devRef .tc main_v86) = refRow1 (V (Proc.devRef .tc main_v82)) := by
  after_results
  rfl
theorem rows_keeps_arg0 : after (opsRows (F := Ideal)) V (Proc.devRef .tc main_arg0) = V (Proc.devRef .tc main_arg0) := by
  after_results
theorem rows_keeps_arg1 : after (opsRows (F := Ideal)) V (Proc.devRef .tc main_arg1) = V (Proc.devRef .tc main_arg1) := by
  after_results
theorem rows_keeps_arg2 : after (opsRows (F := Ideal)) V (Proc.devRef .tc main_arg2) = V (Proc.devRef .tc main_arg2) := by
  after_results
theorem rows_keeps_arg3 : after (opsRows (F := Ideal)) V (Proc.devRef .tc main_arg3) = V (Proc.devRef .tc main_arg3) := by
  after_results
theorem rows_keeps_arg4 : after (opsRows (F := Ideal)) V (Proc.devRef .tc main_arg4) = V (Proc.devRef .tc main_arg4) := by
  after_results
theorem rows_keeps_arg5 : after (opsRows (F := Ideal)) V (Proc.devRef .tc main_arg5) = V (Proc.devRef .tc main_arg5) := by
  after_results
theorem rows_keeps_arg6 : after (opsRows (F := Ideal)) V (Proc.devRef .tc main_arg6) = V (Proc.devRef .tc main_arg6) := by
  after_results
theorem rows_keeps_arg7 : after (opsRows (F := Ideal)) V (Proc.devRef .tc main_arg7) = V (Proc.devRef .tc main_arg7) := by
  after_results

/-! ## The stretches one after another -/

theorem after_ops : after (ops (F := Ideal)) V
    = after (opsRows (F := Ideal)) (after opsSecond (after (opsRoundA (F := Ideal)) (after (opsTokens (F := Ideal)) V))) := by
  have e : (ops (F := Ideal)) = opsTokens (F := Ideal) ++ (opsRoundA (F := Ideal) ++ (opsSecond ++ opsRows (F := Ideal))) := by
    simp only [ops, opsSecond, List.append_assoc]
  rw [e, Cert.Lib.AfterAppend.after_append, Cert.Lib.AfterAppend.after_append, Cert.Lib.AfterAppend.after_append]

/-- What the first round's rows are after the whole run's first two stretches. -/
def refFirst (V : Valuation τ sig (Elt Ideal)) : FVec Ideal S8x3136x4x256 .f32 :=
  refRound (refTokens (V (Proc.devRef .tc main_arg0)) (V (Proc.devRef .tc main_arg1))) (V (Proc.devRef .tc main_arg2)) (V (Proc.devRef .tc main_arg3)) (V (Proc.devRef .tc main_arg4)) (refTable lit0)

/-- The second round's rows after the run. -/
def refSecond (V : Valuation τ sig (Elt Ideal)) : FVec Ideal S8x3136x4x256 .f32 :=
  refRound (refFirst V) (V (Proc.devRef .tc main_arg5)) (V (Proc.devRef .tc main_arg6)) (V (Proc.devRef .tc main_arg7)) (refTable lit1)

theorem ops_v82 : after opsSecond (after (opsRoundA (F := Ideal)) (after (opsTokens (F := Ideal)) V)) (Proc.devRef .tc main_v82)
    = refSecond V := by
  rw [roundB_v82, roundA_v48, tokens_v14, tokens_cst,
    roundA_keeps_arg5, roundA_keeps_arg6, roundA_keeps_arg7, roundA_keeps_cst_0,
    tokens_keeps_arg2, tokens_keeps_arg3, tokens_keeps_arg4, tokens_keeps_arg5, tokens_keeps_arg6, tokens_keeps_arg7, tokens_cst_0]
  rfl

/-- After the run the first result buffer holds row 0 of the second round, the second row 1. -/
theorem ops_v84 : after (ops (F := Ideal)) V (Proc.devRef .tc main_v84) = refRow0 (refSecond V) := by
  rw [after_ops, rows_v84, ops_v82]
theorem ops_v86 : after (ops (F := Ideal)) V (Proc.devRef .tc main_v86) = refRow1 (refSecond V) := by
  rw [after_ops, rows_v86, ops_v82]
theorem ops_keeps_arg0 : after (ops (F := Ideal)) V (Proc.devRef .tc main_arg0) = V (Proc.devRef .tc main_arg0) := by
  rw [after_ops, rows_keeps_arg0, roundB_keeps_arg0, roundA_keeps_arg0, tokens_keeps_arg0]
theorem ops_keeps_arg1 : after (ops (F := Ideal)) V (Proc.devRef .tc main_arg1) = V (Proc.devRef .tc main_arg1) := by
  rw [after_ops, rows_keeps_arg1, roundB_keeps_arg1, roundA_keeps_arg1, tokens_keeps_arg1]
theorem ops_keeps_arg2 : after (ops (F := Ideal)) V (Proc.devRef .tc main_arg2) = V (Proc.devRef .tc main_arg2) := by
  rw [after_ops, rows_keeps_arg2, roundB_keeps_arg2, roundA_keeps_arg2, tokens_keeps_arg2]
theorem ops_keeps_arg3 : after (ops (F := Ideal)) V (Proc.devRef .tc main_arg3) = V (Proc.devRef .tc main_arg3) := by
  rw [after_ops, rows_keeps_arg3, roundB_keeps_arg3, roundA_keeps_arg3, tokens_keeps_arg3]
theorem ops_keeps_arg4 : after (ops (F := Ideal)) V (Proc.devRef .tc main_arg4) = V (Proc.devRef .tc main_arg4) := by
  rw [after_ops, rows_keeps_arg4, roundB_keeps_arg4, roundA_keeps_arg4, tokens_keeps_arg4]
theorem ops_keeps_arg5 : after (ops (F := Ideal)) V (Proc.devRef .tc main_arg5) = V (Proc.devRef .tc main_arg5) := by
  rw [after_ops, rows_keeps_arg5, roundB_keeps_arg5, roundA_keeps_arg5, tokens_keeps_arg5]
theorem ops_keeps_arg6 : after (ops (F := Ideal)) V (Proc.devRef .tc main_arg6) = V (Proc.devRef .tc main_arg6) := by
  rw [after_ops, rows_keeps_arg6, roundB_keeps_arg6, roundA_keeps_arg6, tokens_keeps_arg6]
theorem ops_keeps_arg7 : after (ops (F := Ideal)) V (Proc.devRef .tc main_arg7) = V (Proc.devRef .tc main_arg7) := by
  rw [after_ops, rows_keeps_arg7, roundB_keeps_arg7, roundA_keeps_arg7, tokens_keeps_arg7]

end Cert.ReferenceIdeal.RefValue

end
-- ==== Proof.LibDotEntry.lean ====
/-
  A host `dot_general` with ONE contracted axis, read at one entry of its result at the ideal values, as a plain sum
  over `Fin K` of products of the two operands' entries.

  The operation's own sum runs over the contraction's index type; with one contracted axis that type is a single
  coordinate, and the sum is re-indexed to `Fin K`.  Which entries of the operands meet at contraction position `k`
  is left to the caller, as two families of operand indices and the proof, axis by axis, that they are the
  operation's: on a batch axis an operand's index is the result index's coordinate at the axis's place among the
  batch axes, on a kept axis the result's coordinate at its place after them, on the contracted axis `k`.  The two
  small lemmas on batch axes complete the ones for kept axes and for the contracted axis.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left batch axis the left operand's index is the result index's coordinate at the axis's place among the
    batch axes. -/
theorem lhsIdx_val_of_batch {a : Fin sl.rank} (hb : a ∈ d.lhsBatch) (j : so.Idx) (k : d.contr.Idx) (p : Nat)
    (hp : p < so.rank) (hpe : d.lhsBatch.idxOf a = p) : (d.lhsIdx j k a).val = (j ⟨p, hp⟩).val := by
  subst hpe
  unfold lhsIdx
  rw [dif_pos hb]
  rfl

/-- The same for the right operand. -/
theorem rhsIdx_val_of_batch {a : Fin sr.rank} (hb : a ∈ d.rhsBatch) (j : so.Idx) (k : d.contr.Idx) (p : Nat)
    (hp : p < so.rank) (hpe : d.rhsBatch.idxOf a = p) : (d.rhsIdx j k a).val = (j ⟨p, hp⟩).val := by
  subst hpe
  unfold rhsIdx
  rw [dif_pos hb]
  rfl

/-- On a left axis that is kept (not batch, not contracted) the left operand's index is the result index's coordinate
    at the axis's place after the batch axes. -/
theorem lhsIdx_val_of_kept' {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept' {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- A `dot_general` contracting one axis of extent `K`, at result index `j`: the sum over `k : Fin K` of the left
    operand at `li k` times the right operand at `ri k`, where `li k` and `ri k` are the operation's operand indices at
    any contraction index whose one coordinate is `k`. -/
theorem dotGeneral_single_entry {sl sr so : Shape} {φ₁ φ₂ : FTy} (D : DotDims sl sr so) (K : Nat) {cl : Fin sl.rank}
    (hlc : D.lhsContracting = [cl]) (hK : sl.size cl = K)
    (prec : Option ContractPrecision) (sched : HostSchedule) (l : FVec Ideal sl φ₁) (r : FVec Ideal sr φ₂) (j : so.Idx)
    (li : Fin K → sl.Idx) (ri : Fin K → sr.Idx)
    (hl : ∀ (k : Fin K) (q : D.contr.Idx),
      (q ⟨0, by rw [D.rank_contr, hlc]; exact Nat.one_pos⟩).val = k.val → D.lhsIdx j q = li k)
    (hr : ∀ (k : Fin K) (q : D.contr.Idx),
      (q ⟨0, by rw [D.rank_contr, hlc]; exact Nat.one_pos⟩).val = k.val → D.rhsIdx j q = ri k) :
    FloatOps.dotGeneral D prec sched l r j = ∑ k : Fin K, l (li k) * r (ri k) := by
  have hrk : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h.trans hK
  rw [dotGeneral_apply, ← Equiv.sum_comp (contrEquiv1 D K hrk hs).symm]
  refine Finset.sum_congr rfl fun k _ => ?_
  rw [hl k _ (contrEquiv1_symm_val D K hrk hs k), hr k _ (contrEquiv1_symm_val D K hrk hs k)]

end Idealize.ShloMosaic.Ideal

end
-- ==== Proof.RefEntry.lean ====
/-
  The reference's round, one operation at a time, read at one entry.

  Each step of the round is a whole-array operation; at one entry of its result it reads a few entries of its
  operands.  A projection's entry (pixel, token n, column e) is the sum over the 256 lanes of the token times the
  weight row e.  Laying a 256-lane row out head by head sends lane 32h + t to (head h, place t).  A score's entry
  (pixel, head h, query i, key j) is the sum over the head's 32 lanes, times the scale word, plus the mask's entry
  (i, j); a row's top is the largest of its four scores; the shares divide each weight by its row's total; the mix at
  lane e sums over the four keys in e's head; the output's entry sums over the 256 lanes and adds the bias.
-/
import proofs.«102808_j38259568673081_2_alg».proof.Proof.RefRoundDef
import proofs.«102808_j38259568673081_2_alg».proof.Proof.LibDotEntry
import proofs.«102808_j38259568673081_2_alg».proof.Proof.Spec
import Idealize.ShloMosaic.Lib.Pipeline.Value
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.Attn

/-! ## The projection -/

/-- Token `n` of a pixel against weight row `e`. -/
theorem proj_apply (z : FVec Ideal S8x3136x4x256 .f32) (W : FVec Ideal S768x256 .f32) (b : Fin 8) (p : Fin 3136)
    (n : Fin 4) (e : Fin 768) :
    refProj z W (ix4 b p n e) = ∑ d : Fin 256, z (ix4 b p n d) * W (ix2 e d) := by
  unfold refProj
  refine Ideal.dotGeneral_single_entry dot_S8x3136x4x256_S768x256_S8x3136x4x768_3_1_012_0_n_n 256 (cl := (3 : Fin 4)) rfl rfl none .single z W (ix4 b p n e)
    (fun d => ix4 b p n d) (fun d => ix2 e d) ?_ ?_
  · intro k q hq
    funext a
    refine Fin.ext ?_
    match a with
    | ⟨0, _⟩ => exact dot_S8x3136x4x256_S768x256_S8x3136x4x768_3_1_012_0_n_n.lhsIdx_val_of_kept' (a := (0 : Fin 4)) (by decide) (by decide) _ _ 0 (by decide) rfl
    | ⟨1, _⟩ => exact dot_S8x3136x4x256_S768x256_S8x3136x4x768_3_1_012_0_n_n.lhsIdx_val_of_kept' (a := (1 : Fin 4)) (by decide) (by decide) _ _ 1 (by decide) rfl
    | ⟨2, _⟩ => exact dot_S8x3136x4x256_S768x256_S8x3136x4x768_3_1_012_0_n_n.lhsIdx_val_of_kept' (a := (2 : Fin 4)) (by decide) (by decide) _ _ 2 (by decide) rfl
    | ⟨3, _⟩ => exact (dot_S8x3136x4x256_S768x256_S8x3136x4x768_3_1_012_0_n_n.lhsIdx_val_of_single (cl := (3 : Fin 4)) rfl _ _).trans hq
  · intro k q hq
    funext a
    refine Fin.ext ?_
    match a with
    | ⟨0, _⟩ => exact dot_S8x3136x4x256_S768x256_S8x3136x4x768_3_1_012_0_n_n.rhsIdx_val_of_kept' (a := (0 : Fin 2)) (by decide) (by decide) _ _ 3 (by decide) rfl
    | ⟨1, _⟩ => exact (dot_S8x3136x4x256_S768x256_S8x3136x4x768_3_1_012_0_n_n.rhsIdx_val_of_single (cr := (1 : Fin 2)) rfl _ _).trans hq

/-! ## Rows of 256 lanes head by head -/

/-- Head `h`, place `t` of token `i` is lane 32h + t of its row. -/
theorem heads_apply (x : FVec Ideal S8x3136x4x256 .f32) (b : Fin 8) (p : Fin 3136) (h : Fin 8) (i : Fin 4) (t : Fin 32) :
    refHeads x (ix5 b p h i t) = x (ix4 b p i (lane h t)) := by
  unfold refHeads
  refine (transpose_apply [0, 1, 3, 2, 4] _ _ (ix5 b p h i t) (ix5 b p i h t) ?_).trans ?_
  · intro a
    match a with
    | ⟨0, _⟩ => rfl
    | ⟨1, _⟩ => rfl
    | ⟨2, _⟩ => rfl
    | ⟨3, _⟩ => rfl
    | ⟨4, _⟩ => rfl
  · refine shapeCast_apply x _ (ix5 b p i h t) (ix4 b p i (lane h t)) ?_
    rw [Shape.rowMajor_val_four, Shape.rowMajor_val_five]
    show ((b.val * 3136 + p.val) * 4 + i.val) * 256 + (h.val * 32 + t.val)
      = (((b.val * 3136 + p.val) * 4 + i.val) * 8 + h.val) * 32 + t.val
    omega

/-- The three blocks of columns: a query, key or value entry is the projection's at that block's column. -/
theorem q_apply (P : FVec Ideal S8x3136x4x768 .f32) (b : Fin 8) (p : Fin 3136) (h : Fin 8) (i : Fin 4) (t : Fin 32) :
    refQ P (ix5 b p h i t) = P (ix4 b p i (qCol (lane h t))) := by
  unfold refQ
  rw [heads_apply]
  refine extractStridedSlice_apply _ P _ (ix4 b p i (lane h t)) (ix4 b p i (qCol (lane h t))) ?_
  intro a
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm
theorem k_apply (P : FVec Ideal S8x3136x4x768 .f32) (b : Fin 8) (p : Fin 3136) (h : Fin 8) (i : Fin 4) (t : Fin 32) :
    refK P (ix5 b p h i t) = P (ix4 b p i (kCol (lane h t))) := by
  unfold refK
  rw [heads_apply]
  refine extractStridedSlice_apply _ P _ (ix4 b p i (lane h t)) (ix4 b p i (kCol (lane h t))) ?_
  intro a
  match a with
  | ⟨0, _⟩ => exact (Nat.zero_add _).symm
  | ⟨1, _⟩ => exact (Nat.zero_add _).symm
  | ⟨2, _⟩ => exact (Nat.zero_add _).symm
  | ⟨3, _⟩ => rfl
theorem v_apply (P : FVec Ideal S8x3136x4x768 .f32) (b : Fin 8) (p : Fin 3136) (h : Fin 8) (i : Fin 4) (t : Fin 32) :
    refV P (ix5 b p h i t) = P (ix4 b p i (vCol (lane h t))) := by
  unfold refV
  rw [heads_apply]
  refine extractStridedSlice_apply _ P _ (ix4 b p i (lane h t)) (ix4 b p i (vCol (lane h t))) ?_
  intro a
  match a with
  | ⟨0, _⟩ => exact (Nat.zero_add _).symm
  | ⟨1, _⟩ => exact (Nat.zero_add _).symm
  | ⟨2, _⟩ => exact (Nat.zero_add _).symm
  | ⟨3, _⟩ => rfl

/-! ## Scores -/

/-- Query `i` against key `j` in head `h`. -/
theorem scores_apply (q k : FVec Ideal S8x3136x8x4x32 .f32) (M : FVec Ideal S4x4 .f32) (b : Fin 8) (p : Fin 3136)
    (h : Fin 8) (i j : Fin 4) :
    refScores q k M (ix5 b p h i j)
      = (∑ t : Fin 32, q (ix5 b p h i t) * k (ix5 b p h j t)) * scaleWord + M (ix2 i j) := by
  unfold refScores
  rw [addf_apply, mulf_apply]
  have edot : Host.dotGeneral dot_S8x3136x8x4x32_S8x3136x8x4x32_S8x3136x8x4x4_4_4_3_3_012_012 none q k (ix5 b p h i j) = ∑ t : Fin 32, q (ix5 b p h i t) * k (ix5 b p h j t) := by
    refine Ideal.dotGeneral_single_entry dot_S8x3136x8x4x32_S8x3136x8x4x32_S8x3136x8x4x4_4_4_3_3_012_012 32 (cl := (4 : Fin 5)) rfl rfl none .single q k (ix5 b p h i j)
      (fun t => ix5 b p h i t) (fun t => ix5 b p h j t) ?_ ?_
    · intro t c hc
      funext a
      refine Fin.ext ?_
      match a with
      | ⟨0, _⟩ => exact dot_S8x3136x8x4x32_S8x3136x8x4x32_S8x3136x8x4x4_4_4_3_3_012_012.lhsIdx_val_of_batch (a := (0 : Fin 5)) (by decide) _ _ 0 (by decide) rfl
      | ⟨1, _⟩ => exact dot_S8x3136x8x4x32_S8x3136x8x4x32_S8x3136x8x4x4_4_4_3_3_012_012.lhsIdx_val_of_batch (a := (1 : Fin 5)) (by decide) _ _ 1 (by decide) rfl
      | ⟨2, _⟩ => exact dot_S8x3136x8x4x32_S8x3136x8x4x32_S8x3136x8x4x4_4_4_3_3_012_012.lhsIdx_val_of_batch (a := (2 : Fin 5)) (by decide) _ _ 2 (by decide) rfl
      | ⟨3, _⟩ => exact dot_S8x3136x8x4x32_S8x3136x8x4x32_S8x3136x8x4x4_4_4_3_3_012_012.lhsIdx_val_of_kept' (a := (3 : Fin 5)) (by decide) (by decide) _ _ 3 (by decide) rfl
      | ⟨4, _⟩ => exact (dot_S8x3136x8x4x32_S8x3136x8x4x32_S8x3136x8x4x4_4_4_3_3_012_012.lhsIdx_val_of_single (cl := (4 : Fin 5)) rfl _ _).trans hc
    · intro t c hc
      funext a
      refine Fin.ext ?_
      match a with
      | ⟨0, _⟩ => exact dot_S8x3136x8x4x32_S8x3136x8x4x32_S8x3136x8x4x4_4_4_3_3_012_012.rhsIdx_val_of_batch (a := (0 : Fin 5)) (by decide) _ _ 0 (by decide) rfl
      | ⟨1, _⟩ => exact dot_S8x3136x8x4x32_S8x3136x8x4x32_S8x3136x8x4x4_4_4_3_3_012_012.rhsIdx_val_of_batch (a := (1 : Fin 5)) (by decide) _ _ 1 (by decide) rfl
      | ⟨2, _⟩ => exact dot_S8x3136x8x4x32_S8x3136x8x4x32_S8x3136x8x4x4_4_4_3_3_012_012.rhsIdx_val_of_batch (a := (2 : Fin 5)) (by decide) _ _ 2 (by decide) rfl
      | ⟨3, _⟩ => exact dot_S8x3136x8x4x32_S8x3136x8x4x32_S8x3136x8x4x4_4_4_3_3_012_012.rhsIdx_val_of_kept' (a := (3 : Fin 5)) (by decide) (by decide) _ _ 4 (by decide) rfl
      | ⟨4, _⟩ => exact (dot_S8x3136x8x4x32_S8x3136x8x4x32_S8x3136x8x4x4_4_4_3_3_012_012.rhsIdx_val_of_single (cr := (4 : Fin 5)) rfl _ _).trans hc
  have escale : broadcastInDim S8x3136x8x4x4 ![] bcast_S_S8x3136x8x4x4 (constant (F := Ideal) S_ .f32 0x3E3504F3#32)
      (ix5 b p h i j) = scaleWord := (broadcastInDim_scalar_apply _ _ _).trans rfl
  have emask : broadcastInDim S8x3136x8x4x4 ![0, 1, 2, 3, 4] bcast_S1x1x1x4x4_S8x3136x8x4x4_0_1_2_3_4
      (broadcastInDim S1x1x1x4x4 ![3, 4] bcast_S4x4_S1x1x1x4x4_3_4 M) (ix5 b p h i j) = M (ix2 i j) := by
    refine (broadcastInDim_apply _ _ _ (ix5 b p h i j) (ix5 (0 : Fin 1) (0 : Fin 1) (0 : Fin 1) i j) ?_).trans ?_
    · intro a
      match a with
      | ⟨0, _⟩ => rfl
      | ⟨1, _⟩ => rfl
      | ⟨2, _⟩ => rfl
      | ⟨3, _⟩ => rfl
      | ⟨4, _⟩ => rfl
    · refine broadcastInDim_apply _ _ M _ (ix2 i j) ?_
      intro a
      match a with
      | ⟨0, _⟩ => rfl
      | ⟨1, _⟩ => rfl
  rw [edot, escale, emask]

/-! ## A column of per-row values spread over the row -/

/-- A value per (pixel, head, query) laid along the keys reads that value at every key. -/
theorem col_apply (r : FVec Ideal S8x3136x8x4 .f32) (b : Fin 8) (p : Fin 3136) (h : Fin 8) (i j : Fin 4) :
    broadcastInDim S8x3136x8x4x4 ![0, 1, 2, 3, 4] bcast_S8x3136x8x4x1_S8x3136x8x4x4_0_1_2_3_4
      (broadcastInDim S8x3136x8x4x1 ![0, 1, 2, 3] bcast_S8x3136x8x4_S8x3136x8x4x1_0_1_2_3 r) (ix5 b p h i j)
      = r (ix4 b p h i) := by
  refine (broadcastInDim_apply _ _ _ (ix5 b p h i j) (ix5 b p h i (0 : Fin 1)) ?_).trans ?_
  · intro a
    match a with
    | ⟨0, _⟩ => rfl
    | ⟨1, _⟩ => rfl
    | ⟨2, _⟩ => rfl
    | ⟨3, _⟩ => rfl
    | ⟨4, _⟩ => rfl
  · refine broadcastInDim_apply _ _ r _ (ix4 b p h i) ?_
    intro a
    match a with
    | ⟨0, _⟩ => rfl
    | ⟨1, _⟩ => rfl
    | ⟨2, _⟩ => rfl
    | ⟨3, _⟩ => rfl

/-- The index the reduction over the keys reads at key `j`. -/
theorem lift_keys (hR : S8x3136x8x4x4.Reduces [(4 : Fin 5)] S8x3136x8x4) (b : Fin 8) (p : Fin 3136) (h : Fin 8)
    (i : Fin 4) (j : Fin 4) : hR.lift (ix4 b p h i) j = ix5 b p h i j := by
  funext a
  refine Fin.ext ?_
  match a with
  | ⟨0, _⟩ => rfl
  | ⟨1, _⟩ => rfl
  | ⟨2, _⟩ => rfl
  | ⟨3, _⟩ => rfl
  | ⟨4, _⟩ => rfl

/-! ## The largest score, the weights, the shares -/

theorem keysReduce : S8x3136x8x4x4.Reduces [(4 : Fin 5)] S8x3136x8x4 := by decide

/-- A row's top is the largest of its four scores, from the word of −∞. -/
theorem top_apply (s : FVec Ideal S8x3136x8x4x4 .f32) (b : Fin 8) (p : Fin 3136) (h : Fin 8) (i : Fin 4) :
    refTop s (ix4 b p h i) = (Finset.univ : Finset (Fin 4)).fold max bottomWord (fun j => s (ix5 b p h i j)) := by
  unfold refTop
  rw [maximumf_apply]
  have e1 : broadcastInDim S8x3136x8x4 ![] bcast_S_S8x3136x8x4 (constant (F := Ideal) S_ .f32 0xFF800000#32)
      (ix4 b p h i) = bottomWord := (broadcastInDim_scalar_apply _ _ _).trans rfl
  have e2 : Host.reduce FloatOps.maximumf s (constant (F := Ideal) S_ .f32 0xFF800000#32)
      reducesTo_S8x3136x8x4x4_S8x3136x8x4_d4 h_S_ (ix4 b p h i)
      = (Finset.univ : Finset (Fin 4)).fold max bottomWord (fun j => s (ix5 b p h i j)) := by
    rw [Host.reduce_eq_fold_single FloatOps.maximumf s _ reducesTo_S8x3136x8x4x4_S8x3136x8x4_d4 keysReduce h_S_]
    have hl : (s ∘ keysReduce.lift (ix4 b p h i)) = fun j : Fin 4 => s (ix5 b p h i j) :=
      funext fun j => congrArg s (lift_keys keysReduce b p h i j)
    rw [hl]
    rfl
  rw [e1, e2]
  exact max_eq_right ((Finset.le_fold_max _).mpr (Or.inl le_rfl))

/-- exp(score − top). -/
theorem weights_apply (s : FVec Ideal S8x3136x8x4x4 .f32) (b : Fin 8) (p : Fin 3136) (h : Fin 8) (i j : Fin 4) :
    refWeights s (ix5 b p h i j) = Ideal.exp (s (ix5 b p h i j) - refTop s (ix4 b p h i)) := by
  unfold refWeights
  show Ideal.exp (subf s _ (ix5 b p h i j)) = _
  rw [subf_apply, col_apply]

/-- A weight over its row's total. -/
theorem shares_apply (w : FVec Ideal S8x3136x8x4x4 .f32) (b : Fin 8) (p : Fin 3136) (h : Fin 8) (i j : Fin 4) :
    refShares w (ix5 b p h i j) = Ideal.div (w (ix5 b p h i j)) (∑ j' : Fin 4, w (ix5 b p h i j')) := by
  unfold refShares
  rw [hostDivf_apply, col_apply, hostReduceAdd_apply,
    Ideal.hostReduceAdd_single reducesTo_S8x3136x8x4x4_S8x3136x8x4_d4 keysReduce]
  refine congrArg (Ideal.div (w (ix5 b p h i j))) ?_
  rw [show constant (F := Ideal) S_ .f32 0x00000000#32 (Shape.Idx.first h_S_) = 0 from Ideal.ofBits_zero_f32, zero_add]
  exact Finset.sum_congr rfl fun j' _ => congrArg w (lift_keys keysReduce b p h i j')

/-! ## The mix and the output -/

/-- Lane `e` of query `i`'s mixed row: over the four keys, the share in `e`'s head times the value at `e`'s place. -/
theorem mix_apply (sh : FVec Ideal S8x3136x8x4x4 .f32) (v : FVec Ideal S8x3136x8x4x32 .f32) (b : Fin 8) (p : Fin 3136)
    (i : Fin 4) (e : Fin 256) :
    refMix sh v (ix4 b p i e) = ∑ j : Fin 4, sh (ix5 b p (head e) i j) * v (ix5 b p (head e) j (spot e)) := by
  unfold refMix
  refine (shapeCast_apply _ _ (ix4 b p i e) (ix5 b p i (head e) (spot e)) ?_).trans ?_
  · rw [Shape.rowMajor_val_four, Shape.rowMajor_val_five]
    show (((b.val * 3136 + p.val) * 4 + i.val) * 8 + e.val / 32) * 32 + e.val % 32
      = ((b.val * 3136 + p.val) * 4 + i.val) * 256 + e.val
    omega
  · refine (transpose_apply [0, 1, 3, 2, 4] _ _ (ix5 b p i (head e) (spot e)) (ix5 b p (head e) i (spot e)) ?_).trans ?_
    · intro a
      match a with
      | ⟨0, _⟩ => rfl
      | ⟨1, _⟩ => rfl
      | ⟨2, _⟩ => rfl
      | ⟨3, _⟩ => rfl
      | ⟨4, _⟩ => rfl
    · refine Ideal.dotGeneral_single_entry dot_S8x3136x8x4x4_S8x3136x8x4x32_S8x3136x8x4x32_4_3_3_4_012_012 4 (cl := (4 : Fin 5)) rfl rfl none .single sh v
        (ix5 b p (head e) i (spot e)) (fun j => ix5 b p (head e) i j) (fun j => ix5 b p (head e) j (spot e)) ?_ ?_
      · intro j c hc
        funext a
        refine Fin.ext ?_
        match a with
        | ⟨0, _⟩ => exact dot_S8x3136x8x4x4_S8x3136x8x4x32_S8x3136x8x4x32_4_3_3_4_012_012.lhsIdx_val_of_batch (a := (0 : Fin 5)) (by decide) _ _ 0 (by decide) rfl
        | ⟨1, _⟩ => exact dot_S8x3136x8x4x4_S8x3136x8x4x32_S8x3136x8x4x32_4_3_3_4_012_012.lhsIdx_val_of_batch (a := (1 : Fin 5)) (by decide) _ _ 1 (by decide) rfl
        | ⟨2, _⟩ => exact dot_S8x3136x8x4x4_S8x3136x8x4x32_S8x3136x8x4x32_4_3_3_4_012_012.lhsIdx_val_of_batch (a := (2 : Fin 5)) (by decide) _ _ 2 (by decide) rfl
        | ⟨3, _⟩ => exact dot_S8x3136x8x4x4_S8x3136x8x4x32_S8x3136x8x4x32_4_3_3_4_012_012.lhsIdx_val_of_kept' (a := (3 : Fin 5)) (by decide) (by decide) _ _ 3 (by decide) rfl
        | ⟨4, _⟩ => exact (dot_S8x3136x8x4x4_S8x3136x8x4x32_S8x3136x8x4x32_4_3_3_4_012_012.lhsIdx_val_of_single (cl := (4 : Fin 5)) rfl _ _).trans hc
      · intro j c hc
        funext a
        refine Fin.ext ?_
        match a with
        | ⟨0, _⟩ => exact dot_S8x3136x8x4x4_S8x3136x8x4x32_S8x3136x8x4x32_4_3_3_4_012_012.rhsIdx_val_of_batch (a := (0 : Fin 5)) (by decide) _ _ 0 (by decide) rfl
        | ⟨1, _⟩ => exact dot_S8x3136x8x4x4_S8x3136x8x4x32_S8x3136x8x4x32_4_3_3_4_012_012.rhsIdx_val_of_batch (a := (1 : Fin 5)) (by decide) _ _ 1 (by decide) rfl
        | ⟨2, _⟩ => exact dot_S8x3136x8x4x4_S8x3136x8x4x32_S8x3136x8x4x32_4_3_3_4_012_012.rhsIdx_val_of_batch (a := (2 : Fin 5)) (by decide) _ _ 2 (by decide) rfl
        | ⟨3, _⟩ => exact (dot_S8x3136x8x4x4_S8x3136x8x4x32_S8x3136x8x4x32_4_3_3_4_012_012.rhsIdx_val_of_single (cr := (3 : Fin 5)) rfl _ _).trans hc
        | ⟨4, _⟩ => exact dot_S8x3136x8x4x4_S8x3136x8x4x32_S8x3136x8x4x32_4_3_3_4_012_012.rhsIdx_val_of_kept' (a := (4 : Fin 5)) (by decide) (by decide) _ _ 4 (by decide) rfl

/-- Entry `d` of row `i` of the round: the mixed row against output row `d`, plus the bias. -/
theorem out_apply (mx : FVec Ideal S8x3136x4x256 .f32) (Wo : FVec Ideal S256x256 .f32) (bo : FVec Ideal S256 .f32)
    (b : Fin 8) (p : Fin 3136) (i : Fin 4) (d : Fin 256) :
    refOut mx Wo bo (ix4 b p i d) = (∑ e : Fin 256, mx (ix4 b p i e) * Wo (ix2 d e)) + bo (ix1 d) := by
  unfold refOut
  rw [addf_apply]
  have edot : Host.dotGeneral dot_S8x3136x4x256_S256x256_S8x3136x4x256_3_1_012_0_n_n none mx Wo (ix4 b p i d) = ∑ e : Fin 256, mx (ix4 b p i e) * Wo (ix2 d e) := by
    refine Ideal.dotGeneral_single_entry dot_S8x3136x4x256_S256x256_S8x3136x4x256_3_1_012_0_n_n 256 (cl := (3 : Fin 4)) rfl rfl none .single mx Wo (ix4 b p i d)
      (fun e => ix4 b p i e) (fun e => ix2 d e) ?_ ?_
    · intro k q hq
      funext a
      refine Fin.ext ?_
      match a with
      | ⟨0, _⟩ => exact dot_S8x3136x4x256_S256x256_S8x3136x4x256_3_1_012_0_n_n.lhsIdx_val_of_kept' (a := (0 : Fin 4)) (by decide) (by decide) _ _ 0 (by decide) rfl
      | ⟨1, _⟩ => exact dot_S8x3136x4x256_S256x256_S8x3136x4x256_3_1_012_0_n_n.lhsIdx_val_of_kept' (a := (1 : Fin 4)) (by decide) (by decide) _ _ 1 (by decide) rfl
      | ⟨2, _⟩ => exact dot_S8x3136x4x256_S256x256_S8x3136x4x256_3_1_012_0_n_n.lhsIdx_val_of_kept' (a := (2 : Fin 4)) (by decide) (by decide) _ _ 2 (by decide) rfl
      | ⟨3, _⟩ => exact (dot_S8x3136x4x256_S256x256_S8x3136x4x256_3_1_012_0_n_n.lhsIdx_val_of_single (cl := (3 : Fin 4)) rfl _ _).trans hq
    · intro k q hq
      funext a
      refine Fin.ext ?_
      match a with
      | ⟨0, _⟩ => exact dot_S8x3136x4x256_S256x256_S8x3136x4x256_3_1_012_0_n_n.rhsIdx_val_of_kept' (a := (0 : Fin 2)) (by decide) (by decide) _ _ 3 (by decide) rfl
      | ⟨1, _⟩ => exact (dot_S8x3136x4x256_S256x256_S8x3136x4x256_3_1_012_0_n_n.rhsIdx_val_of_single (cr := (1 : Fin 2)) rfl _ _).trans hq
  have ebias : broadcastInDim S8x3136x4x256 ![0, 1, 2, 3] bcast_S1x1x1x256_S8x3136x4x256_0_1_2_3
      (broadcastInDim S1x1x1x256 ![3] bcast_S256_S1x1x1x256_3 bo) (ix4 b p i d) = bo (ix1 d) := by
    refine (broadcastInDim_apply _ _ _ (ix4 b p i d) (ix4 (0 : Fin 1) (0 : Fin 1) (0 : Fin 1) d) ?_).trans ?_
    · intro a
      match a with
      | ⟨0, _⟩ => rfl
      | ⟨1, _⟩ => rfl
      | ⟨2, _⟩ => rfl
      | ⟨3, _⟩ => rfl
    · refine broadcastInDim_apply _ _ bo _ (ix1 d) ?_
      intro a
      match a with
      | ⟨0, _⟩ => rfl
  rw [edot, ebias]

end Cert.ReferenceIdeal.RefValue

end
-- ==== Proof.RefRoundAt.lean ====
/-
  The reference's round is the specification's round, pixel by pixel.

  At a pixel (b, p) the reference's whole-array round, read at token `n` and entry `d`, is the specification's round of
  the pixel's four tokens with the same weight matrix, output matrix, bias and mask table.  The proof climbs the
  round's steps: projections, scores, tops, weights, shares, mixed rows, output.
-/
import proofs.«102808_j38259568673081_2_alg».proof.Proof.RefEntry

noncomputable section

open scoped BigOperators

namespace Cert.ReferenceIdeal.RefValue

open Cert.ReferenceIdeal Cert.ReferenceIdeal.Gen Idealize.ShloMosaic Idealize.ShloMosaic.ValueIdx Cert.Attn

section At

variable (z : FVec Ideal S8x3136x4x256 .f32) (W : FVec Ideal S768x256 .f32) (Wo : FVec Ideal S256x256 .f32)
  (bo : FVec Ideal S256 .f32) (M : FVec Ideal S4x4 .f32) (b : Fin 8) (p : Fin 3136)

/-- The weight matrix, the output matrix, the bias and the mask table as functions of coordinates, and the pixel's
    four tokens. -/
abbrev wAt : Fin 768 → Fin 256 → EReal := fun e d => W (ix2 e d)
abbrev woAt : Fin 256 → Fin 256 → EReal := fun d e => Wo (ix2 d e)
abbrev boAt : Fin 256 → EReal := fun d => bo (ix1 d)
abbrev mAt : Fin 4 → Fin 4 → EReal := fun i j => M (ix2 i j)
abbrev zAt : Fin 4 → Fin 256 → EReal := fun n d => z (ix4 b p n d)

theorem proj_at (n : Fin 4) (e : Fin 768) : refProj z W (ix4 b p n e) = proj (wAt W) (zAt z b p) n e := by
  rw [proj_apply]
  rfl

theorem score_at (h : Fin 8) (i j : Fin 4) :
    refScores (refQ (refProj z W)) (refK (refProj z W)) M (ix5 b p h i j) = score (wAt W) (mAt M) (zAt z b p) i j h := by
  rw [scores_apply]
  simp only [q_apply, k_apply, proj_at]
  rfl

theorem top_at (h : Fin 8) (i : Fin 4) :
    refTop (refScores (refQ (refProj z W)) (refK (refProj z W)) M) (ix4 b p h i) = top (wAt W) (mAt M) (zAt z b p) i h := by
  rw [top_apply]
  simp only [score_at]
  rfl

theorem weight_at (h : Fin 8) (i j : Fin 4) :
    refWeights (refScores (refQ (refProj z W)) (refK (refProj z W)) M) (ix5 b p h i j)
      = weight (wAt W) (mAt M) (zAt z b p) i j h := by
  rw [weights_apply, score_at, top_at]
  rfl

theorem share_at (h : Fin 8) (i j : Fin 4) :
    refShares (refWeights (refScores (refQ (refProj z W)) (refK (refProj z W)) M)) (ix5 b p h i j)
      = share (wAt W) (mAt M) (zAt z b p) i j h := by
  rw [shares_apply]
  simp only [weight_at]
  rfl

theorem mixed_at (i : Fin 4) (e : Fin 256) :
    refMix (refShares (refWeights (refScores (refQ (refProj z W)) (refK (refProj z W)) M))) (refV (refProj z W))
        (ix4 b p i e)
      = mixed (wAt W) (mAt M) (zAt z b p) i e := by
  rw [mix_apply]
  simp only [share_at, v_apply, lane_head_spot, proj_at]
  rfl

/-- The reference's round at pixel (b, p), token `n`, entry `d`. -/
theorem round_at (n : Fin 4) (d : Fin 256) :
    refRound z W Wo bo M (ix4 b p n d)
      = Cert.Attn.round (wAt W) (woAt Wo) (boAt bo) (mAt M) (zAt z b p) n d := by
  unfold refRound
  rw [out_apply]
  simp only [mixed_at]
  rfl

end At

end Cert.ReferenceIdeal.RefValue

end
-- ==== Proof.RefTokens.lean ====
/-
  The reference's tokens, mask tables and result rows, entry by entry.

  The reference lays a pixel's four tokens side by side along a new axis: at (pixel, token n, lane d) the array holds
  x's, y's or a mean row's entry according to n.  A mask table's entry (i, j) is its word at row-major place 4i + j.
  The two results are rows 0 and 1 of the second round's four rows.
-/
import proofs.«102808_j38259568673081_2_alg».proof.Proof.RefRoundDef
import proofs.«102808_j38259568673081_2_alg».proof.Proof.Spec
import Idealize.ShloMosaic.Lib.Pipeline.Value
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.Attn

/-! ## The tokens -/

/-- An array seen as one token of every pixel reads the array. -/
theorem asToken_apply (x : FVec Ideal S8x3136x256 .f32) (b : Fin 8) (p : Fin 3136) (d : Fin 256) :
    refAsToken x (ix4 b p (0 : Fin 1) d) = x (ix3 b p d) := by
  unfold refAsToken
  refine broadcastInDim_apply _ _ x _ (ix3 b p d) ?_
  intro a
  match a with
  | ⟨0, _⟩ => rfl
  | ⟨1, _⟩ => rfl
  | ⟨2, _⟩ => rfl

/-- A mean row repeated over the pixels reads the mean row. -/
theorem overPixels_apply (r : FVec Ideal S8x1x256 .f32) (b : Fin 8) (p : Fin 3136) (d : Fin 256) :
    refOverPixels r (ix3 b p d) = r (ix3 b (0 : Fin 1) d) := by
  unfold refOverPixels
  refine broadcastInDim_apply _ _ r _ (ix3 b (0 : Fin 1) d) ?_
  intro a
  match a with
  | ⟨0, _⟩ => rfl
  | ⟨1, _⟩ => rfl
  | ⟨2, _⟩ => rfl

/-- The reference's mean row is the specification's. -/
theorem mean_eq (x : FVec Ideal S8x3136x256 .f32) :
    refMean x = Cert.Attn.meanRow x reducesTo_S8x3136x256_S8x256_d1 h_S_ bcast_S8x256_S8x1x256_0_2 bcast_S_S8x1x256 := rfl

/-- Token `n` of pixel (b, p) is piece `n` of the four laid side by side. -/
theorem tokens_piece (u : Fin 4 → FVec Ideal S8x3136x1x256 .f32) (b : Fin 8) (p : Fin 3136) (n : Fin 4) (d : Fin 256) :
    concatenate S8x3136x4x256 2 [⟨S8x3136x1x256, u 0⟩, ⟨S8x3136x1x256, u 1⟩, ⟨S8x3136x1x256, u 2⟩, ⟨S8x3136x1x256, u 3⟩]
        concatenates_S8x3136x1x256_S8x3136x1x256_S8x3136x1x256_S8x3136x1x256_S8x3136x4x256_d2 (ix4 b p n d)
      = u n (ix4 b p (0 : Fin 1) d) := by
  have hi : ∀ a : Fin 4, a.cast rfl ≠ (2 : Fin 4) →
      ((ix4 b p (0 : Fin 1) d : S8x3136x1x256.Idx) a).val = ((ix4 b p n d : S8x3136x4x256.Idx) (a.cast rfl)).val := fun a ha =>
    match a, ha with
    | ⟨0, _⟩, _ => rfl
    | ⟨1, _⟩, _ => rfl
    | ⟨2, _⟩, ha => absurd rfl ha
    | ⟨3, _⟩, _ => rfl
  fin_cases n
  · exact concatenate_apply_piece (t := S8x3136x4x256) 2 [⟨S8x3136x1x256, u 0⟩, ⟨S8x3136x1x256, u 1⟩, ⟨S8x3136x1x256, u 2⟩, ⟨S8x3136x1x256, u 3⟩] _ _ 0 (by simp) S8x3136x1x256 (u 0) rfl rfl 0 rfl _ hi rfl
  · exact concatenate_apply_piece (t := S8x3136x4x256) 2 [⟨S8x3136x1x256, u 0⟩, ⟨S8x3136x1x256, u 1⟩, ⟨S8x3136x1x256, u 2⟩, ⟨S8x3136x1x256, u 3⟩] _ _ 1 (by simp) S8x3136x1x256 (u 1) rfl rfl 1 (by simp) _ hi rfl
  · exact concatenate_apply_piece (t := S8x3136x4x256) 2 [⟨S8x3136x1x256, u 0⟩, ⟨S8x3136x1x256, u 1⟩, ⟨S8x3136x1x256, u 2⟩, ⟨S8x3136x1x256, u 3⟩] _ _ 2 (by simp) S8x3136x1x256 (u 2) rfl rfl 2 (by simp) _ hi rfl
  · exact concatenate_apply_piece (t := S8x3136x4x256) 2 [⟨S8x3136x1x256, u 0⟩, ⟨S8x3136x1x256, u 1⟩, ⟨S8x3136x1x256, u 2⟩, ⟨S8x3136x1x256, u 3⟩] _ _ 3 (by simp) S8x3136x1x256 (u 3) rfl rfl 3 (by simp) _ hi rfl

/-- The reference's tokens at pixel (b, p) are the specification's. -/
theorem tokens_at (x y : FVec Ideal S8x3136x256 .f32) (b : Fin 8) (p : Fin 3136) :
    (fun (n : Fin 4) (d : Fin 256) => refTokens x y (ix4 b p n d))
      = Cert.Attn.tokens x y (refMean x) (refMean y) b p := by
  funext n d
  unfold refTokens
  refine (tokens_piece ![refAsToken x, refAsToken y, refAsToken (refOverPixels (refMean x)), refAsToken (refOverPixels (refMean y))] b p n d).trans ?_
  fin_cases n
  · exact asToken_apply x b p d
  · exact asToken_apply y b p d
  · exact (asToken_apply (refOverPixels (refMean x)) b p d).trans (overPixels_apply (refMean x) b p d)
  · exact (asToken_apply (refOverPixels (refMean y)) b p d).trans (overPixels_apply (refMean y) b p d)

/-! ## The mask tables -/

theorem lit0_eq : lit0 = tableA := by
  funext k
  fin_cases k <;> rfl
theorem lit1_eq : lit1 = tableB := by
  funext k
  fin_cases k <;> rfl

/-- Row-major place of (i, j) in a 4 × 4 table. -/
theorem place_eq (i j : Fin 4) : S4x4.rowMajor (ix2 i j) = cell i j :=
  Fin.ext (by rw [Shape.rowMajor_val_two]; rfl)

theorem tableA_at : (fun i j : Fin 4 => refTable lit0 (ix2 i j)) = maskA := by
  funext i j
  unfold refTable maskA
  rw [place_eq, lit0_eq]
  rfl
theorem tableB_at : (fun i j : Fin 4 => refTable lit1 (ix2 i j)) = maskB := by
  funext i j
  unfold refTable maskB
  rw [place_eq, lit1_eq]
  rfl

/-! ## The result rows -/

theorem row0_apply (r : FVec Ideal S8x3136x4x256 .f32) (b : Fin 8) (p : Fin 3136) (d : Fin 256) :
    refRow0 r (ix3 b p d) = r (ix4 b p (0 : Fin 4) d) := by
  unfold refRow0
  refine (shapeCast_apply _ _ (ix3 b p d) (ix4 b p (0 : Fin 1) d) ?_).trans ?_
  · rw [Shape.rowMajor_val_four, Shape.rowMajor_val_three]
    show ((b.val * 3136 + p.val) * 1 + 0) * 256 + d.val = (b.val * 3136 + p.val) * 256 + d.val
    omega
  · refine extractStridedSlice_apply _ r _ (ix4 b p (0 : Fin 1) d) (ix4 b p (0 : Fin 4) d) ?_
    intro a
    match a with
    | ⟨0, _⟩ => exact (Nat.zero_add _).symm
    | ⟨1, _⟩ => exact (Nat.zero_add _).symm
    | ⟨2, _⟩ => rfl
    | ⟨3, _⟩ => exact (Nat.zero_add _).symm

theorem row1_apply (r : FVec Ideal S8x3136x4x256 .f32) (b : Fin 8) (p : Fin 3136) (d : Fin 256) :
    refRow1 r (ix3 b p d) = r (ix4 b p (1 : Fin 4) d) := by
  unfold refRow1
  refine (shapeCast_apply _ _ (ix3 b p d) (ix4 b p (0 : Fin 1) d) ?_).trans ?_
  · rw [Shape.rowMajor_val_four, Shape.rowMajor_val_three]
    show ((b.val * 3136 + p.val) * 1 + 0) * 256 + d.val = (b.val * 3136 + p.val) * 256 + d.val
    omega
  · refine extractStridedSlice_apply _ r _ (ix4 b p (0 : Fin 1) d) (ix4 b p (1 : Fin 4) d) ?_
    intro a
    match a with
    | ⟨0, _⟩ => exact (Nat.zero_add _).symm
    | ⟨1, _⟩ => exact (Nat.zero_add _).symm
    | ⟨2, _⟩ => rfl
    | ⟨3, _⟩ => exact (Nat.zero_add _).symm

end Cert.ReferenceIdeal.RefValue

end
-- ==== Proof.RefRun.lean ====
/-
  The reference's run, read back as the specification.

  Every weakly fair execution of the reference terminates; its two result buffers then hold rows 0 and 1 of the
  second round of masked attention on the first round's rows, pixel by pixel, as the specification states them of the
  launch contents of the eight arguments; and the arguments are unchanged.
-/
import proofs.«102808_j38259568673081_2_alg».proof.Proof.RefStretch
import proofs.«102808_j38259568673081_2_alg».proof.Proof.RefRoundAt
import proofs.«102808_j38259568673081_2_alg».proof.Proof.RefTokens

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- What the result depends on, read off a device's buffer contents: the two inputs, their mean rows, the two rounds'
    matrices and biases. -/
def dataOf (V : Valuation τ sig (Elt Ideal)) : Cert.Attn.Data :=
  { x := V (Proc.devRef .tc main_arg0), y := V (Proc.devRef .tc main_arg1),
    mx := Cert.Attn.meanRow (V (Proc.devRef .tc main_arg0)) reducesTo_S8x3136x256_S8x256_d1 h_S_ bcast_S8x256_S8x1x256_0_2 bcast_S_S8x1x256,
    my := Cert.Attn.meanRow (V (Proc.devRef .tc main_arg1)) reducesTo_S8x3136x256_S8x256_d1 h_S_ bcast_S8x256_S8x1x256_0_2 bcast_S_S8x1x256,
    w0 := V (Proc.devRef .tc main_arg2), o0 := V (Proc.devRef .tc main_arg3), b0 := V (Proc.devRef .tc main_arg4),
    w1 := V (Proc.devRef .tc main_arg5), o1 := V (Proc.devRef .tc main_arg6), b1 := V (Proc.devRef .tc main_arg7) }

/-- The same off the launch memory of device `c`. -/
def data (m' : (ℓ : Loc nD τ sig) → Buf (Elt Ideal) ℓ) (c : Dev nD) : Cert.Attn.Data :=
  { x := m' ((c.tc : Thread nD τ).loc main_arg0), y := m' ((c.tc : Thread nD τ).loc main_arg1),
    mx := Cert.Attn.meanRow (m' ((c.tc : Thread nD τ).loc main_arg0)) reducesTo_S8x3136x256_S8x256_d1 h_S_ bcast_S8x256_S8x1x256_0_2 bcast_S_S8x1x256,
    my := Cert.Attn.meanRow (m' ((c.tc : Thread nD τ).loc main_arg1)) reducesTo_S8x3136x256_S8x256_d1 h_S_ bcast_S8x256_S8x1x256_0_2 bcast_S_S8x1x256,
    w0 := m' ((c.tc : Thread nD τ).loc main_arg2), o0 := m' ((c.tc : Thread nD τ).loc main_arg3), b0 := m' ((c.tc : Thread nD τ).loc main_arg4),
    w1 := m' ((c.tc : Thread nD τ).loc main_arg5), o1 := m' ((c.tc : Thread nD τ).loc main_arg6), b1 := m' ((c.tc : Thread nD τ).loc main_arg7) }

theorem dataOf_launch (m' : (ℓ : Loc nD τ sig) → Buf (Elt Ideal) ℓ) (c : Dev nD) :
    dataOf (launchContents m' c) = data m' c := rfl

variable (V : Valuation τ sig (Elt Ideal))

/-- The first round's rows at a pixel. -/
theorem first_at (b : Fin 8) (p : Fin 3136) :
    (fun (n : Fin 4) (d : Fin 256) => refFirst V (ix4 b p n d)) = Cert.Attn.first (dataOf V) b p := by
  funext n d
  unfold refFirst
  rw [round_at]
  unfold Cert.Attn.first
  rw [show mAt (refTable lit0) = Cert.Attn.maskA from tableA_at,
    show zAt (refTokens (V (Proc.devRef .tc main_arg0)) (V (Proc.devRef .tc main_arg1))) b p
      = Cert.Attn.tokens (V (Proc.devRef .tc main_arg0)) (V (Proc.devRef .tc main_arg1)) (refMean (V (Proc.devRef .tc main_arg0))) (refMean (V (Proc.devRef .tc main_arg1))) b p
      from tokens_at _ _ b p]
  rfl

/-- The second round's rows at a pixel. -/
theorem second_at (b : Fin 8) (p : Fin 3136) (n : Fin 4) (d : Fin 256) :
    refSecond V (ix4 b p n d) = Cert.Attn.second (dataOf V) b p n d := by
  unfold refSecond
  rw [round_at]
  unfold Cert.Attn.second
  rw [show mAt (refTable lit1) = Cert.Attn.maskB from tableB_at,
    show zAt (refFirst V) b p = Cert.Attn.first (dataOf V) b p from first_at V b p]
  rfl

/-- Rows 0 and 1 of the second round are the specification's two results. -/
theorem result0_eq : refRow0 (refSecond V) = Cert.Attn.result (dataOf V) 0 := by
  funext j
  obtain ⟨b, p, d, rfl⟩ : ∃ (b : Fin 8) (p : Fin 3136) (d : Fin 256), j = ix3 b p d := ⟨j 0, j 1, j 2, eq_ix3 j⟩
  rw [row0_apply, second_at]
  rfl
theorem result1_eq : refRow1 (refSecond V) = Cert.Attn.result (dataOf V) 1 := by
  funext j
  obtain ⟨b, p, d, rfl⟩ : ∃ (b : Fin 8) (p : Fin 3136) (d : Fin 256), j = ix3 b p d := ⟨j 0, j 1, j 2, eq_ix3 j⟩
  rw [row1_apply, second_at]
  rfl

/-- On every device, from any memory with zero counters: every weakly fair execution of the reference terminates with
    its two results the specification's of the launch contents, and its arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v84) = Cert.Attn.result (data m' c) 0
      ∧ r.2.mem ((c.tc : Thread nD τ).loc main_v86) = Cert.Attn.result (data m' c) 1
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  (θ_run defs _ _).mono (fun _ h c =>
      ⟨(h c main_v84).trans ((ops_v84 (launchContents m' c)).trans (result0_eq (launchContents m' c))),
       (h c main_v86).trans ((ops_v86 (launchContents m' c)).trans (result1_eq (launchContents m' c))),
       (h c main_arg0).trans (ops_keeps_arg0 (launchContents m' c)),
       (h c main_arg1).trans (ops_keeps_arg1 (launchContents m' c)),
       (h c main_arg2).trans (ops_keeps_arg2 (launchContents m' c)),
       (h c main_arg3).trans (ops_keeps_arg3 (launchContents m' c)),
       (h c main_arg4).trans (ops_keeps_arg4 (launchContents m' c)),
       (h c main_arg5).trans (ops_keeps_arg5 (launchContents m' c)),
       (h c main_arg6).trans (ops_keeps_arg6 (launchContents m' c)),
       (h c main_arg7).trans (ops_keeps_arg7 (launchContents m' c))⟩)
    (run_fold m' ρ')

end Cert.ReferenceIdeal.RefValue

end
-- ==== Proof.lean ====
/-
  Two rounds of masked attention among four tokens per pixel: the kernel against its reference.

  The inputs are two arrays x, y of shape [8, 3136, 256] (batch, pixel, lane) and, for each of two rounds, a
  768 × 256 projection matrix, a 256 × 256 output matrix and a bias of 256 entries.  At every pixel the four tokens are
  the pixel's row of x, its row of y, and the batch's two rows of means over the pixel axis; a round projects the four
  tokens to queries, keys and values, scores query against key head by head (8 heads of 32 lanes, a fixed scale word, a
  4 × 4 table of masks 0 and −100), turns each query's four scores into shares by exp(score − largest) over the sum of
  those, mixes the values by the shares, and applies the output matrix and bias.  The result is the second round's
  rows 0 and 1, the second round being run on the first round's four rows.

  The kernel works on stretches of 448 pixels of one batch: it stacks the four tokens' blocks into one tall matrix of
  1792 rows, takes both projections and both output layers as whole-block matrix products into a zero accumulator
  (operands rounded to bf16, which changes nothing on the extended reals), and runs each query as lane sums, a
  maximum and a sum over the leading axis; in the second round it runs only the two queries whose rows are kept.  The
  reference keeps the tokens as a [8, 3136, 4, 256] array and runs each round as contractions with batch axes, a
  maximum and a sum over the trailing axis, and a transposition between token-major and head-major layouts.

  Over the extended reals both are one function of the arguments: the same finite sums over the same index sets (a
  reduction's zero start is absorbed, the largest score is the same fold of max from −∞, the reference's extra maximum
  with −∞ changes nothing), the same scale and mask words, the same exponential and quotient.  No finiteness of the
  inputs is used.  The mean rows are the same host expression in both programs and are carried unopened.

  * the specification: `Cert.Attn` (one round as a function of a pixel's four tokens; the result as a whole array);
  * the kernel body's outcome in one block against the specification: `Cert.KernelIdeal.BlockValue`, over the five steps
    of a query, the projections read at an entry, and the two rounds;
  * the kernel's run, from the blocks to the two whole result arrays: `Cert.KernelIdeal.KValue.run`;
  * the reference's run read back as the specification: `Cert.ReferenceIdeal.RefValue.run`.
  The kernel's two frames are the generated ones; the reference's frame is its run with the results dropped; the
  idealization rewrote no operation, so there is nothing to preserve.
-/
import proofs.«102808_j38259568673081_2_alg».proof.Defs
import proofs.«102808_j38259568673081_2_alg».proof.Proof.Gen.Kernel
import proofs.«102808_j38259568673081_2_alg».proof.Proof.Gen.Kernel.Skeleton
import proofs.«102808_j38259568673081_2_alg».proof.Proof.Gen.Kernel.Launch
import proofs.«102808_j38259568673081_2_alg».proof.Proof.Gen.Kernel.Points
import proofs.«102808_j38259568673081_2_alg».proof.Proof.Gen.Kernel.Frame
import proofs.«102808_j38259568673081_2_alg».proof.Proof.Gen.KernelIdeal
import proofs.«102808_j38259568673081_2_alg».proof.Proof.Gen.KernelIdeal.Skeleton
import proofs.«102808_j38259568673081_2_alg».proof.Proof.Gen.KernelIdeal.Launch
import proofs.«102808_j38259568673081_2_alg».proof.Proof.Gen.KernelIdeal.Points
import proofs.«102808_j38259568673081_2_alg».proof.Proof.Gen.KernelIdeal.Frame
import proofs.«102808_j38259568673081_2_alg».proof.Proof.Gen.KernelIdeal.Value
import proofs.«102808_j38259568673081_2_alg».proof.Proof.Gen.ReferenceIdeal
import proofs.«102808_j38259568673081_2_alg».proof.Proof.Gen.Pre_finite_inputs
import proofs.«102808_j38259568673081_2_alg».proof.Proof.KernelRun
import proofs.«102808_j38259568673081_2_alg».proof.Proof.RefRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with what it says of the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- No operation was rewritten when the kernel was read over the extended reals. -/
theorem preserves : Cert.preserves_Kernel_KernelIdeal := trivial

/-- From memories that agree on the eight arguments, the data the two programs' results depend on are the same: the
    arguments themselves, and the mean rows, which are one host expression of x and of y. -/
theorem data_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.data m' c = Cert.KernelIdeal.KValue.data m c := by
  obtain ⟨h0, h1, h2, h3, h4, h5, h6, h7⟩ := h
  unfold Cert.ReferenceIdeal.RefValue.data Cert.KernelIdeal.KValue.data
  rw [h0, h1, h2, h3, h4, h5, h6, h7]

/-- Over the extended reals, from memories agreeing on the arguments, both programs end with the specification's two
    result arrays of the same data, and with their arguments unchanged. -/
theorem algebraic : Cert.algebraic_KernelIdeal_ReferenceIdeal := by
  intro m ρ m' ρ' _ hagree
  refine ⟨fun c => Cert.Attn.result (Cert.KernelIdeal.KValue.data m c) 0,
    fun c => Cert.Attn.result (Cert.KernelIdeal.KValue.data m c) 1, Cert.KernelIdeal.KValue.run m ρ, ?_⟩
  refine (θ_run Cert.ReferenceIdeal.defs _ _).mono (fun _ h c => ?_) (Cert.ReferenceIdeal.RefValue.run m' ρ')
  have hd := data_agree m m' c (hagree c)
  obtain ⟨r0, r1, rest⟩ := h c
  exact ⟨r0.trans (congrArg (fun D => Cert.Attn.result D 0) hd), r1.trans (congrArg (fun D => Cert.Attn.result D 1) hd), rest⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
